-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x1000000 : Shape := ⟨2, ![2, 1000000]⟩
abbrev S1000000x32 : Shape := ⟨2, ![1000000, 32]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x32 : Shape := ⟨2, ![64, 32]⟩
abbrev S32x64 : Shape := ⟨2, ![32, 64]⟩
abbrev S32 : Shape := ⟨1, ![32]⟩
abbrev S128x160 : Shape := ⟨2, ![128, 160]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S128x160 : S_.BroadcastsInDim S128x160 (![] : Fin 0 → Fin S128x160.rank)
  reducesTo_S128x160_S_d0_1 : S128x160.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_arg19 : FVec F S64 .f32) (main_arg27 : FVec F S128 .f32) (main_arg33 : FVec F S64 .f32) (main_v168 : IVec S_ 1) (main_v170 : IVec S128 1) : IVec S_ 1 :=
  let main_c_67 : IVec S_ 1 := constantI S_ 1 1#1
  let main_v171 : IVec S_ 1 := (fun x v => Host.reduce IntOp.andi x v reducesTo_S128_S_d0 h_S_) main_v170 main_c_67
  let main_v172 : IVec S_ 1 := andi main_v168 main_v171
  let main_cst_68 : FVec F S_ .f32 := constant S_ .f32 0x00000000#32
  let main_v173 : FVec F S64 .f32 := broadcastInDim S64 ![] bcast_S_S64 main_cst_68
  let main_v174 : IVec S64 1 := cmpf .oge main_arg19 main_v173
  let main_c_69 : IVec S_ 1 := constantI S_ 1 1#1
  let main_v175 : IVec S_ 1 := (fun x v => Host.reduce IntOp.andi x v reducesTo_S64_S_d0 h_S_) main_v174 main_c_69
  let main_v176 : IVec S_ 1 := andi main_v172 main_v175
  let main_cst_70 : FVec F S_ .f32 := constant S_ .f32 0x00000000#32
  let main_v177 : FVec F S128 .f32 := broadcastInDim S128 ![] bcast_S_S128 main_cst_70
  let main_v178 : IVec S128 1 := cmpf .oge main_arg27 main_v177
  let main_c_71 : IVec S_ 1 := constantI S_ 1 1#1
  let main_v179 : IVec S_ 1 := (fun x v => Host.reduce IntOp.andi x v reducesTo_S128_S_d0 h_S_) main_v178 main_c_71
  let main_v180 : IVec S_ 1 := andi main_v176 main_v179
  let main_cst_72 : FVec F S_ .f32 := constant S_ .f32 0x00000000#32
  let main_v181 : FVec F S64 .f32 := broadcastInDim S64 ![] bcast_S_S64 main_cst_72
  let main_v182 : IVec S64 1 := cmpf .oge main_arg33 main_v181
  let main_c_73 : IVec S_ 1 := constantI S_ 1 1#1
  let main_v183 : IVec S_ 1 := (fun x v => Host.reduce IntOp.andi x v reducesTo_S64_S_d0 h_S_) main_v182 main_c_73
  let main_v184 : IVec S_ 1 := andi main_v180 main_v183
  main_v184

def fn_part9 {F : FTy → Type} [FloatOps F] (main_arg10 : FVec F S128 .f32) (main_arg19 : FVec F S64 .f32) (main_arg27 : FVec F S128 .f32) (main_arg33 : FVec F S64 .f32) (main_arg34 : FVec F S1x64 .f32) (main_arg35 : FVec F S1 .f32) (main_v153 : IVec S_ 1) : IVec S_ 1 :=
  let main_v154 : FVec F S64 .f32 := Host.absf main_arg33
  let main_cst_60 : FVec F S_ .f32 := constant S_ .f32 0x7F800000#32
  let main_v155 : FVec F S64 .f32 := broadcastInDim S64 ![] bcast_S_S64 main_cst_60
  let main_v156 : IVec S64 1 := cmpf .olt main_v154 main_v155
  let main_c_61 : IVec S_ 1 := constantI S_ 1 1#1
  let main_v157 : IVec S_ 1 := (fun x v => Host.reduce IntOp.andi x v reducesTo_S64_S_d0 h_S_) main_v156 main_c_61
  let main_v158 : IVec S_ 1 := andi main_v153 main_v157
  let main_v159 : FVec F S1x64 .f32 := Host.absf main_arg34
  let main_cst_62 : FVec F S_ .f32 := constant S_ .f32 0x7F800000#32
  let main_v160 : FVec F S1x64 .f32 := broadcastInDim S1x64 ![] bcast_S_S1x64 main_cst_62
  let main_v161 : IVec S1x64 1 := cmpf .olt main_v159 main_v160
  let main_c_63 : IVec S_ 1 := constantI S_ 1 1#1
  let main_v162 : IVec S_ 1 := (fun x v => Host.reduce IntOp.andi x v reducesTo_S1x64_S_d0_1 h_S_) main_v161 main_c_63
  let main_v163 : IVec S_ 1 := andi main_v158 main_v162
  let main_v164 : FVec F S1 .f32 := Host.absf main_arg35
  let main_cst_64 : FVec F S_ .f32 := constant S_ .f32 0x7F800000#32
  let main_v165 : FVec F S1 .f32 := broadcastInDim S1 ![] bcast_S_S1 main_cst_64
  let main_v166 : IVec S1 1 := cmpf .olt main_v164 main_v165
  let main_c_65 : IVec S_ 1 := constantI S_ 1 1#1
  let main_v167 : IVec S_ 1 := (fun x v => Host.reduce IntOp.andi x v reducesTo_S1_S_d0 h_S_) main_v166 main_c_65
  let main_v168 : IVec S_ 1 := andi main_v163 main_v167
  let main_cst_66 : FVec F S_ .f32 := constant S_ .f32 0x00000000#32
  let main_v169 : FVec F S128 .f32 := broadcastInDim S128 ![] bcast_S_S128 main_cst_66
  let main_v170 : IVec S128 1 := cmpf .oge main_arg10 main_v169
  fn_part10 (F := F) main_arg19 main_arg27 main_arg33 main_v168 main_v170

def fn_part8 {F : FTy → Type} [FloatOps F] (main_arg10 : FVec F S128 .f32) (main_arg19 : FVec F S64 .f32) (main_arg27 : FVec F S128 .f32) (main_arg30 : FVec F S64 .f32) (main_arg31 : FVec F S64 .f32) (main_arg32 : FVec F S64 .f32) (main_arg33 : FVec F S64 .f32) (main_arg34 : FVec F S1x64 .f32) (main_arg35 : FVec F S1 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg30
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64 .f32 := Host.absf main_arg31
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S64 .f32 := Host.absf main_arg32
  let main_cst_58 : FVec F S_ .f32 := constant S_ .f32 0x7F800000#32
  let main_v150 : FVec F S64 .f32 := broadcastInDim S64 ![] bcast_S_S64 main_cst_58
  let main_v151 : IVec S64 1 := cmpf .olt main_v149 main_v150
  let main_c_59 : IVec S_ 1 := constantI S_ 1 1#1
  let main_v152 : IVec S_ 1 := (fun x v => Host.reduce IntOp.andi x v reducesTo_S64_S_d0 h_S_) main_v151 main_c_59
  let main_v153 : IVec S_ 1 := andi main_v148 main_v152
  fn_part9 (F := F) main_arg10 main_arg19 main_arg27 main_arg33 main_arg34 main_arg35 main_v153

def fn_part7 {F : FTy → Type} [FloatOps F] (main_arg10 : FVec F S128 .f32) (main_arg19 : FVec F S64 .f32) (main_arg27 : FVec F S128 .f32) (main_arg28 : FVec F S64x128 .f32) (main_arg29 : FVec F S64 .f32) (main_arg30 : FVec F S64 .f32) (main_arg31 : FVec F S64 .f32) (main_arg32 : FVec F S64 .f32) (main_arg33 : FVec F S64 .f32) (main_arg34 : FVec F S1x64 .f32) (main_arg35 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S64x128 .f32 := Host.absf main_arg28
  let main_cst_50 : FVec F S_ .f32 := constant S_ .f32 0x7F800000#32
  let main_v130 : FVec F S64x128 .f32 := broadcastInDim S64x128 ![] bcast_S_S64x128 main_cst_50
  let main_v131 : IVec S64x128 1 := cmpf .olt main_v129 main_v130
  let main_c_51 : IVec S_ 1 := constantI S_ 1 1#1
  let main_v132 : IVec S_ 1 := (fun x v => Host.reduce IntOp.andi x v reducesTo_S64x128_S_d0_1 h_S_) main_v131 main_c_51
  let main_v133 : IVec S_ 1 := andi main_v128 main_v132
  let main_v134 : FVec F S64 .f32 := Host.absf main_arg29
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg10 main_arg19 main_arg27 main_arg30 main_arg31 main_arg32 main_arg33 main_arg34 main_arg35 main_v133 main_v136

def fn_part6 {F : FTy → Type} [FloatOps F] (main_arg10 : FVec F S128 .f32) (main_arg19 : FVec F S64 .f32) (main_arg23 : FVec F S128 .f32) (main_arg24 : FVec F S128 .f32) (main_arg25 : FVec F S128 .f32) (main_arg26 : FVec F S128 .f32) (main_arg27 : FVec F S128 .f32) (main_arg28 : FVec F S64x128 .f32) (main_arg29 : FVec F S64 .f32) (main_arg30 : FVec F S64 .f32) (main_arg31 : FVec F S64 .f32) (main_arg32 : FVec F S64 .f32) (main_arg33 : FVec F S64 .f32) (main_arg34 : FVec F S1x64 .f32) (main_arg35 : FVec F S1 .f32) (main_v98 : IVec S_ 1) (main_v101 : IVec S128x160 1) (main_c_39 : IVec S_ 1) : IVec S_ 1 :=
  let main_v102 : IVec S_ 1 := (fun x v => Host.reduce IntOp.andi x v reducesTo_S128x160_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_arg10 main_arg19 main_arg27 main_arg28 main_arg29 main_arg30 main_arg31 main_arg32 main_arg33 main_arg34 main_arg35 main_v118 main_v119

def fn_part5 {F : FTy → Type} [FloatOps F] (main_arg10 : FVec F S128 .f32) (main_arg19 : FVec F S64 .f32) (main_arg20 : FVec F S32x64 .f32) (main_arg21 : FVec F S32 .f32) (main_arg22 : FVec F S128x160 .f32) (main_arg23 : FVec F S128 .f32) (main_arg24 : FVec F S128 .f32) (main_arg25 : FVec F S128 .f32) (main_arg26 : FVec F S128 .f32) (main_arg27 : FVec F S128 .f32) (main_arg28 : FVec F S64x128 .f32) (main_arg29 : FVec F S64 .f32) (main_arg30 : FVec F S64 .f32) (main_arg31 : FVec F S64 .f32) (main_arg32 : FVec F S64 .f32) (main_arg33 : FVec F S64 .f32) (main_arg34 : FVec F S1x64 .f32) (main_arg35 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S32x64 .f32 := Host.absf main_arg20
  let main_cst_34 : FVec F S_ .f32 := constant S_ .f32 0x7F800000#32
  let main_v90 : FVec F S32x64 .f32 := broadcastInDim S32x64 ![] bcast_S_S32x64 main_cst_34
  let main_v91 : IVec S32x64 1 := cmpf .olt main_v89 main_v90
  let main_c_35 : IVec S_ 1 := constantI S_ 1 1#1
  let main_v92 : IVec S_ 1 := (fun x v => Host.reduce IntOp.andi x v reducesTo_S32x64_S_d0_1 h_S_) main_v91 main_c_35
  let main_v93 : IVec S_ 1 := andi main_v88 main_v92
  let main_v94 : FVec F S32 .f32 := Host.absf main_arg21
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S128x160 .f32 := Host.absf main_arg22
  let main_cst_38 : FVec F S_ .f32 := constant S_ .f32 0x7F800000#32
  let main_v100 : FVec F S128x160 .f32 := broadcastInDim S128x160 ![] bcast_S_S128x160 main_cst_38
  let main_v101 : IVec S128x160 1 := cmpf .olt main_v99 main_v100
  let main_c_39 : IVec S_ 1 := constantI S_ 1 1#1
  fn_part6 (F := F) main_arg10 main_arg19 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg10 : FVec F S128 .f32) (main_arg16 : FVec F S64 .f32) (main_arg17 : FVec F S64 .f32) (main_arg18 : FVec F S64 .f32) (main_arg19 : FVec F S64 .f32) (main_arg20 : FVec F S32x64 .f32) (main_arg21 : FVec F S32 .f32) (main_arg22 : FVec F S128x160 .f32) (main_arg23 : FVec F S128 .f32) (main_arg24 : FVec F S128 .f32) (main_arg25 : FVec F S128 .f32) (main_arg26 : FVec F S128 .f32) (main_arg27 : FVec F S128 .f32) (main_arg28 : FVec F S64x128 .f32) (main_arg29 : FVec F S64 .f32) (main_arg30 : FVec F S64 .f32) (main_arg31 : FVec F S64 .f32) (main_arg32 : FVec F S64 .f32) (main_arg33 : FVec F S64 .f32) (main_arg34 : FVec F S1x64 .f32) (main_arg35 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg10 main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg10 : FVec F S128 .f32) (main_arg13 : FVec F S64x128 .f32) (main_arg14 : FVec F S64x32 .f32) (main_arg15 : FVec F S64 .f32) (main_arg16 : FVec F S64 .f32) (main_arg17 : FVec F S64 .f32) (main_arg18 : FVec F S64 .f32) (main_arg19 : FVec F S64 .f32) (main_arg20 : FVec F S32x64 .f32) (main_arg21 : FVec F S32 .f32) (main_arg22 : FVec F S128x160 .f32) (main_arg23 : FVec F S128 .f32) (main_arg24 : FVec F S128 .f32) (main_arg25 : FVec F S128 .f32) (main_arg26 : FVec F S128 .f32) (main_arg27 : FVec F S128 .f32) (main_arg28 : FVec F S64x128 .f32) (main_arg29 : FVec F S64 .f32) (main_arg30 : FVec F S64 .f32) (main_arg31 : FVec F S64 .f32) (main_arg32 : FVec F S64 .f32) (main_arg33 : FVec F S64 .f32) (main_arg34 : FVec F S1x64 .f32) (main_arg35 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg10 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg9 : FVec F S128 .f32) (main_arg10 : FVec F S128 .f32) (main_arg11 : FVec F S64x128 .f32) (main_arg12 : FVec F S64 .f32) (main_arg13 : FVec F S64x128 .f32) (main_arg14 : FVec F S64x32 .f32) (main_arg15 : FVec F S64 .f32) (main_arg16 : FVec F S64 .f32) (main_arg17 : FVec F S64 .f32) (main_arg18 : FVec F S64 .f32) (main_arg19 : FVec F S64 .f32) (main_arg20 : FVec F S32x64 .f32) (main_arg21 : FVec F S32 .f32) (main_arg22 : FVec F S128x160 .f32) (main_arg23 : FVec F S128 .f32) (main_arg24 : FVec F S128 .f32) (main_arg25 : FVec F S128 .f32) (main_arg26 : FVec F S128 .f32) (main_arg27 : FVec F S128 .f32) (main_arg28 : FVec F S64x128 .f32) (main_arg29 : FVec F S64 .f32) (main_arg30 : FVec F S64 .f32) (main_arg31 : FVec F S64 .f32) (main_arg32 : FVec F S64 .f32) (main_arg33 : FVec F S64 .f32) (main_arg34 : FVec F S1x64 .f32) (main_arg35 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg10 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg6 : FVec F S128x128 .f32) (main_arg7 : FVec F S128 .f32) (main_arg8 : FVec F S128 .f32) (main_arg9 : FVec F S128 .f32) (main_arg10 : FVec F S128 .f32) (main_arg11 : FVec F S64x128 .f32) (main_arg12 : FVec F S64 .f32) (main_arg13 : FVec F S64x128 .f32) (main_arg14 : FVec F S64x32 .f32) (main_arg15 : FVec F S64 .f32) (main_arg16 : FVec F S64 .f32) (main_arg17 : FVec F S64 .f32) (main_arg18 : FVec F S64 .f32) (main_arg19 : FVec F S64 .f32) (main_arg20 : FVec F S32x64 .f32) (main_arg21 : FVec F S32 .f32) (main_arg22 : FVec F S128x160 .f32) (main_arg23 : FVec F S128 .f32) (main_arg24 : FVec F S128 .f32) (main_arg25 : FVec F S128 .f32) (main_arg26 : FVec F S128 .f32) (main_arg27 : FVec F S128 .f32) (main_arg28 : FVec F S64x128 .f32) (main_arg29 : FVec F S64 .f32) (main_arg30 : FVec F S64 .f32) (main_arg31 : FVec F S64 .f32) (main_arg32 : FVec F S64 .f32) (main_arg33 : FVec F S64 .f32) (main_arg34 : FVec F S1x64 .f32) (main_arg35 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S100000x128 .f32) (main_arg1 : IVec S2x1600000 32) (main_arg2 : IVec S2x1000000 32) (main_arg3 : FVec F S1000000x32 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S64x128 .f32) (main_arg12 : FVec F S64 .f32) (main_arg13 : FVec F S64x128 .f32) (main_arg14 : FVec F S64x32 .f32) (main_arg15 : FVec F S64 .f32) (main_arg16 : FVec F S64 .f32) (main_arg17 : FVec F S64 .f32) (main_arg18 : FVec F S64 .f32) (main_arg19 : FVec F S64 .f32) (main_arg20 : FVec F S32x64 .f32) (main_arg21 : FVec F S32 .f32) (main_arg22 : FVec F S128x160 .f32) (main_arg23 : FVec F S128 .f32) (main_arg24 : FVec F S128 .f32) (main_arg25 : FVec F S128 .f32) (main_arg26 : FVec F S128 .f32) (main_arg27 : FVec F S128 .f32) (main_arg28 : FVec F S64x128 .f32) (main_arg29 : FVec F S64 .f32) (main_arg30 : FVec F S64 .f32) (main_arg31 : FVec F S64 .f32) (main_arg32 : FVec F S64 .f32) (main_arg33 : FVec F S64 .f32) (main_arg34 : FVec F S1x64 .f32) (main_arg35 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x32 .f32 := Host.absf main_arg3
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S100000x128 : Shape := ⟨2, ![100000, 128]⟩
abbrev S2x1600000 : Shape := ⟨2, ![2, 1600000]⟩
abbrev S2x1000000 : Shape := ⟨2, ![2, 1000000]⟩
abbrev S1000000x32 : Shape := ⟨2, ![1000000, 32]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x32 : Shape := ⟨2, ![64, 32]⟩
abbrev S32x64 : Shape := ⟨2, ![32, 64]⟩
abbrev S32 : Shape := ⟨1, ![32]⟩
abbrev S128x160 : Shape := ⟨2, ![128, 160]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S1x128 : Shape := ⟨2, ![1, 128]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S128x32 : Shape := ⟨2, ![128, 32]⟩
abbrev S32x128 : Shape := ⟨2, ![32, 128]⟩
abbrev S64x1 : Shape := ⟨2, ![64, 1]⟩
abbrev S1x32 : Shape := ⟨2, ![1, 32]⟩
abbrev S1x1 : Shape := ⟨2, ![1, 1]⟩
abbrev S1007616x64 : Shape := ⟨2, ![1007616, 64]⟩
abbrev S1007616x32 : Shape := ⟨2, ![1007616, 32]⟩
abbrev S1007616 : Shape := ⟨1, ![1007616]⟩
abbrev S8192x64 : Shape := ⟨2, ![8192, 64]⟩
abbrev S8192x32 : Shape := ⟨2, ![8192, 32]⟩
abbrev S8192 : Shape := ⟨1, ![8192]⟩
abbrev S8192x128 : Shape := ⟨2, ![8192, 128]⟩
abbrev S8192x1 : Shape := ⟨2, ![8192, 1]⟩

abbrev nBuf : Space → Nat
  | .hbm => 183
  | .vmem => 49
  | .smem => 0
  | _ => 0

abbrev hbmTy0_0 (i : Nat) : BufTy := match i % 128 with
  | 0 => ⟨S100000x128, .f32⟩
  | 1 => ⟨S2x1600000, .i32⟩
  | 2 => ⟨S2x1000000, .i32⟩
  | 3 => ⟨S1000000x32, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S64x128, .f32⟩
  | 12 => ⟨S64, .f32⟩
  | 13 => ⟨S64x128, .f32⟩
  | 14 => ⟨S64x32, .f32⟩
  | 15 => ⟨S64, .f32⟩
  | 16 => ⟨S64, .f32⟩
  | 17 => ⟨S64, .f32⟩
  | 18 => ⟨S64, .f32⟩
  | 19 => ⟨S64, .f32⟩
  | 20 => ⟨S32x64, .f32⟩
  | 21 => ⟨S32, .f32⟩
  | 22 => ⟨S128x160, .f32⟩
  | 23 => ⟨S128, .f32⟩
  | 24 => ⟨S128, .f32⟩
  | 25 => ⟨S128, .f32⟩
  | 26 => ⟨S128, .f32⟩
  | 27 => ⟨S128, .f32⟩
  | 28 => ⟨S64x128, .f32⟩
  | 29 => ⟨S64, .f32⟩
  | 30 => ⟨S64, .f32⟩
  | 31 => ⟨S64, .f32⟩
  | 32 => ⟨S64, .f32⟩
  | 33 => ⟨S64, .f32⟩
  | 34 => ⟨S1x64, .f32⟩
  | 35 => ⟨S1, .f32⟩
  | 36 => ⟨S1x1600000, .i32⟩
  | 37 => ⟨S1600000, .i32⟩
  | 38 => ⟨S1x1600000, .i32⟩
  | 39 => ⟨S1600000, .i32⟩
  | 40 => ⟨S100000x128, .bf16⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .bf16⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S_, .f32⟩
  | 56 => ⟨S1600000, .f32⟩
  | 57 => ⟨S_, .f32⟩
  | 58 => ⟨S100000, .f32⟩
  | 59 => ⟨S1600000x1, .i32⟩
  | 60 => ⟨S100000, .f32⟩
  | 61 => ⟨S_, .f32⟩
  | 62 => ⟨S100000, .f32⟩
  | 63 => ⟨S100000, .f32⟩
  | 64 => ⟨S100000x1, .f32⟩
  | 65 => ⟨S100000x128, .f32⟩
  | 66 => ⟨S100000x128, .f32⟩
  | 67 => ⟨S100000x128, .bf16⟩
  | 68 => ⟨S128x128, .bf16⟩
  | 69 => ⟨S128x128, .bf16⟩
  | 70 => ⟨S128x128, .bf16⟩
  | 71 => ⟨S128x128, .bf16⟩
  | 72 => ⟨S64x128, .bf16⟩
  | 73 => ⟨S128x64, .bf16⟩
  | 74 => ⟨S64x128, .bf16⟩
  | 75 => ⟨S128x64, .bf16⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S100000x64, .bf16⟩
  | 82 => ⟨S100000x64, .bf16⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .bf16⟩
  | 92 => ⟨S1600000x64, .f32⟩
  | 93 => ⟨S_, .f32⟩
  | 94 => ⟨S100000x64, .f32⟩
  | 95 => ⟨S1600000x1, .i32⟩
  | 96 => ⟨S100000x64, .f32⟩
  | 97 => ⟨S_, .f32⟩
  | 98 => ⟨S1600000, .f32⟩
  | 99 => ⟨S_, .f32⟩
  | 100 => ⟨S100000, .f32⟩
  | 101 => ⟨S1600000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x64, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S100000x64, .bf16⟩
  | 115 => ⟨S1x1000000, .i32⟩
  | 116 => ⟨S1000000, .i32⟩
  | 117 => ⟨S1x1000000, .i32⟩
  | 118 => ⟨S1000000, .i32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x64, .bf16⟩
  | _ => ⟨S100000x128, .f32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x64, .bf16⟩
  | 9 => ⟨S1000000x32, .bf16⟩
  | 10 => ⟨S64x32, .bf16⟩
  | 11 => ⟨S32x64, .bf16⟩
  | 12 => ⟨S32x64, .bf16⟩
  | 13 => ⟨S64x32, .bf16⟩
  | 14 => ⟨S128x64, .f32⟩
  | 15 => ⟨S128x64, .bf16⟩
  | 16 => ⟨S64x128, .bf16⟩
  | 17 => ⟨S128x64, .f32⟩
  | 18 => ⟨S128x64, .bf16⟩
  | 19 => ⟨S64x128, .bf16⟩
  | 20 => ⟨S128x32, .f32⟩
  | 21 => ⟨S128x32, .bf16⟩
  | 22 => ⟨S32x128, .bf16⟩
  | 23 => ⟨S64x128, .bf16⟩
  | 24 => ⟨S128x64, .bf16⟩
  | 25 => ⟨S1x64, .bf16⟩
  | 26 => ⟨S64x1, .bf16⟩
  | 27 => ⟨S1x64, .f32⟩
  | 28 => ⟨S1x64, .f32⟩
  | 29 => ⟨S1x64, .f32⟩
  | 30 => ⟨S1x64, .f32⟩
  | 31 => ⟨S1x64, .f32⟩
  | 32 => ⟨S1x32, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S1x64, .f32⟩
  | 39 => ⟨S1x64, .f32⟩
  | 40 => ⟨S1x64, .f32⟩
  | 41 => ⟨S1x64, .f32⟩
  | 42 => ⟨S1x64, .f32⟩
  | 43 => ⟨S1x1, .f32⟩
  | 44 => ⟨S_, .i32⟩
  | 45 => ⟨S_, .bf16⟩
  | 46 => ⟨S1007616x64, .bf16⟩
  | 47 => ⟨S_, .i32⟩
  | 48 => ⟨S_, .bf16⟩
  | 49 => ⟨S1007616x64, .bf16⟩
  | 50 => ⟨S_, .i32⟩
  | 51 => ⟨S_, .bf16⟩
  | 52 => ⟨S1007616x32, .bf16⟩
  | 53 => ⟨S1007616, .f32⟩
  | 54 => ⟨S1000000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x64, .bf16⟩
  | .local _ .vmem, ⟨12, _⟩ => ⟨S128x64, .bf16⟩
  | .local _ .vmem, ⟨13, _⟩ => ⟨S5000x64, .bf16⟩
  | .local _ .vmem, ⟨14, _⟩ => ⟨S5000x64, .bf16⟩
  | .local _ .vmem, ⟨15, _⟩ => ⟨S5000x64, .bf16⟩
  | .local _ .vmem, ⟨16, _⟩ => ⟨S5000x64, .bf16⟩
  | .local _ .vmem, ⟨17, _⟩ => ⟨S8192x64, .bf16⟩
  | .local _ .vmem, ⟨18, _⟩ => ⟨S8192x64, .bf16⟩
  | .local _ .vmem, ⟨19, _⟩ => ⟨S8192x64, .bf16⟩
  | .local _ .vmem, ⟨20, _⟩ => ⟨S8192x64, .bf16⟩
  | .local _ .vmem, ⟨21, _⟩ => ⟨S8192x32, .bf16⟩
  | .local _ .vmem, ⟨22, _⟩ => ⟨S8192x32, .bf16⟩
  | .local _ .vmem, ⟨23, _⟩ => ⟨S32x64, .bf16⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S64x32, .bf16⟩
  | .local _ .vmem, ⟨30, _⟩ => ⟨S1x32, .f32⟩
  | .local _ .vmem, ⟨31, _⟩ => ⟨S64x128, .bf16⟩
  | .local _ .vmem, ⟨32, _⟩ => ⟨S64x128, .bf16⟩
  | .local _ .vmem, ⟨33, _⟩ => ⟨S32x128, .bf16⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S128x64, .bf16⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S64x1, .bf16⟩
  | .local _ .vmem, ⟨46, _⟩ => ⟨S1x1, .f32⟩
  | .local _ .vmem, ⟨47, _⟩ => ⟨S8192, .f32⟩
  | .local _ .vmem, ⟨48, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_c : Ref sig .tc := ⟨.hbm, 41, rfl⟩
abbrev main_v5 : Ref sig .tc := ⟨.hbm, 42, rfl⟩
abbrev main_v6 : Ref sig .tc := ⟨.hbm, 43, rfl⟩
abbrev main_c_0 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst_1 : Ref sig .tc := ⟨.hbm, 55, rfl⟩
abbrev main_v16 : Ref sig .tc := ⟨.hbm, 56, rfl⟩
abbrev main_cst_2 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_3 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39_0 : Ref sig .tc := ⟨.hbm, 81, rfl⟩
abbrev main_v39_1 : Ref sig .tc := ⟨.hbm, 82, rfl⟩
abbrev main_c_4 : Ref sig .tc := ⟨.hbm, 83, rfl⟩
abbrev main_v40 : Ref sig .tc := ⟨.hbm, 84, rfl⟩
abbrev main_v41 : Ref sig .tc := ⟨.hbm, 85, rfl⟩
abbrev main_c_5 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_6 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_7 : Ref sig .tc := ⟨.hbm, 97, rfl⟩
abbrev main_v51 : Ref sig .tc := ⟨.hbm, 98, rfl⟩
abbrev main_cst_8 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_9 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_c_10 : Ref sig .tc := ⟨.hbm, 119, rfl⟩
abbrev main_v70 : Ref sig .tc := ⟨.hbm, 120, rfl⟩
abbrev main_v71 : Ref sig .tc := ⟨.hbm, 121, rfl⟩
abbrev main_c_11 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_c_12 : Ref sig .tc := ⟨.hbm, 128, rfl⟩
abbrev main_v77 : Ref sig .tc := ⟨.hbm, 129, rfl⟩
abbrev main_v78 : Ref sig .tc := ⟨.hbm, 130, rfl⟩
abbrev main_c_13 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_14 : Ref sig .tc := ⟨.hbm, 172, rfl⟩
abbrev main_call0_v0 : Ref sig .tc := ⟨.hbm, 173, rfl⟩
abbrev main_v119 : Ref sig .tc := ⟨.hbm, 174, rfl⟩
abbrev main_c_15 : Ref sig .tc := ⟨.hbm, 175, rfl⟩
abbrev main_call1_v0 : Ref sig .tc := ⟨.hbm, 176, rfl⟩
abbrev main_v120 : Ref sig .tc := ⟨.hbm, 177, rfl⟩
abbrev main_c_16 : Ref sig .tc := ⟨.hbm, 178, rfl⟩
abbrev main_call2_v0 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg15_0 : Ref sig .tc := ⟨.vmem, 35, rfl⟩
abbrev cc1_stg16_0 : Ref sig .tc := ⟨.vmem, 36, rfl⟩
abbrev cc1_stg17_0 : Ref sig .tc := ⟨.vmem, 37, rfl⟩
abbrev cc1_stg18_0 : Ref sig .tc := ⟨.vmem, 38, rfl⟩
abbrev cc1_stg19_0 : Ref sig .tc := ⟨.vmem, 39, rfl⟩
abbrev cc1_stg20_0 : Ref sig .tc := ⟨.vmem, 40, rfl⟩
abbrev cc1_stg21_0 : Ref sig .tc := ⟨.vmem, 41, rfl⟩
abbrev cc1_stg22_0 : Ref sig .tc := ⟨.vmem, 42, rfl⟩
abbrev cc1_stg23_0 : Ref sig .tc := ⟨.vmem, 43, rfl⟩
abbrev cc1_stg24_0 : Ref sig .tc := ⟨.vmem, 44, rfl⟩
abbrev cc1_stg25_0 : Ref sig .tc := ⟨.vmem, 45, rfl⟩
abbrev cc1_stg26_0 : Ref sig .tc := ⟨.vmem, 46, rfl⟩
abbrev cc1_stg27_0 : Ref sig .tc := ⟨.vmem, 47, rfl⟩
abbrev cc1_stg27_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem15_0 : DmaSem sig := 35
abbrev cc1_sem16_0 : DmaSem sig := 36
abbrev cc1_sem17_0 : DmaSem sig := 37
abbrev cc1_sem18_0 : DmaSem sig := 38
abbrev cc1_sem19_0 : DmaSem sig := 39
abbrev cc1_sem20_0 : DmaSem sig := 40
abbrev cc1_sem21_0 : DmaSem sig := 41
abbrev cc1_sem22_0 : DmaSem sig := 42
abbrev cc1_sem23_0 : DmaSem sig := 43
abbrev cc1_sem24_0 : DmaSem sig := 44
abbrev cc1_sem25_0 : DmaSem sig := 45
abbrev cc1_sem26_0 : DmaSem sig := 46
abbrev cc1_sem27_0 : DmaSem sig := 47
abbrev cc1_sem27_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_27 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S8192x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x32 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x128 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S32x128 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S128x64 .bf16 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x64 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x64 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x64 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x64 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x64 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S64x1 .bf16 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S1x1 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 2 → Memref sig .tc .vmem S8192 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  transposes_S64x128_S128x64_1_0 : S64x128.Transposes [1, 0] S128x64
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x32_S32x64_1_0 : S64x32.Transposes [1, 0] S32x64
  transposes_S32x64_S64x32_1_0 : S32x64.Transposes [1, 0] S64x32
  slices_S128x160_S128x64_0_0 : S128x160.Slices ![0, 0] S128x64
  transposes_S128x64_S64x128_1_0 : S128x64.Transposes [1, 0] S64x128
  slices_S128x160_S128x64_0_64 : S128x160.Slices ![0, 64] S128x64
  slices_S128x160_S128x32_0_128 : S128x160.Slices ![0, 128] S128x32
  transposes_S128x32_S32x128_1_0 : S128x32.Transposes [1, 0] S32x128
  transposes_S1x64_S64x1_1_0 : S1x64.Transposes [1, 0] S64x1
  shapeCasts_S64_S1x64 : S64.ShapeCasts S1x64
  shapeCasts_S32_S1x32 : S32.ShapeCasts S1x32
  shapeCasts_S1_S1x1 : S1.ShapeCasts S1x1
  pads_S1000000x64_S1007616x64_076160_000 : S1000000x64.Pads (![0, 0] : Fin 2 → Nat) ![7616, 0] ![0, 0] S1007616x64
  h_S_ : 0 < S_.numel
  pads_S1000000x32_S1007616x32_076160_000 : S1000000x32.Pads (![0, 0] : Fin 2 → Nat) ![7616, 0] ![0, 0] S1007616x32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x128_S8192x128 : S1x128.Broadcasts S8192x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S8192x1_S8192 : S8192x1.ShapeCasts S8192
  inb_S8192_S8192_0 : ∀ a, (![0] : Fin 1 → Nat) a + S8192.size a ≤ S8192.size a
  h_S8192 : 0 < S8192.numel
  slices_S1007616_S1000000_0 : S1007616.Slices ![0] S1000000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S1000000x1_S1000000x64_1_0_n_n_0_1_164_wf : GatherDims.WF S100000x64 S1000000x1 S1000000x64 [1] [0] [] [0] [] 1 ![1, 64]
  dot_S8192x32_S32x64_S8192x64_1_0_0_1_n_n_wf : DotDims.WF S8192x32 S32x64 S8192x64 [1] [0] [0] [1] [] []
  dot_S8192x64_S64x32_S8192x32_1_0_0_1_n_n_wf : DotDims.WF S8192x64 S64x32 S8192x32 [1] [0] [0] [1] [] []
  dot_S8192x64_S64x128_S8192x128_1_0_0_1_n_n_wf : DotDims.WF S8192x64 S64x128 S8192x128 [1] [0] [0] [1] [] []
  dot_S8192x32_S32x128_S8192x128_1_0_0_1_n_n_wf : DotDims.WF S8192x32 S32x128 S8192x128 [1] [0] [0] [1] [] []
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .bf16 = 32 ∨ (Rect.block (s := S100000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .bf16 = 32 ∨ (Rect.block (s := S128x64) S128x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .bf16 = 32 ∨ (Rect.block (s := S100000x64) S5000x64.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x64.size a ≤ S100000x64.size a
  hwx0_12 : ∀ i : grid0.Coords, EltTy.bits .bf16 = 32 ∨ (Rect.block (s := S100000x64) S5000x64.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1007616x64.size a
  hwx1_0 : ∀ i : grid1.Coords, EltTy.bits .bf16 = 32 ∨ (Rect.block (s := S1007616x64) S8192x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S1007616x64.size a
  hwx1_1 : ∀ i : grid1.Coords, EltTy.bits .bf16 = 32 ∨ (Rect.block (s := S1007616x64) S8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x32.size a ≤ S1007616x32.size a
  hwx1_2 : ∀ i : grid1.Coords, EltTy.bits .bf16 = 32 ∨ (Rect.block (s := S1007616x32) S8192x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .bf16 = 32 ∨ (Rect.block (s := S32x64) S32x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x32.size a ≤ S64x32.size a
  hwx1_9 : ∀ i : grid1.Coords, EltTy.bits .bf16 = 32 ∨ (Rect.block (s := S64x32) S64x32.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x128.size a ≤ S64x128.size a
  hwx1_11 : ∀ i : grid1.Coords, EltTy.bits .bf16 = 32 ∨ (Rect.block (s := S64x128) S64x128.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x128.size a ≤ S64x128.size a
  hwx1_12 : ∀ i : grid1.Coords, EltTy.bits .bf16 = 32 ∨ (Rect.block (s := S64x128) S64x128.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S32x128.size a ≤ S32x128.size a
  hwx1_13 : ∀ i : grid1.Coords, EltTy.bits .bf16 = 32 ∨ (Rect.block (s := S32x128) S32x128.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x128.size a ≤ S1x128.size a
  hwx1_16 : ∀ i : grid1.Coords, EltTy.bits .f32 = 32 ∨ (Rect.block (s := S1x128) S1x128.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x128.size a ≤ S1x128.size a
  hwx1_17 : ∀ i : grid1.Coords, EltTy.bits .f32 = 32 ∨ (Rect.block (s := S1x128) S1x128.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x128.size a ≤ S1x128.size a
  hwx1_18 : ∀ i : grid1.Coords, EltTy.bits .f32 = 32 ∨ (Rect.block (s := S1x128) S1x128.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S128x64.size a ≤ S128x64.size a
  hwx1_19 : ∀ i : grid1.Coords, EltTy.bits .bf16 = 32 ∨ (Rect.block (s := S128x64) S128x64.size (cc1_transform_19 i) (hinb1_19 i)).WholeWords (EltTy.packing .bf16)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x64.size a ≤ S1x64.size a
  hwx1_20 : ∀ i : grid1.Coords, EltTy.bits .f32 = 32 ∨ (Rect.block (s := S1x64) S1x64.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S1x64.size a ≤ S1x64.size a
  hwx1_21 : ∀ i : grid1.Coords, EltTy.bits .f32 = 32 ∨ (Rect.block (s := S1x64) S1x64.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S1x64.size a ≤ S1x64.size a
  hwx1_22 : ∀ i : grid1.Coords, EltTy.bits .f32 = 32 ∨ (Rect.block (s := S1x64) S1x64.size (cc1_transform_22 i) (hinb1_22 i)).WholeWords (EltTy.packing .f32)
  hstage1_23 : ∀ j, (stage1_23 j).IsWhole
  nbuf1_23 : grid1.bufCount reads1_23 true = 1
  hreads1_23 : ∀ i i' : grid1.Coords, (∀ a, reads1_23 a = true → i a = i' a) → cc1_transform_23 i = cc1_transform_23 i'
  hinb1_23 : ∀ (i : grid1.Coords) a, (cc1_transform_23 i a + 1) * S1x64.size a ≤ S1x64.size a
  hwx1_23 : ∀ i : grid1.Coords, EltTy.bits .f32 = 32 ∨ (Rect.block (s := S1x64) S1x64.size (cc1_transform_23 i) (hinb1_23 i)).WholeWords (EltTy.packing .f32)
  hstage1_24 : ∀ j, (stage1_24 j).IsWhole
  nbuf1_24 : grid1.bufCount reads1_24 true = 1
  hreads1_24 : ∀ i i' : grid1.Coords, (∀ a, reads1_24 a = true → i a = i' a) → cc1_transform_24 i = cc1_transform_24 i'
  hinb1_24 : ∀ (i : grid1.Coords) a, (cc1_transform_24 i a + 1) * S1x64.size a ≤ S1x64.size a
  hwx1_24 : ∀ i : grid1.Coords, EltTy.bits .f32 = 32 ∨ (Rect.block (s := S1x64) S1x64.size (cc1_transform_24 i) (hinb1_24 i)).WholeWords (EltTy.packing .f32)
  hstage1_25 : ∀ j, (stage1_25 j).IsWhole
  nbuf1_25 : grid1.bufCount reads1_25 true = 1
  hreads1_25 : ∀ i i' : grid1.Coords, (∀ a, reads1_25 a = true → i a = i' a) → cc1_transform_25 i = cc1_transform_25 i'
  hinb1_25 : ∀ (i : grid1.Coords) a, (cc1_transform_25 i a + 1) * S64x1.size a ≤ S64x1.size a
  hwx1_25 : ∀ i : grid1.Coords, EltTy.bits .bf16 = 32 ∨ (Rect.block (s := S64x1) S64x1.size (cc1_transform_25 i) (hinb1_25 i)).WholeWords (EltTy.packing .bf16)
  hstage1_26 : ∀ j, (stage1_26 j).IsWhole
  nbuf1_26 : grid1.bufCount reads1_26 true = 1
  hreads1_26 : ∀ i i' : grid1.Coords, (∀ a, reads1_26 a = true → i a = i' a) → cc1_transform_26 i = cc1_transform_26 i'
  hinb1_26 : ∀ (i : grid1.Coords) a, (cc1_transform_26 i a + 1) * S1x1.size a ≤ S1x1.size a
  hwx1_26 : ∀ i : grid1.Coords, EltTy.bits .f32 = 32 ∨ (Rect.block (s := S1x1) S1x1.size (cc1_transform_26 i) (hinb1_26 i)).WholeWords (EltTy.packing .f32)
  hstage1_27 : ∀ j, (stage1_27 j).IsWhole
  nbuf1_27 : grid1.bufCount reads1_27 false = 2
  hreads1_27 : ∀ i i' : grid1.Coords, (∀ a, reads1_27 a = true → i a = i' a) → cc1_transform_27 i = cc1_transform_27 i'
  hinb1_27 : ∀ (i : grid1.Coords) a, (cc1_transform_27 i a + 1) * S8192.size a ≤ S1007616.size a
  hwx1_27 : ∀ i : grid1.Coords, EltTy.bits .f32 = 32 ∨ (Rect.block (s := S1007616) S8192.size (cc1_transform_27 i) (hinb1_27 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39_0) S5000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v39_1) S5000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v119) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v120) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v121) S8192x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v86) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v102) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v103) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v104) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v105) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v106) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v88) S64x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v107) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v91) S64x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v94) S64x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v97) S32x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v108) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v109) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v110) S1x128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v111) S1x128.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v112) S1x128.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v99) S128x64.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v113) S1x64.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v114) S1x64.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_v115) S1x64.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_v116) S1x64.size cc1_transform_23 reads1_23 false true 1 stage1_23 sem1_23
    hrank1 hreads1_23 hinb1_23 nbuf1_23 (Memref.isWhole_whole _) hwx1_23 hstage1_23

abbrev win1_24 : Pipeline.Window sig grid1 :=
  Pipeline.Window.ofSpec (Memref.whole main_v117) S1x64.size cc1_transform_24 reads1_24 false true 1 stage1_24 sem1_24
    hrank1 hreads1_24 hinb1_24 nbuf1_24 (Memref.isWhole_whole _) hwx1_24 hstage1_24

abbrev win1_25 : Pipeline.Window sig grid1 :=
  Pipeline.Window.ofSpec (Memref.whole main_v101) S64x1.size cc1_transform_25 reads1_25 false true 1 stage1_25 sem1_25
    hrank1 hreads1_25 hinb1_25 nbuf1_25 (Memref.isWhole_whole _) hwx1_25 hstage1_25

abbrev win1_26 : Pipeline.Window sig grid1 :=
  Pipeline.Window.ofSpec (Memref.whole main_v118) S1x1.size cc1_transform_26 reads1_26 false true 1 stage1_26 sem1_26
    hrank1 hreads1_26 hinb1_26 nbuf1_26 (Memref.isWhole_whole _) hwx1_26 hstage1_26

abbrev win1_27 : Pipeline.Window sig grid1 :=
  Pipeline.Window.ofSpec (Memref.whole main_v122) S8192.size cc1_transform_27 reads1_27 true false 2 stage1_27 sem1_27
    hrank1 hreads1_27 hinb1_27 nbuf1_27 (Memref.isWhole_whole _) hwx1_27 hstage1_27

abbrev win1 : Fin 28 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | 25 => win1_25 | 26 => win1_26 | 27 => win1_27 | ⟨_ + 28, h⟩ => absurd h (Nat.not_lt.2 (Nat.le_add_left _ _))
abbrev spec1 : Fin 28 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x1000000 : Shape := ⟨2, ![2, 1000000]⟩
abbrev S1000000x32 : Shape := ⟨2, ![1000000, 32]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x32 : Shape := ⟨2, ![64, 32]⟩
abbrev S32x64 : Shape := ⟨2, ![32, 64]⟩
abbrev S32 : Shape := ⟨1, ![32]⟩
abbrev S128x160 : Shape := ⟨2, ![128, 160]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1000000x128 : Shape := ⟨2, ![1000000, 128]⟩
abbrev S1x32 : Shape := ⟨2, ![1, 32]⟩
abbrev S1000000x160 : Shape := ⟨2, ![1000000, 160]⟩
abbrev S160x128 : Shape := ⟨2, ![160, 128]⟩
abbrev S64x1 : Shape := ⟨2, ![64, 1]⟩
abbrev S1x1 : Shape := ⟨2, ![1, 1]⟩

abbrev nBuf : Space → Nat
  | .hbm => 224
  | .vmem => 0
  | .smem => 0
  | _ => 0

abbrev hbmTy0_0 (i : Nat) : BufTy := match i % 128 with
  | 0 => ⟨S100000x128, .f32⟩
  | 1 => ⟨S2x1600000, .i32⟩
  | 2 => ⟨S2x1000000, .i32⟩
  | 3 => ⟨S1000000x32, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S64x128, .f32⟩
  | 12 => ⟨S64, .f32⟩
  | 13 => ⟨S64x128, .f32⟩
  | 14 => ⟨S64x32, .f32⟩
  | 15 => ⟨S64, .f32⟩
  | 16 => ⟨S64, .f32⟩
  | 17 => ⟨S64, .f32⟩
  | 18 => ⟨S64, .f32⟩
  | 19 => ⟨S64, .f32⟩
  | 20 => ⟨S32x64, .f32⟩
  | 21 => ⟨S32, .f32⟩
  | 22 => ⟨S128x160, .f32⟩
  | 23 => ⟨S128, .f32⟩
  | 24 => ⟨S128, .f32⟩
  | 25 => ⟨S128, .f32⟩
  | 26 => ⟨S128, .f32⟩
  | 27 => ⟨S128, .f32⟩
  | 28 => ⟨S64x128, .f32⟩
  | 29 => ⟨S64, .f32⟩
  | 30 => ⟨S64, .f32⟩
  | 31 => ⟨S64, .f32⟩
  | 32 => ⟨S64, .f32⟩
  | 33 => ⟨S64, .f32⟩
  | 34 => ⟨S1x64, .f32⟩
  | 35 => ⟨S1, .f32⟩
  | 36 => ⟨S1x1600000, .i32⟩
  | 37 => ⟨S1600000, .i32⟩
  | 38 => ⟨S1x1600000, .i32⟩
  | 39 => ⟨S1600000, .i32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S_, .f32⟩
  | 54 => ⟨S1600000, .f32⟩
  | 55 => ⟨S_, .f32⟩
  | 56 => ⟨S100000, .f32⟩
  | 57 => ⟨S1600000x1, .i32⟩
  | 58 => ⟨S100000, .f32⟩
  | 59 => ⟨S_, .f32⟩
  | 60 => ⟨S100000, .f32⟩
  | 61 => ⟨S100000, .f32⟩
  | 62 => ⟨S100000x1, .f32⟩
  | 63 => ⟨S100000x128, .f32⟩
  | 64 => ⟨S100000x128, .f32⟩
  | 65 => ⟨S128x128, .f32⟩
  | 66 => ⟨S100000x128, .f32⟩
  | 67 => ⟨S1x128, .f32⟩
  | 68 => ⟨S100000x128, .f32⟩
  | 69 => ⟨S100000x128, .f32⟩
  | 70 => ⟨S128x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S_, .f32⟩
  | 104 => ⟨S1600000, .f32⟩
  | 105 => ⟨S_, .f32⟩
  | 106 => ⟨S100000, .f32⟩
  | 107 => ⟨S1600000x1, .i32⟩
  | 108 => ⟨S100000, .f32⟩
  | 109 => ⟨S_, .f32⟩
  | 110 => ⟨S100000, .f32⟩
  | 111 => ⟨S100000, .f32⟩
  | 112 => ⟨S100000x1, .f32⟩
  | 113 => ⟨S100000x128, .f32⟩
  | 114 => ⟨S100000x128, .f32⟩
  | 115 => ⟨S128x64, .f32⟩
  | 116 => ⟨S100000x64, .f32⟩
  | 117 => ⟨S1x64, .f32⟩
  | 118 => ⟨S100000x64, .f32⟩
  | 119 => ⟨S100000x64, .f32⟩
  | 120 => ⟨S128x64, .f32⟩
  | 121 => ⟨S100000x64, .f32⟩
  | 122 => ⟨S100000x64, .f32⟩
  | 123 => ⟨S1x1000000, .i32⟩
  | 124 => ⟨S1000000, .i32⟩
  | 125 => ⟨S_, .i32⟩
  | 126 => ⟨S1000000, .i32⟩
  | 127 => ⟨S1000000, .i1⟩
  | _ => ⟨S100000x128, .f32⟩

abbrev hbmTy0_1 (i : Nat) : BufTy := match i % 128 with
  | 0 => ⟨S_, .i32⟩
  | 1 => ⟨S1000000, .i32⟩
  | 2 => ⟨S1000000, .i32⟩
  | 3 => ⟨S1000000, .i32⟩
  | 4 => ⟨S1000000x1, .i32⟩
  | 5 => ⟨S1000000x64, .f32⟩
  | 6 => ⟨S1x1000000, .i32⟩
  | 7 => ⟨S1000000, .i32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x64, .f32⟩
  | 17 => ⟨S1000000x128, .f32⟩
  | 18 => ⟨S32x64, .f32⟩
  | 19 => ⟨S1000000x64, .f32⟩
  | 20 => ⟨S1x64, .f32⟩
  | 21 => ⟨S1000000x64, .f32⟩
  | 22 => ⟨S1000000x64, .f32⟩
  | 23 => ⟨S1x64, .f32⟩
  | 24 => ⟨S1000000x64, .f32⟩
  | 25 => ⟨S1000000x64, .f32⟩
  | 26 => ⟨S_, .f32⟩
  | 27 => ⟨S64, .f32⟩
  | 28 => ⟨S64, .f32⟩
  | 29 => ⟨S64, .f32⟩
  | 30 => ⟨S64, .f32⟩
  | 31 => ⟨S1x64, .f32⟩
  | 32 => ⟨S1000000x64, .f32⟩
  | 33 => ⟨S1000000x64, .f32⟩
  | 34 => ⟨S1x64, .f32⟩
  | 35 => ⟨S1000000x64, .f32⟩
  | 36 => ⟨S1000000x64, .f32⟩
  | 37 => ⟨S_, .f32⟩
  | 38 => ⟨S1000000x64, .f32⟩
  | 39 => ⟨S1000000x64, .f32⟩
  | 40 => ⟨S64x32, .f32⟩
  | 41 => ⟨S1000000x32, .f32⟩
  | 42 => ⟨S1x32, .f32⟩
  | 43 => ⟨S1000000x32, .f32⟩
  | 44 => ⟨S1000000x32, .f32⟩
  | 45 => ⟨S1000000x160, .f32⟩
  | 46 => ⟨S160x128, .f32⟩
  | 47 => ⟨S1000000x128, .f32⟩
  | 48 => ⟨S1x128, .f32⟩
  | 49 => ⟨S1000000x128, .f32⟩
  | 50 => ⟨S1000000x128, .f32⟩
  | 51 => ⟨S1x128, .f32⟩
  | 52 => ⟨S1000000x128, .f32⟩
  | 53 => ⟨S1000000x128, .f32⟩
  | 54 => ⟨S_, .f32⟩
  | 55 => ⟨S128, .f32⟩
  | 56 => ⟨S128, .f32⟩
  | 57 => ⟨S128, .f32⟩
  | 58 => ⟨S128, .f32⟩
  | 59 => ⟨S1x128, .f32⟩
  | 60 => ⟨S1000000x128, .f32⟩
  | 61 => ⟨S1000000x128, .f32⟩
  | 62 => ⟨S1x128, .f32⟩
  | 63 => ⟨S1000000x128, .f32⟩
  | 64 => ⟨S1000000x128, .f32⟩
  | 65 => ⟨S_, .f32⟩
  | 66 => ⟨S1000000x128, .f32⟩
  | 67 => ⟨S1000000x128, .f32⟩
  | 68 => ⟨S128x64, .f32⟩
  | 69 => ⟨S1000000x64, .f32⟩
  | 70 => ⟨S1x64, .f32⟩
  | 71 => ⟨S1000000x64, .f32⟩
  | 72 => ⟨S1000000x64, .f32⟩
  | 73 => ⟨S1x64, .f32⟩
  | 74 => ⟨S1000000x64, .f32⟩
  | 75 => ⟨S1000000x64, .f32⟩
  | 76 => ⟨S_, .f32⟩
  | 77 => ⟨S64, .f32⟩
  | 78 => ⟨S64, .f32⟩
  | 79 => ⟨S64, .f32⟩
  | 80 => ⟨S64, .f32⟩
  | 81 => ⟨S1x64, .f32⟩
  | 82 => ⟨S1000000x64, .f32⟩
  | 83 => ⟨S1000000x64, .f32⟩
  | 84 => ⟨S1x64, .f32⟩
  | 85 => ⟨S1000000x64, .f32⟩
  | 86 => ⟨S1000000x64, .f32⟩
  | 87 => ⟨S_, .f32⟩
  | 88 => ⟨S1000000x64, .f32⟩
  | 89 => ⟨S1000000x64, .f32⟩
  | 90 => ⟨S64x1, .f32⟩
  | 91 => ⟨S1000000x1, .f32⟩
  | 92 => ⟨S1x1, .f32⟩
  | 93 => ⟨S1000000x1, .f32⟩
  | 94 => ⟨S1000000x1, .f32⟩
  | 95 => ⟨S1000000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_c : Ref sig .tc := ⟨.hbm, 40, rfl⟩
abbrev main_v4 : Ref sig .tc := ⟨.hbm, 41, rfl⟩
abbrev main_v5 : Ref sig .tc := ⟨.hbm, 42, rfl⟩
abbrev main_c_0 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst_1 : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_3 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_4 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_call0_cst : Ref sig .tc := ⟨.hbm, 87, rfl⟩
abbrev main_call0_v0 : Ref sig .tc := ⟨.hbm, 88, rfl⟩
abbrev main_v44 : Ref sig .tc := ⟨.hbm, 89, rfl⟩
abbrev main_c_5 : Ref sig .tc := ⟨.hbm, 90, rfl⟩
abbrev main_v45 : Ref sig .tc := ⟨.hbm, 91, rfl⟩
abbrev main_v46 : Ref sig .tc := ⟨.hbm, 92, rfl⟩
abbrev main_c_6 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_7 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_8 : Ref sig .tc := ⟨.hbm, 103, rfl⟩
abbrev main_v55 : Ref sig .tc := ⟨.hbm, 104, rfl⟩
abbrev main_cst_9 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_10 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_c_11 : Ref sig .tc := ⟨.hbm, 125, rfl⟩
abbrev main_v74 : Ref sig .tc := ⟨.hbm, 126, rfl⟩
abbrev main_v75 : Ref sig .tc := ⟨.hbm, 127, rfl⟩
abbrev main_c_12 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_c_13 : Ref sig .tc := ⟨.hbm, 136, rfl⟩
abbrev main_v83 : Ref sig .tc := ⟨.hbm, 137, rfl⟩
abbrev main_v84 : Ref sig .tc := ⟨.hbm, 138, rfl⟩
abbrev main_c_14 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_15 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_call1_cst : Ref sig .tc := ⟨.hbm, 165, rfl⟩
abbrev main_call1_v0 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_16 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_call2_cst : Ref sig .tc := ⟨.hbm, 193, rfl⟩
abbrev main_call2_v0 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_cst_17 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_call3_cst : Ref sig .tc := ⟨.hbm, 215, rfl⟩
abbrev main_call3_v0 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x64_S1000000x64_S1000000x128_d1 : Shape.Concatenates [S1000000x64, S1000000x64] S1000000x128 1
  transposes_S64x32_S32x64_1_0 : S64x32.Transposes [1, 0] S32x64
  bcast_S1x64_S1000000x64_0_1 : S1x64.BroadcastsInDim S1000000x64 (![0, 1] : Fin 2 → Fin S1000000x64.rank)
  bcast_S_S64 : S_.BroadcastsInDim S64 (![] : Fin 0 → Fin S64.rank)
  bcast_S_S1000000x64 : S_.BroadcastsInDim S1000000x64 (![] : Fin 0 → Fin S1000000x64.rank)
  transposes_S32x64_S64x32_1_0 : S32x64.Transposes [1, 0] S64x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  concatenates_S1000000x128_S1000000x32_S1000000x160_d1 : Shape.Concatenates [S1000000x128, S1000000x32] S1000000x160 1
  transposes_S128x160_S160x128_1_0 : S128x160.Transposes [1, 0] S160x128
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x32_S32x64_S1000000x64_1_0_0_1_n_n_wf : DotDims.WF S1000000x32 S32x64 S1000000x64 [1] [0] [0] [1] [] []
  dot_S1000000x64_S64x32_S1000000x32_1_0_0_1_n_n_wf : DotDims.WF S1000000x64 S64x32 S1000000x32 [1] [0] [0] [1] [] []
  dot_S1000000x160_S160x128_S1000000x128_1_0_0_1_n_n_wf : DotDims.WF S1000000x160 S160x128 S1000000x128 [1] [0] [0] [1] [] []
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x160_S160x128_S1000000x128_1_0_0_1_n_n : DotDims S1000000x160 S160x128 S1000000x128 where
  lhsContracting := [1]
  rhsContracting := [0]
  lhsNonContracting := [0]
  rhsNonContracting := [1]
  lhsBatch := []
  rhsBatch := []
  wf := dot_S1000000x160_S160x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.PreVariance.lean ====
/-
  What the precondition says of the four batch-norm variances.

  The printed precondition is a conjunction, folded left to right by `and`, of one `all` per conjunct; its last four
  conjuncts compare the four variance vectors with zero, element by element.  When the whole is true each of the four
  last `all`s is true, so every element of each comparison is true, and an ordered comparison `v ≥ 0` on the extended
  reals that is true says `0 ≤ v`.
-/
import proofs.«156470_j39548058862205_2_alg».proof.Pre_finite_inputs
import proofs.«156470_j39548058862205_2_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.PreVariance

open Idealize.ShloMosaic Idealize.ShloMosaic.ValueIdx Cert.Pre_finite_inputs

instance : Subsingleton S_.Idx := ⟨fun a b => funext fun d => d.elim0⟩

/-- A true ordered comparison `x ≥ 0` on the extended reals. -/
theorem nonneg_of_oge {x : EReal} (h : Ideal.cmp .oge x (Ideal.ofBits .f32 0x00000000#32) = 1#1) : 0 ≤ x := by
  rw [Ideal.ofBits_zero_f32] at h
  have h' : BitVec.ofBool (decide ((0 : EReal) ≤ x)) = 1#1 := h
  by_contra hx
  rw [decide_eq_false hx] at h'
  exact absurd h' (by decide)

variable [Facts]

/-- The last part of the conjunction: the three variances it compares itself, and every element of the comparison it
    is handed. -/
theorem last_part (a19 : FVec Ideal S64 .f32) (a27 : FVec Ideal S128 .f32) (a33 : FVec Ideal S64 .f32)
    (acc : IVec S_ 1) (cmp10 : IVec S128 1)
    (h : fn_part10 (F := Ideal) a19 a27 a33 acc cmp10 = fun _ => 1#1) :
    (∀ k : Fin 128, cmp10 (ix1 k) = 1#1) ∧ (∀ r : Fin 64, 0 ≤ a19 (ix1 r)) ∧ (∀ k : Fin 128, 0 ≤ a27 (ix1 k))
      ∧ (∀ r : Fin 64, 0 ≤ a33 (ix1 r)) := by
  have h0 := congrFun h ix0
  unfold fn_part10 at h0
  obtain ⟨h1, e33⟩ := IntOp.andi_eq_one.1 h0
  obtain ⟨h2, e27⟩ := IntOp.andi_eq_one.1 h1
  obtain ⟨h3, e19⟩ := IntOp.andi_eq_one.1 h2
  obtain ⟨-, e10⟩ := IntOp.andi_eq_one.1 h3
  exact ⟨fun k => Host.reduce_andi_all _ _ _ _ _ e10 (ix1 k),
    fun r => nonneg_of_oge (Host.reduce_andi_all _ _ _ _ _ e19 (ix1 r)),
    fun k => nonneg_of_oge (Host.reduce_andi_all _ _ _ _ _ e27 (ix1 k)),
    fun r => nonneg_of_oge (Host.reduce_andi_all _ _ _ _ _ e33 (ix1 r))⟩

/-- THE FOUR VARIANCES ARE NON-NEGATIVE wherever the precondition holds. -/
theorem variances_nonneg (a0 : FVec Ideal S100000x128 .f32) (a1 : IVec S2x1600000 32) (a2 : IVec S2x1000000 32) (a3 : FVec Ideal S1000000x32 .f32) (a4 : FVec Ideal S128x128 .f32) (a5 : FVec Ideal S128 .f32) (a6 : FVec Ideal S128x128 .f32) (a7 : FVec Ideal S128 .f32) (a8 : FVec Ideal S128 .f32) (a9 : FVec Ideal S128 .f32) (a10 : FVec Ideal S128 .f32) (a11 : FVec Ideal S64x128 .f32) (a12 : FVec Ideal S64 .f32) (a13 : FVec Ideal S64x128 .f32) (a14 : FVec Ideal S64x32 .f32) (a15 : FVec Ideal S64 .f32) (a16 : FVec Ideal S64 .f32) (a17 : FVec Ideal S64 .f32) (a18 : FVec Ideal S64 .f32) (a19 : FVec Ideal S64 .f32) (a20 : FVec Ideal S32x64 .f32) (a21 : FVec Ideal S32 .f32) (a22 : FVec Ideal S128x160 .f32) (a23 : FVec Ideal S128 .f32) (a24 : FVec Ideal S128 .f32) (a25 : FVec Ideal S128 .f32) (a26 : FVec Ideal S128 .f32) (a27 : FVec Ideal S128 .f32) (a28 : FVec Ideal S64x128 .f32) (a29 : FVec Ideal S64 .f32) (a30 : FVec Ideal S64 .f32) (a31 : FVec Ideal S64 .f32) (a32 : FVec Ideal S64 .f32) (a33 : FVec Ideal S64 .f32) (a34 : FVec Ideal S1x64 .f32) (a35 : FVec Ideal S1 .f32)
    (h : fn (F := Ideal) a0 a1 a2 a3 a4 a5 a6 a7 a8 a9 a10 a11 a12 a13 a14 a15 a16 a17 a18 a19 a20 a21 a22 a23 a24 a25 a26 a27 a28 a29 a30 a31 a32 a33 a34 a35 = fun _ => 1#1) :
    (∀ k : Fin 128, 0 ≤ a10 (ix1 k)) ∧ (∀ r : Fin 64, 0 ≤ a19 (ix1 r)) ∧ (∀ k : Fin 128, 0 ≤ a27 (ix1 k))
      ∧ (∀ r : Fin 64, 0 ≤ a33 (ix1 r)) := by
  unfold fn fn_part1 fn_part2 fn_part3 fn_part4 fn_part5 fn_part6 fn_part7 fn_part8 fn_part9 at h
  have key := last_part a19 a27 a33 _ _ h
  exact ⟨fun k => nonneg_of_oge (key.1 k), key.2⟩

end Cert.PreVariance

end
-- ==== Proof.LibScatterRows.lean ====
/-
  A row scatter-add read at an index.

  Adding rows `upd : [R, C]` into a table `x : [N, C]` at a column of integer row numbers `idx : [R, 1]` is an
  accumulating scatter (`Ideal.hostScatterAdd`) whose update window axes are `[1]`, inserted window axes `[0]`,
  scatter-axes-to-operand-axes map `[0]` and index vector axis 1.  Update element `(e, k)` lands at row `idx[e, 0]` —
  read as a signed integer and NOT clamped: an update whose row number is negative or `≥ N` is dropped — and at the same
  column `k` (`resultIdx?_rows`).  Hence table element `(n, k)` receives exactly the updates `upd (e, k)` of the rows
  `e` whose row number is `n`, one term per such row (`scatterAdd_rows_apply`): the sum over rank-2 update indices
  that land on `(n, k)` is re-indexed as a sum over rows, the column being forced to equal `k`.
-/
import Idealize.ShloMosaic.Lib.ValueIdx

open scoped BigOperators

namespace Cert.LibScatterRows

open Idealize.ShloMosaic Idealize.ShloMosaic.ValueIdx

/-- The dimension numbers of a row scatter, for a table `[N, C]`, scatter indices `[R, 1]` and updates `[R, C]`; their
    conditions `wf` are decided on a program's literal shapes. -/
abbrev segDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The row of an `N`-row table a word names when read as a signed integer: that integer if it lies in `[0, N)`,
    nothing otherwise. -/
def rowOf? {w : Nat} (N : Nat) (v : BitVec w) : Option (Fin N) :=
  if h : 0 ≤ v.toInt ∧ v.toInt < N then some ⟨v.toInt.toNat, by omega⟩ else none

/-- A word names row `n` exactly when its signed value is `n`. -/
theorem rowOf?_eq_some_iff {w N : Nat} (v : BitVec w) (n : Fin N) : rowOf? N v = some n ↔ v.toInt = (n.val : Int) := by
  unfold rowOf?
  by_cases h : 0 ≤ v.toInt ∧ v.toInt < N
  · rw [dif_pos h, Option.some.injEq, Fin.ext_iff]
    show v.toInt.toNat = n.val ↔ _
    omega
  · rw [dif_neg h]
    constructor
    · intro h'; cases h'
    · intro h'; exfalso; apply h; have := n.isLt; omega

/-- A word whose signed value lies in `[0, N)` names the row with that number. -/
theorem rowOf?_of_lt {w N : Nat} (v : BitVec w) (h0 : 0 ≤ v.toInt) (hlt : v.toInt < N) :
    rowOf? N v = some ⟨v.toInt.toNat, by omega⟩ := dif_pos ⟨h0, hlt⟩

/-- Two rank-2 indices given by coordinates are equal exactly when their coordinates are. -/
theorem ix2_inj {n0 n1 : Nat} {a a' : Fin n0} {b b' : Fin n1} : ix2 a b = ix2 a' b' ↔ a = a' ∧ b = b' :=
  ⟨fun h => ⟨congrFun h 0, congrFun h 1⟩, fun ⟨h1, h2⟩ => by rw [h1, h2]⟩

section Rows
variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window of update `(e, k)` starts at the signed row number `idx[e, 0]` … -/
theorem start_row (e : Fin R) (k : Fin C) : (segDims N R C wf).start (ix2 e k) idx 0 = (idx (ix2 e 0)).toInt := by
  unfold ScatterDims.start
  rw [dif_pos (show (0 : Fin 2) ∈ (segDims N R C wf).scatterDimsToOperandDims from List.mem_singleton.mpr rfl)]
  have hsi : (segDims N R C wf).siIdx (ix2 e k) ⟨List.idxOf (0 : Fin 2) (segDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem start_col (e : Fin R) (k : Fin C) : (segDims N R C wf).start (ix2 e k) idx 1 = 0 := by
  unfold ScatterDims.start
  rw [dif_neg (show (1 : Fin 2) ∉ [(0 : Fin 2)] by decide)]

/-- The row axis is an inserted window axis: the window coordinate there is `0` … -/
theorem window_row (e : Fin R) (k : Fin C) : (segDims N R C wf).window (ix2 e k) 0 = 0 := by
  unfold ScatterDims.window
  rw [dif_neg]
  show (0 : Fin 2) ∉ (⟨2, ![N, C]⟩ : Shape).kept [0]
  simp [Shape.kept]

/-- … and the column axis is the one window axis: the window coordinate there is the update's own column. -/
theorem window_col (e : Fin R) (k : Fin C) : (segDims N R C wf).window (ix2 e k) 1 = k.val := rfl

/-- WHERE AN UPDATE LANDS: update `(e, k)` goes to `(n, k)` when its row number `idx[e, 0]` names a row `n` of the
    table, and nowhere when it does not (the column is always in range, so only the row decides). -/
theorem resultIdx?_rows (e : Fin R) (k : Fin C) :
    (segDims N R C wf).resultIdx? (ix2 e k) idx = (rowOf? N (idx (ix2 e 0))).map (fun n => ix2 n k) := by
  unfold ScatterDims.resultIdx? rowOf?
  by_cases hv : 0 ≤ (idx (ix2 e 0)).toInt ∧ (idx (ix2 e 0)).toInt < N
  · have hall : ∀ a : Fin 2, 0 ≤ (segDims N R C wf).start (ix2 e k) idx a + (segDims N R C wf).window (ix2 e k) a ∧
        (segDims N R C wf).start (ix2 e k) idx a + (segDims N R C wf).window (ix2 e k) a
          < ((⟨2, ![N, C]⟩ : Shape).size a : Nat) := by
      intro a
      match a with
      | ⟨0, _⟩ =>
        show 0 ≤ (segDims N R C wf).start (ix2 e k) idx 0 + ((segDims N R C wf).window (ix2 e k) 0 : Nat) ∧
          (segDims N R C wf).start (ix2 e k) idx 0 + ((segDims N R C wf).window (ix2 e k) 0 : Nat) < (N : Int)
        rw [start_row, window_row]; omega
      | ⟨1, _⟩ =>
        show 0 ≤ (segDims N R C wf).start (ix2 e k) idx 1 + ((segDims N R C wf).window (ix2 e k) 1 : Nat) ∧
          (segDims N R C wf).start (ix2 e k) idx 1 + ((segDims N R C wf).window (ix2 e k) 1 : Nat) < (C : Int)
        rw [start_col, window_col]; have := k.isLt; omega
    rw [dif_pos hall, dif_pos hv, Option.map_some]
    congr 1
    funext a
    refine Fin.ext ?_
    match a with
    | ⟨0, _⟩ =>
      show ((segDims N R C wf).start (ix2 e k) idx 0 + ((segDims N R C wf).window (ix2 e k) 0 : Nat)).toNat
        = (idx (ix2 e 0)).toInt.toNat
      rw [start_row, window_row]; simp
    | ⟨1, _⟩ =>
      show ((segDims N R C wf).start (ix2 e k) idx 1 + ((segDims N R C wf).window (ix2 e k) 1 : Nat)).toNat = k.val
      rw [start_col, window_col]; simp
  · rw [dif_neg hv, Option.map_none, dif_neg]
    intro hall
    apply hv
    have h0 : 0 ≤ (segDims N R C wf).start (ix2 e k) idx 0 + ((segDims N R C wf).window (ix2 e k) 0 : Nat) ∧
        (segDims N R C wf).start (ix2 e k) idx 0 + ((segDims N R C wf).window (ix2 e k) 0 : Nat) < (N : Int) := hall 0
    rw [start_row, window_row] at h0
    omega

/-- THE ROW SCATTER-ADD READ AT `(n, k)`: the table's element plus the sum, over the update rows `e` whose row number
    `idx[e, 0]` names row `n`, of the update's element `(e, k)`.  The sum over the rank-2 update indices landing on
    `(n, k)` is split by coordinates; within row `e` an index `(e, b)` lands on `(n, k)` exactly when `e` names
    row `n` and `b = k`, so the inner sum has the single term `b = k`. -/
theorem scatterAdd_rows_apply (x : (⟨2, ![N, C]⟩ : Shape).Idx → EReal) (upd : (⟨2, ![R, C]⟩ : Shape).Idx → EReal)
    (n : Fin N) (k : Fin C) :
    Ideal.hostScatterAdd (segDims N R C wf) x idx upd (ix2 n k)
      = x (ix2 n k) + ∑ e ∈ Finset.univ.filter (fun e : Fin R => rowOf? N (idx (ix2 e 0)) = some n), upd (ix2 e k) := by
  unfold Ideal.hostScatterAdd
  congr 1
  rw [Finset.sum_filter, Finset.sum_filter, sum_idx2]
  refine Finset.sum_congr rfl fun e _ => ?_
  have hiff : ∀ b : Fin C, ((segDims N R C wf).resultIdx? (ix2 e b) idx = some (ix2 n k))
      ↔ (rowOf? N (idx (ix2 e 0)) = some n ∧ b = k) := by
    intro b
    rw [resultIdx?_rows]
    cases hrow : rowOf? N (idx (ix2 e 0)) with
    | none => simp
    | some m => rw [Option.map_some, Option.some.injEq, Option.some.injEq, ix2_inj]
  simp only [hiff]
  by_cases hr : rowOf? N (idx (ix2 e 0)) = some n
  · simp [hr]
  · simp [hr]

end Rows

end Cert.LibScatterRows
-- ==== Proof.SageAlgebra.lean ====
/-
  The algebra that joins the two programs, on the extended reals.

  * Eval-mode batch norm multiplies by `g / √(v + ε)`; written with a reciprocal square root it is `g · rsqrt (v + ε)`.
    For a variance `v ≥ 0` and `ε > 0` the argument is positive and the two agree — at `+∞` too, where both are `0`.
  * The mean over a node's incoming edges commutes with a linear map of the features when the features are
    non-negative (they come out of a ReLU) and the divisor is a positive real (an edge count, at least one):
    `(Σₑ Σₖ h e k · w k) / c = Σₖ ((Σₑ h e k) / c) · w k`.  On the extended reals a sum of non-negative terms
    distributes over a product with anything, and a product with a positive real distributes over any sum; no
    finiteness of `h` or `w` is needed.
  * An edge count is a real number: the sum of ones over a finite set, and at least one after `max · 1`.
-/
import Idealize.ShloMosaic.PureOps.Ideal
import Idealize.ShloMosaic.PureOps.Ideal.Laws

open scoped BigOperators

noncomputable section

namespace Cert.Sage

open Idealize.ShloMosaic

/-- The batch norms' variance offset, the single-precision number nearest to `1e-5`. -/
def eps : EReal := Ideal.ofBits .f32 0x3727C5AC#32

theorem eps_pos : 0 < eps := by
  unfold eps
  simp [Ideal.ofBits, Ideal.ieee]
  rw [← EReal.coe_mul]
  exact_mod_cast (by positivity : (0 : ℝ) < 10995116 * (2 ^ 40)⁻¹)

/-- For a positive argument, dividing by the square root is multiplying by the reciprocal square root. -/
theorem div_sqrt_eq_mul_rsqrt {y : EReal} (hy : 0 < y) (g : EReal) :
    Ideal.div g (Ideal.sqrt y) = g * Ideal.rsqrt y := by
  induction y using EReal.rec with
  | bot => exact absurd hy (by simp)
  | top =>
    show Ideal.div g ⊤ = g * 0
    rw [Ideal.div, if_neg (by simp), EReal.inv_top, mul_zero]
  | coe r =>
    have hr : 0 < r := by exact_mod_cast hy
    have hs : 0 < Real.sqrt r := Real.sqrt_pos.mpr hr
    show Ideal.div g (if r < 0 then (⊥ : EReal) else (Real.sqrt r : EReal))
      = g * (if r < 0 then (⊥ : EReal) else if r = 0 then (⊤ : EReal) else (((Real.sqrt r)⁻¹ : ℝ) : EReal))
    rw [if_neg (not_lt.mpr hr.le), if_neg (not_lt.mpr hr.le), if_neg hr.ne', Ideal.div_coe hs.ne', one_div]

/-- The batch-norm scale in its two spellings, for a non-negative variance. -/
theorem bn_scale_eq {g v : EReal} (hv : 0 ≤ v) :
    Ideal.div g (Ideal.sqrt (v + eps)) = g * Ideal.rsqrt (v + eps) :=
  div_sqrt_eq_mul_rsqrt (lt_of_lt_of_le eps_pos (le_add_of_nonneg_left hv)) g

/-- A sum of non-negative extended reals times anything is the sum of the products. -/
theorem sum_mul_of_nonneg {ι : Type*} (S : Finset ι) (a : ι → EReal) (ha : ∀ e ∈ S, 0 ≤ a e) (w : EReal) :
    (∑ e ∈ S, a e) * w = ∑ e ∈ S, a e * w := by
  classical
  induction S using Finset.induction_on with
  | empty => simp
  | insert x s hx ih =>
    rw [Finset.sum_insert hx, Finset.sum_insert hx,
      EReal.right_distrib_of_nonneg (ha x (Finset.mem_insert_self _ _))
        (Finset.sum_nonneg fun e he => ha e (Finset.mem_insert_of_mem he)),
      ih (fun e he => ha e (Finset.mem_insert_of_mem he))]

/-- Any sum of extended reals times a non-negative real is the sum of the products. -/
theorem sum_mul_real {ι : Type*} (S : Finset ι) (t : ι → EReal) {r : ℝ} (hr : 0 ≤ r) :
    (∑ k ∈ S, t k) * (r : EReal) = ∑ k ∈ S, t k * (r : EReal) := by
  classical
  induction S using Finset.induction_on with
  | empty => simp
  | insert x s hx ih =>
    rw [Finset.sum_insert hx, Finset.sum_insert hx,
      EReal.right_distrib_of_nonneg_of_ne_top (EReal.coe_nonneg.mpr hr) (EReal.coe_ne_top r), ih]

/-- THE MEAN COMMUTES WITH A LINEAR MAP of non-negative features, for a positive real divisor. -/
theorem mean_lin {ι κ : Type*} [Fintype κ] (S : Finset ι) (h : ι → κ → EReal) (hh : ∀ e k, 0 ≤ h e k)
    (w : κ → EReal) {c : ℝ} (hc : 0 < c) :
    Ideal.div (0 + ∑ e ∈ S, ∑ k, h e k * w k) (c : EReal)
      = ∑ k, Ideal.div (0 + ∑ e ∈ S, h e k) (c : EReal) * w k := by
  simp only [Ideal.div_coe hc.ne', zero_add]
  rw [Finset.sum_comm, sum_mul_real _ _ (by positivity)]
  refine Finset.sum_congr rfl fun k _ => ?_
  rw [← sum_mul_of_nonneg S (fun e => h e k) (fun e _ => hh e k), mul_right_comm]

/-- An edge count floored at one is a positive real. -/
theorem count_pos_real {ι : Type*} (S : Finset ι) :
    ∃ c : ℝ, 0 < c ∧ max (0 + ∑ _u ∈ S, (1 : EReal)) 1 = (c : EReal) := by
  refine ⟨max (S.card : ℝ) 1, lt_of_lt_of_le one_pos (le_max_right _ _), ?_⟩
  rw [zero_add, Finset.sum_const, nsmul_one, EReal.coe_strictMono.monotone.map_max]
  simp

end Cert.Sage

end
-- ==== Proof.SageSpec.lean ====
/-
  The link predictor, index by index, in the two arrangements the two programs compute.

  A graph of `100000` nodes with `1600000` message edges and `1000000` candidate edges.  Two mean-aggregating
  graph-convolution layers give every node a 64-feature embedding `z`; each candidate edge `p` is scored by a small
  network fed the embeddings of its two end nodes and a 32 → 64 → 32 network of its own features.

  * `lin A W i j = Σₖ A(i,k) · W(j,k)`, a row of `A` against a row of `W` (that is `A · Wᵀ`).
  * Batch norm followed by a ReLU, `max ((h − m) · s + b) 0`, with the scale `s` written either `g · rsqrt (v + ε)`
    (`bnReluK`) or `g / √(v + ε)` (`bnReluR`).
  * `meanAgg`: node `i` receives, from every edge `e` whose destination word names `i`, the row of the source node of
    `e` (its source word read signed and clamped to a row number); the sum, started at `0`, is divided by the node's
    edge count `cnt i` (floored at one by whoever supplies it).
  * The `K` arrangement applies the second layer's linear map per node BEFORE aggregating its 64 outputs, adds the bias
    last, and feeds the scorer's first layer as three partial products (source embedding, destination embedding, edge
    features).  The `R` arrangement aggregates the 128 hidden features first, then applies the linear map, and feeds the
    scorer's first layer the 160-wide concatenation.
-/
import Idealize.ShloMosaic.PureOps.Ideal
import Idealize.ShloMosaic.Lib.ValueIdx
import proofs.«156470_j39548058862205_2_alg».proof.Proof.LibScatterRows
import proofs.«156470_j39548058862205_2_alg».proof.Proof.SageAlgebra

open scoped BigOperators

noncomputable section

namespace Cert.Sage

open Idealize.ShloMosaic Idealize.ShloMosaic.ValueIdx

/-- A matrix and a vector of extended reals over literal extents. -/
abbrev Mat (R C : Nat) := (⟨2, ![R, C]⟩ : Shape).Idx → EReal
abbrev Vc (C : Nat) := (⟨1, ![C]⟩ : Shape).Idx → EReal

/-- `(A · Wᵀ)(i, j)`. -/
def lin {R K O : Nat} (A : Mat R K) (W : Mat O K) (i : Fin R) (j : Fin O) : EReal :=
  ∑ k : Fin K, A (ix2 i k) * W (ix2 j k)

/-- The same for a matrix given as a function of its two coordinates. -/
def linF {R K O : Nat} (A : Fin R → Fin K → EReal) (W : Mat O K) (i : Fin R) (j : Fin O) : EReal :=
  ∑ k : Fin K, A i k * W (ix2 j k)

/-- Batch norm then ReLU, the scale as a product with the reciprocal square root. -/
def bnReluK (h g b m v : EReal) : EReal := max ((h - m) * (g * Ideal.rsqrt (v + eps)) + b) 0
/-- Batch norm then ReLU, the scale as a quotient by the square root. -/
def bnReluR (h g b m v : EReal) : EReal := max ((h - m) * Ideal.div g (Ideal.sqrt (v + eps)) + b) 0

/-- The graph: per node its edge count (as supplied), the message edges' source and destination words, and the candidate
    edges' two end-node words. -/
structure Graph where
  cnt : Vc 100000
  isrc : IVec ⟨2, ![1600000, 1]⟩ 32
  idst : IVec ⟨2, ![1600000, 1]⟩ 32
  ip0 : IVec ⟨2, ![1000000, 1]⟩ 32
  ip1 : IVec ⟨2, ![1000000, 1]⟩ 32

/-- The node a word names when it is read signed and clamped into `[0, 100000)`. -/
def clampRow {w : Nat} (v : BitVec w) : Fin 100000 := ⟨min v.toInt.toNat (100000 - 1), by omega⟩

/-- The message edges whose destination word names node `i` (a word outside `[0, 100000)` names no node). -/
def inEdges (G : Graph) (i : Fin 100000) : Finset (Fin 1600000) :=
  Finset.univ.filter fun e => LibScatterRows.rowOf? 100000 (G.idst (ix2 e 0)) = some i

/-- Mean aggregation of node rows `Y` over the incoming edges of node `i`, at feature `j`. -/
def meanAgg {C : Nat} (G : Graph) (Y : Fin 100000 → Fin C → EReal) (i : Fin 100000) (j : Fin C) : EReal :=
  Ideal.div (0 + ∑ e ∈ inEdges G i, Y (clampRow (G.isrc (ix2 e 0))) j) (G.cnt (ix1 i))

/-- The network's inputs and parameters (weights as `[out, in]` matrices). -/
structure Net where
  X : Mat 100000 128
  EF : Mat 1000000 32
  Wl1 : Mat 128 128
  bl1 : Vc 128
  Wr1 : Mat 128 128
  g1 : Vc 128
  b1 : Vc 128
  m1 : Vc 128
  v1 : Vc 128
  Wl2 : Mat 64 128
  bl2 : Vc 64
  Wr2 : Mat 64 128
  eW1 : Mat 64 32
  eb1 : Vc 64
  eg : Vc 64
  ebb : Vc 64
  em : Vc 64
  ev : Vc 64
  eW2 : Mat 32 64
  eb2 : Vc 32
  pW1 : Mat 128 160
  pb1 : Vc 128
  pg1 : Vc 128
  pbb1 : Vc 128
  pm1 : Vc 128
  pv1 : Vc 128
  pW2 : Mat 64 128
  pb2 : Vc 64
  pg2 : Vc 64
  pbb2 : Vc 64
  pm2 : Vc 64
  pv2 : Vc 64
  pW3 : Mat 1 64
  pb3 : Vc 1

variable (n : Net) (G : Graph)

/-- The first layer's aggregated input: the mean of the neighbours' feature rows. -/
def agg1 (i : Fin 100000) (d : Fin 128) : EReal := meanAgg G (fun i d => n.X (ix2 i d)) i d

/-! ### The first layer's hidden features -/

def h1K (i : Fin 100000) (k : Fin 128) : EReal :=
  bnReluK ((linF (agg1 n G) n.Wl1 i k + lin n.X n.Wr1 i k) + n.bl1 (ix1 k))
    (n.g1 (ix1 k)) (n.b1 (ix1 k)) (n.m1 (ix1 k)) (n.v1 (ix1 k))

def h1R (i : Fin 100000) (k : Fin 128) : EReal :=
  bnReluR ((linF (agg1 n G) n.Wl1 i k + n.bl1 (ix1 k)) + lin n.X n.Wr1 i k)
    (n.g1 (ix1 k)) (n.b1 (ix1 k)) (n.m1 (ix1 k)) (n.v1 (ix1 k))

/-! ### The node embeddings -/

def zK (i : Fin 100000) (j : Fin 64) : EReal :=
  (meanAgg G (fun i j => linF (h1K n G) n.Wl2 i j) i j + linF (h1K n G) n.Wr2 i j) + n.bl2 (ix1 j)

def zR (i : Fin 100000) (j : Fin 64) : EReal :=
  (linF (meanAgg G (h1R n G)) n.Wl2 i j + n.bl2 (ix1 j)) + linF (h1R n G) n.Wr2 i j

/-! ### The edge-feature network of candidate edge `p` -/

def e1K (p : Fin 1000000) (r : Fin 64) : EReal :=
  bnReluK (lin n.EF n.eW1 p r + n.eb1 (ix1 r)) (n.eg (ix1 r)) (n.ebb (ix1 r)) (n.em (ix1 r)) (n.ev (ix1 r))
def e1R (p : Fin 1000000) (r : Fin 64) : EReal :=
  bnReluR (lin n.EF n.eW1 p r + n.eb1 (ix1 r)) (n.eg (ix1 r)) (n.ebb (ix1 r)) (n.em (ix1 r)) (n.ev (ix1 r))
def e2K (p : Fin 1000000) (q : Fin 32) : EReal := linF (e1K n) n.eW2 p q + n.eb2 (ix1 q)
def e2R (p : Fin 1000000) (q : Fin 32) : EReal := linF (e1R n) n.eW2 p q + n.eb2 (ix1 q)

/-! ### The scorer, over any node embedding `Z` -/

/-- The two end nodes of candidate edge `p`. -/
def end0 (p : Fin 1000000) : Fin 100000 := clampRow (G.ip0 (ix2 p 0))
def end1 (p : Fin 1000000) : Fin 100000 := clampRow (G.ip1 (ix2 p 0))

variable (Z : Fin 100000 → Fin 64 → EReal)

/-- First scorer layer before its batch norm, as three partial products against column blocks of its weight. -/
def u0K (p : Fin 1000000) (k : Fin 128) : EReal :=
  ((∑ j : Fin 64, Z (end0 G p) j * n.pW1 (ix2 k (⟨j.val, by omega⟩ : Fin 160))
      + ∑ j : Fin 64, Z (end1 G p) j * n.pW1 (ix2 k (⟨64 + j.val, by omega⟩ : Fin 160)))
    + ∑ q : Fin 32, e2K n p q * n.pW1 (ix2 k (⟨128 + q.val, by omega⟩ : Fin 160))) + n.pb1 (ix1 k)

/-- The 160-wide concatenation: source embedding, destination embedding, edge features. -/
def combR (p : Fin 1000000) (a : Fin 160) : EReal :=
  if h : a.val < 64 then Z (end0 G p) ⟨a.val, h⟩
  else if h2 : a.val < 128 then Z (end1 G p) ⟨a.val - 64, by omega⟩
  else e2R n p ⟨a.val - 128, by omega⟩

def u0R (p : Fin 1000000) (k : Fin 128) : EReal := linF (combR n G Z) n.pW1 p k + n.pb1 (ix1 k)

def u1K (p : Fin 1000000) (k : Fin 128) : EReal :=
  bnReluK (u0K n G Z p k) (n.pg1 (ix1 k)) (n.pbb1 (ix1 k)) (n.pm1 (ix1 k)) (n.pv1 (ix1 k))
def u1R (p : Fin 1000000) (k : Fin 128) : EReal :=
  bnReluR (u0R n G Z p k) (n.pg1 (ix1 k)) (n.pbb1 (ix1 k)) (n.pm1 (ix1 k)) (n.pv1 (ix1 k))

def u2K (p : Fin 1000000) (r : Fin 64) : EReal :=
  bnReluK (linF (u1K n G Z) n.pW2 p r + n.pb2 (ix1 r)) (n.pg2 (ix1 r)) (n.pbb2 (ix1 r)) (n.pm2 (ix1 r)) (n.pv2 (ix1 r))
def u2R (p : Fin 1000000) (r : Fin 64) : EReal :=
  bnReluR (linF (u1R n G Z) n.pW2 p r + n.pb2 (ix1 r)) (n.pg2 (ix1 r)) (n.pbb2 (ix1 r)) (n.pm2 (ix1 r)) (n.pv2 (ix1 r))

/-- The score of candidate edge `p` from the embedding `Z`, in the two arrangements. -/
def scoreK (p : Fin 1000000) : EReal := linF (u2K n G Z) n.pW3 p (0 : Fin 1) + n.pb3 (ix1 0)
def scoreR (p : Fin 1000000) : EReal := linF (u2R n G Z) n.pW3 p (0 : Fin 1) + n.pb3 (ix1 0)

/-- The whole predictor in the two arrangements. -/
def outK (p : Fin 1000000) : EReal := scoreK n G (zK n G) p
def outR (p : Fin 1000000) : EReal := scoreR n G (zR n G) p

end Cert.Sage

end
-- ==== Proof.SageBridge.lean ====
/-
  The two arrangements of the link predictor give one score.

  Under non-negative batch-norm variances the two spellings of the batch-norm scale agree, so every layer that the
  two arrangements compute alike agrees.  Two places differ in arrangement:
  * the node embedding: the mean over incoming edges commutes with the second layer's linear map, because the hidden
    features are non-negative (a ReLU's outputs) and the divisor is a positive real (`mean_lin`); the bias and the root
    term are then added in the other order;
  * the scorer's first layer: a sum over the 160 concatenated features is the sum over its three column blocks.
-/
import proofs.«156470_j39548058862205_2_alg».proof.Proof.SageSpec

open scoped BigOperators

noncomputable section

namespace Cert.Sage

open Idealize.ShloMosaic Idealize.ShloMosaic.ValueIdx

theorem bnRelu_eq (h g b m : EReal) {v : EReal} (hv : 0 ≤ v) : bnReluR h g b m v = bnReluK h g b m v := by
  unfold bnReluR bnReluK
  rw [bn_scale_eq hv]

theorem bnReluK_nonneg (h g b m v : EReal) : 0 ≤ bnReluK h g b m v := le_max_right _ _

/-- A sum over 160 features is the sum over the blocks `[0, 64)`, `[64, 128)`, `[128, 160)`. -/
theorem sum_160 (f : Fin 160 → EReal) :
    ∑ a : Fin 160, f a
      = (∑ j : Fin 64, f ⟨j.val, by omega⟩ + ∑ j : Fin 64, f ⟨64 + j.val, by omega⟩)
        + ∑ q : Fin 32, f ⟨128 + q.val, by omega⟩ := by
  have h1 : ∑ a : Fin 160, f a = ∑ a : Fin (128 + 32), f a := rfl
  rw [h1, Fin.sum_univ_add]
  have h2 : ∑ i : Fin 128, f (Fin.castAdd 32 i) = ∑ i : Fin (64 + 64), f (Fin.castAdd 32 i) := rfl
  rw [h2, Fin.sum_univ_add]
  rfl

variable (n : Net) (G : Graph)

section
variable (hv1 : ∀ k : Fin 128, 0 ≤ n.v1 (ix1 k)) (hev : ∀ r : Fin 64, 0 ≤ n.ev (ix1 r))
  (hpv1 : ∀ k : Fin 128, 0 ≤ n.pv1 (ix1 k)) (hpv2 : ∀ r : Fin 64, 0 ≤ n.pv2 (ix1 r))
  (hcnt : ∀ i : Fin 100000, ∃ c : ℝ, 0 < c ∧ G.cnt (ix1 i) = (c : EReal))
include hv1

theorem h1_eq : h1R n G = h1K n G := by
  funext i k
  unfold h1R h1K
  rw [bnRelu_eq _ _ _ _ (hv1 k), add_right_comm]

include hcnt

theorem z_eq : zR n G = zK n G := by
  funext i j
  unfold zR zK
  rw [h1_eq n G hv1, add_right_comm]
  congr 2
  obtain ⟨c, hc, hcc⟩ := hcnt i
  unfold linF meanAgg
  rw [hcc]
  exact (mean_lin (inEdges G i) (fun e k => h1K n G (clampRow (G.isrc (ix2 e 0))) k)
    (fun e k => bnReluK_nonneg _ _ _ _ _) (fun k => n.Wl2 (ix2 j k)) hc).symm

end

section
variable (hev : ∀ r : Fin 64, 0 ≤ n.ev (ix1 r))
include hev

theorem e1_eq : e1R n = e1K n := by
  funext p r
  unfold e1R e1K
  rw [bnRelu_eq _ _ _ _ (hev r)]

theorem e2_eq : e2R n = e2K n := by
  funext p q
  unfold e2R e2K
  rw [e1_eq n hev]

end

section
variable (hev : ∀ r : Fin 64, 0 ≤ n.ev (ix1 r))
  (hpv1 : ∀ k : Fin 128, 0 ≤ n.pv1 (ix1 k)) (hpv2 : ∀ r : Fin 64, 0 ≤ n.pv2 (ix1 r))
  (Z : Fin 100000 → Fin 64 → EReal)
include hev

theorem u0_eq : u0R n G Z = u0K n G Z := by
  funext p k
  have e1 : ∀ j : Fin 64, combR n G Z p (⟨j.val, by omega⟩ : Fin 160) = Z (end0 G p) j := fun j => by
    unfold combR
    rw [dif_pos (show (⟨j.val, by omega⟩ : Fin 160).val < 64 from j.isLt)]
  have e2 : ∀ j : Fin 64, combR n G Z p (⟨64 + j.val, by omega⟩ : Fin 160) = Z (end1 G p) j := fun j => by
    unfold combR
    rw [dif_neg (show ¬ (⟨64 + j.val, by omega⟩ : Fin 160).val < 64 by show ¬ 64 + j.val < 64; omega),
      dif_pos (show (⟨64 + j.val, by omega⟩ : Fin 160).val < 128 by show 64 + j.val < 128; omega)]
    exact congrArg (Z (end1 G p)) (Fin.ext (by show 64 + j.val - 64 = j.val; omega))
  have e3 : ∀ q : Fin 32, combR n G Z p (⟨128 + q.val, by omega⟩ : Fin 160) = e2K n p q := fun q => by
    unfold combR
    rw [dif_neg (show ¬ (⟨128 + q.val, by omega⟩ : Fin 160).val < 64 by show ¬ 128 + q.val < 64; omega),
      dif_neg (show ¬ (⟨128 + q.val, by omega⟩ : Fin 160).val < 128 by show ¬ 128 + q.val < 128; omega),
      e2_eq n hev]
    exact congrArg (e2K n p) (Fin.ext (by show 128 + q.val - 128 = q.val; omega))
  unfold u0R u0K linF
  rw [sum_160 (fun a => combR n G Z p a * n.pW1 (ix2 k a))]
  simp only [e1, e2, e3]

include hpv1

theorem u1_eq : u1R n G Z = u1K n G Z := by
  funext p k
  unfold u1R u1K
  rw [bnRelu_eq _ _ _ _ (hpv1 k), u0_eq n G hev Z]

include hpv2

theorem u2_eq : u2R n G Z = u2K n G Z := by
  funext p r
  unfold u2R u2K
  rw [bnRelu_eq _ _ _ _ (hpv2 r), u1_eq n G hev hpv1 Z]

/-- The scorer's two arrangements agree on any embedding. -/
theorem score_eq (p : Fin 1000000) : scoreR n G Z p = scoreK n G Z p := by
  unfold scoreR scoreK
  rw [u2_eq n G hev hpv1 hpv2 Z]

end

/-- THE BRIDGE: the two arrangements give every candidate edge the same score. -/
theorem out_eq (hv1 : ∀ k : Fin 128, 0 ≤ n.v1 (ix1 k)) (hev : ∀ r : Fin 64, 0 ≤ n.ev (ix1 r))
    (hpv1 : ∀ k : Fin 128, 0 ≤ n.pv1 (ix1 k)) (hpv2 : ∀ r : Fin 64, 0 ≤ n.pv2 (ix1 r))
    (hcnt : ∀ i : Fin 100000, ∃ c : ℝ, 0 < c ∧ G.cnt (ix1 i) = (c : EReal)) (p : Fin 1000000) :
    outR n G p = outK n G p := by
  unfold outR outK
  rw [z_eq n G hv1 hcnt, score_eq n G hev hpv1 hpv2]

end Cert.Sage

end
-- ==== Proof.KernelRun.lean ====
/-
  The idealized kernel's run, with its result named.

  Every weakly fair execution of the kernel's main program from a memory with zero counters terminates without a
  fault, leaves the argument arrays as launched, and leaves the result buffer at the contents the run's last
  boundary assigns it: the slice, by the last host operation, of what the second region's write-backs leave.  The
  launch over the program's segments is the one that proves the frame; the final state is read at one more buffer.
-/
import proofs.«156470_j39548058862205_2_alg».proof.Proof.FramePatchKernelIdeal

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v123) = W10 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v123 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c),
       (h c _ (mem_uc main_arg24 (by decide))).trans (W10_main_arg24 m ρ c),
       (h c _ (mem_uc main_arg25 (by decide))).trans (W10_main_arg25 m ρ c),
       (h c _ (mem_uc main_arg26 (by decide))).trans (W10_main_arg26 m ρ c),
       (h c _ (mem_uc main_arg27 (by decide))).trans (W10_main_arg27 m ρ c),
       (h c _ (mem_uc main_arg28 (by decide))).trans (W10_main_arg28 m ρ c),
       (h c _ (mem_uc main_arg29 (by decide))).trans (W10_main_arg29 m ρ c),
       (h c _ (mem_uc main_arg30 (by decide))).trans (W10_main_arg30 m ρ c),
       (h c _ (mem_uc main_arg31 (by decide))).trans (W10_main_arg31 m ρ c),
       (h c _ (mem_uc main_arg32 (by decide))).trans (W10_main_arg32 m ρ c),
       (h c _ (mem_uc main_arg33 (by decide))).trans (W10_main_arg33 m ρ c),
       (h c _ (mem_uc main_arg34 (by decide))).trans (W10_main_arg34 m ρ c),
       (h c _ (mem_uc main_arg35 (by decide))).trans (W10_main_arg35 m ρ c)⟩)

end Cert.KernelIdeal.RunValue

end
-- ==== Proof.KernelInputs.lean ====
/-
  The predictor's inputs as the kernel's run finds them.

  The network's parameters and features are the launch memory's argument arrays, in argument order.  The graph's words
  are what the host operations compute from the two index arguments: the message edges' source words (negative words
  wrapped by the node count, as a column), their destination words (as a column), each node's count of incoming
  edges floored at one, and the candidate edges' two end-node words (wrapped likewise, as columns) — read where the run
  first has them: before the first region for the message edges, between the regions for the candidate edges.
-/
import proofs.«156470_j39548058862205_2_alg».proof.Proof.FramePatchKernelIdeal
import proofs.«156470_j39548058862205_2_alg».proof.Proof.SageSpec

noncomputable section

namespace Cert.KernelIdeal.Inputs

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (ρ : Dev nD → PrngReg) (c : Dev nD)

/-- The network's inputs and parameters: the argument arrays at launch. -/
def netOfMem : Cert.Sage.Net where
  X := m ((c : Thread nD τ).loc main_arg0)
  EF := m ((c : Thread nD τ).loc main_arg3)
  Wl1 := m ((c : Thread nD τ).loc main_arg4)
  bl1 := m ((c : Thread nD τ).loc main_arg5)
  Wr1 := m ((c : Thread nD τ).loc main_arg6)
  g1 := m ((c : Thread nD τ).loc main_arg7)
  b1 := m ((c : Thread nD τ).loc main_arg8)
  m1 := m ((c : Thread nD τ).loc main_arg9)
  v1 := m ((c : Thread nD τ).loc main_arg10)
  Wl2 := m ((c : Thread nD τ).loc main_arg11)
  bl2 := m ((c : Thread nD τ).loc main_arg12)
  Wr2 := m ((c : Thread nD τ).loc main_arg13)
  eW1 := m ((c : Thread nD τ).loc main_arg14)
  eb1 := m ((c : Thread nD τ).loc main_arg15)
  eg := m ((c : Thread nD τ).loc main_arg16)
  ebb := m ((c : Thread nD τ).loc main_arg17)
  em := m ((c : Thread nD τ).loc main_arg18)
  ev := m ((c : Thread nD τ).loc main_arg19)
  eW2 := m ((c : Thread nD τ).loc main_arg20)
  eb2 := m ((c : Thread nD τ).loc main_arg21)
  pW1 := m ((c : Thread nD τ).loc main_arg22)
  pb1 := m ((c : Thread nD τ).loc main_arg23)
  pg1 := m ((c : Thread nD τ).loc main_arg24)
  pbb1 := m ((c : Thread nD τ).loc main_arg25)
  pm1 := m ((c : Thread nD τ).loc main_arg26)
  pv1 := m ((c : Thread nD τ).loc main_arg27)
  pW2 := m ((c : Thread nD τ).loc main_arg28)
  pb2 := m ((c : Thread nD τ).loc main_arg29)
  pg2 := m ((c : Thread nD τ).loc main_arg30)
  pbb2 := m ((c : Thread nD τ).loc main_arg31)
  pm2 := m ((c : Thread nD τ).loc main_arg32)
  pv2 := m ((c : Thread nD τ).loc main_arg33)
  pW3 := m ((c : Thread nD τ).loc main_arg34)
  pb3 := m ((c : Thread nD τ).loc main_arg35)

/-- The graph's words and counts as the host operations leave them. -/
def graphOfMem : Cert.Sage.Graph where
  cnt := W1 m ρ c (Proc.devRef .tc main_v21)
  isrc := W1 m ρ c (Proc.devRef .tc main_v10)
  idst := W1 m ρ c (Proc.devRef .tc main_v14)
  ip0 := W3 m ρ c (Proc.devRef .tc main_v75)
  ip1 := W3 m ρ c (Proc.devRef .tc main_v82)

end Cert.KernelIdeal.Inputs

end
-- ==== Proof.LibGatherRows.lean ====
/-
  A row gather read at an index.

  Taking rows `x[idx]` of a table `x : [N, C]` at a column of integer row numbers `idx : [R, 1]` is a gather
  (`Host.gather`) whose offset axes are `[1]`, collapsed slice axes `[0]`, start index map `[0]`, index vector axis 1
  and slice sizes `[1, C]`.  Result element `(e, k)` is the table at row `idx[e, 0]` — the start index read as a signed
  integer and clamped into `[0, N − 1]`, as the gather clamps every start index so that the slice fits — and at the
  same column `k`: the whole row passes through.  When the start index is already a row number (`0 ≤ idx[e, 0] < N`)
  the clamp does nothing (`gather_rows_apply_of_lt`).
-/
import Idealize.ShloMosaic.Lib.ValueIdx

namespace Cert.LibGatherRows

open Idealize.ShloMosaic Idealize.ShloMosaic.ValueIdx

variable {α : Type}

/-- The dimension numbers of a row gather, for a table `[N, C]`, start indices `[R, 1]` and result `[R, C]`; their
    conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the row `idx[e, 0]`, read signed and clamped into `[0, N − 1]`, and
    at the column `k`.  On the row axis the operand coordinate is the clamped start (the axis is collapsed, so it has no
    offset); on the column axis it is the result's own column (the axis is not in the start index map, so its start
    is `0`, and it is the one offset axis). -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowsDims N R C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e k) ⟨List.idxOf (0 : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N R C wf).start (ix2 e k) idx 1 + (rowsDims N R C wf).batchCoord (ix2 e k) 1
      + (rowsDims N R C wf).offCoord (ix2 e k) 1 = k.val
    rw [GatherDims.batchCoord_eq_zero _ _ _ List.not_mem_nil]
    have hs : (rowsDims N R C wf).start (ix2 e k) idx 1 = 0 := by
      unfold GatherDims.start
      rw [dif_neg (show (1 : Fin 2) ∉ [(0 : Fin 2)] by decide)]
    rw [hs]
    simp only [Nat.add_zero, Nat.zero_add]
    rfl

/-- The row gather at `(e, k)` when the start index `idx[e, 0]` is a row number, `0 ≤ idx[e, 0] < N`: the clamp is
    the identity and the result is the table at that row and column `k`. -/
theorem gather_rows_apply_of_lt {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C)
    (h0 : 0 ≤ (idx (ix2 e 0)).toInt) (hlt : (idx (ix2 e 0)).toInt < N) :
    Host.gather (rowsDims N R C wf) x idx (ix2 e k) = x (ix2 ⟨(idx (ix2 e 0)).toInt.toNat, by omega⟩ k) := by
  rw [gather_rows_apply (by omega) wf x idx e k]
  congr 2
  refine Fin.ext ?_
  show min (idx (ix2 e 0)).toInt.toNat (N - 1) = (idx (ix2 e 0)).toInt.toNat
  omega

end Cert.LibGatherRows
-- ==== Proof.KernelNodesHost.lean ====
/-
  The node network's input arrays as the host operations before it leave them, read at an index.

  Before the first region the host converts the node features to the kernel's float format (the identity on the
  values), transposes the four weights (so that `(k, j)` of what the kernel sees is `(j, k)` of the weight), views the
  five per-feature vectors as single rows `[1, 128]`, and forms the first layer's mean aggregate: the feature rows
  gathered at the message edges' source column, added into a zero table at their destination column, each node's row
  divided by its count.  Read at `(i, d)` the aggregate is the sum, over the edges whose destination word names node
  `i`, of feature `d` of the node the source word names, over the count of `i`.  Everything is stated over an arbitrary
  launch valuation `V`, so that nothing here depends on how a run supplies it.
-/
import proofs.«156470_j39548058862205_2_alg».proof.Proof.Gen.KernelIdeal.Launch
import proofs.«156470_j39548058862205_2_alg».proof.Proof.LibGatherRows
import proofs.«156470_j39548058862205_2_alg».proof.Proof.LibScatterRows
import Idealize.ShloMosaic.Lib.ValueIdx
import Idealize.ShloMosaic.Lib.Pipeline.Value
import Idealize.ShloMosaic.PureOps.Ideal.Laws

open scoped BigOperators

noncomputable section

namespace Cert.KernelIdeal.NodeValue

open Cert.KernelIdeal Cert.KernelIdeal.Gen Idealize.ShloMosaic Idealize.ShloMosaic.ValueIdx Idealize.ShloMosaic.TcCoe
open Idealize.SL.Sem

variable (V : Valuation τ sig (Elt Ideal))

/-! ## The features, the weights and the per-feature vectors -/

/-- The feature matrix enters the kernel as launched (a change of float format is the identity). -/
theorem entry_x : (StableHlo.after hostOps0 V (Proc.devRef .tc main_v4) : S100000x128.Idx → EReal)
    = V (Proc.devRef .tc main_arg0) := by
  after_results
  rfl

/-- The first layer's neighbour weight enters transposed: stored input-major, `(k, j)` holds the weight's `(j, k)`. -/
theorem entry_wl1 (k j : Fin 128) : (StableHlo.after hostOps0 V (Proc.devRef .tc main_v27) : S128x128.Idx → EReal) (ix2 k j)
    = (V (Proc.devRef .tc main_arg4) : S128x128.Idx → EReal) (ix2 j k) := by
  after_results
  exact transpose_apply [1, 0] _ transposes_S128x128_S128x128_1_0 (ix2 k j) (ix2 j k) (fun b => match b with
    | ⟨0, _⟩ => rfl
    | ⟨1, _⟩ => rfl)

/-- The first layer's self weight enters transposed. -/
theorem entry_wr1 (k j : Fin 128) : (StableHlo.after hostOps0 V (Proc.devRef .tc main_v29) : S128x128.Idx → EReal) (ix2 k j)
    = (V (Proc.devRef .tc main_arg6) : S128x128.Idx → EReal) (ix2 j k) := by
  after_results
  exact transpose_apply [1, 0] _ transposes_S128x128_S128x128_1_0 (ix2 k j) (ix2 j k) (fun b => match b with
    | ⟨0, _⟩ => rfl
    | ⟨1, _⟩ => rfl)

/-- The second layer's neighbour weight `[64, 128]` enters transposed, as `[128, 64]`. -/
theorem entry_wl2 (k : Fin 128) (j : Fin 64) : (StableHlo.after hostOps0 V (Proc.devRef .tc main_v31) : S128x64.Idx → EReal) (ix2 k j)
    = (V (Proc.devRef .tc main_arg11) : S64x128.Idx → EReal) (ix2 j k) := by
  after_results
  exact transpose_apply [1, 0] _ transposes_S64x128_S128x64_1_0 (ix2 k j) (ix2 j k) (fun b => match b with
    | ⟨0, _⟩ => rfl
    | ⟨1, _⟩ => rfl)

/-- The second layer's self weight enters transposed, as `[128, 64]`. -/
theorem entry_wr2 (k : Fin 128) (j : Fin 64) : (StableHlo.after hostOps0 V (Proc.devRef .tc main_v33) : S128x64.Idx → EReal) (ix2 k j)
    = (V (Proc.devRef .tc main_arg13) : S64x128.Idx → EReal) (ix2 j k) := by
  after_results
  exact transpose_apply [1, 0] _ transposes_S64x128_S128x64_1_0 (ix2 k j) (ix2 j k) (fun b => match b with
    | ⟨0, _⟩ => rfl
    | ⟨1, _⟩ => rfl)

/-- The first layer's bias enters as the single row `[1, 128]`. -/
theorem entry_bl1 (k : Fin 128) : (StableHlo.after hostOps0 V (Proc.devRef .tc main_v34) : S1x128.Idx → EReal) (ix2 0 k)
    = (V (Proc.devRef .tc main_arg5) : S128.Idx → EReal) (ix1 k) := by
  after_results
  show shapeCast S1x128 (V (Proc.devRef .tc main_arg5)) shapeCasts_S128_S1x128 (ix2 0 k) = _
  exact shapeCast_apply _ shapeCasts_S128_S1x128 (ix2 0 k) (ix1 k) (by
    rw [Shape.rowMajor_val_one, Shape.rowMajor_val_two]
    show k.val = 0 * 128 + k.val
    omega)

/-- The batch norm's gain, as a single row. -/
theorem entry_g1 (k : Fin 128) : (StableHlo.after hostOps0 V (Proc.devRef .tc main_v35) : S1x128.Idx → EReal) (ix2 0 k)
    = (V (Proc.devRef .tc main_arg7) : S128.Idx → EReal) (ix1 k) := by
  after_results
  show shapeCast S1x128 (V (Proc.devRef .tc main_arg7)) shapeCasts_S128_S1x128 (ix2 0 k) = _
  exact shapeCast_apply _ shapeCasts_S128_S1x128 (ix2 0 k) (ix1 k) (by
    rw [Shape.rowMajor_val_one, Shape.rowMajor_val_two]
    show k.val = 0 * 128 + k.val
    omega)

/-- The batch norm's offset, as a single row. -/
theorem entry_b1 (k : Fin 128) : (StableHlo.after hostOps0 V (Proc.devRef .tc main_v36) : S1x128.Idx → EReal) (ix2 0 k)
    = (V (Proc.devRef .tc main_arg8) : S128.Idx → EReal) (ix1 k) := by
  after_results
  show shapeCast S1x128 (V (Proc.devRef .tc main_arg8)) shapeCasts_S128_S1x128 (ix2 0 k) = _
  exact shapeCast_apply _ shapeCasts_S128_S1x128 (ix2 0 k) (ix1 k) (by
    rw [Shape.rowMajor_val_one, Shape.rowMajor_val_two]
    show k.val = 0 * 128 + k.val
    omega)

/-- The batch norm's mean, as a single row. -/
theorem entry_m1 (k : Fin 128) : (StableHlo.after hostOps0 V (Proc.devRef .tc main_v37) : S1x128.Idx → EReal) (ix2 0 k)
    = (V (Proc.devRef .tc main_arg9) : S128.Idx → EReal) (ix1 k) := by
  after_results
  show shapeCast S1x128 (V (Proc.devRef .tc main_arg9)) shapeCasts_S128_S1x128 (ix2 0 k) = _
  exact shapeCast_apply _ shapeCasts_S128_S1x128 (ix2 0 k) (ix1 k) (by
    rw [Shape.rowMajor_val_one, Shape.rowMajor_val_two]
    show k.val = 0 * 128 + k.val
    omega)

/-- The batch norm's variance, as a single row. -/
theorem entry_v1 (k : Fin 128) : (StableHlo.after hostOps0 V (Proc.devRef .tc main_v38) : S1x128.Idx → EReal) (ix2 0 k)
    = (V (Proc.devRef .tc main_arg10) : S128.Idx → EReal) (ix1 k) := by
  after_results
  show shapeCast S1x128 (V (Proc.devRef .tc main_arg10)) shapeCasts_S128_S1x128 (ix2 0 k) = _
  exact shapeCast_apply _ shapeCasts_S128_S1x128 (ix2 0 k) (ix1 k) (by
    rw [Shape.rowMajor_val_one, Shape.rowMajor_val_two]
    show k.val = 0 * 128 + k.val
    omega)

/-! ## The first layer's mean aggregate -/

/-- The aggregated input as the host operations compose it from the three arrays the graph's words and counts are read
    from: the rows of the features gathered at the source column, added into zeros at the destination column, divided by
    the count broadcast along the features. -/
theorem entry_agg_eq : (StableHlo.after hostOps0 V (Proc.devRef .tc main_v25) : S100000x128.Idx → EReal)
    = truncf .bf16 (Host.divf (F := Ideal)
        (Host.scatterAdd (F := Ideal) scatter_S100000x128_S1600000x1_S1600000x128_1_0_0_1
          (broadcastInDim S100000x128 ![] bcast_S_S100000x128 (constant (F := Ideal) S_ .f32 0x00000000#32))
          (StableHlo.after hostOps0 V (Proc.devRef .tc main_v14))
          (extf .f32 (Host.gather gather_S100000x128_S1600000x1_S1600000x128_1_0_n_n_0_1_1128
            (truncf .bf16 (V (Proc.devRef .tc main_arg0) : FVec Ideal S100000x128 .f32) bitsLt_bf16_f32)
            (StableHlo.after hostOps0 V (Proc.devRef .tc main_v10))) bitsLt_bf16_f32))
        (broadcastInDim S100000x128 ![0, 1] bcast_S100000x1_S100000x128_0_1
          (broadcastInDim S100000x1 ![0] bcast_S100000_S100000x1_0 (StableHlo.after hostOps0 V (Proc.devRef .tc main_v21)))))
      bitsLt_bf16_f32 := by
  after_results_simp

/-- The program's row gather and row scatter are the row gather and row scatter of these extents. -/
theorem gatherDims_eq : gather_S100000x128_S1600000x1_S1600000x128_1_0_n_n_0_1_1128
    = LibGatherRows.rowsDims 100000 1600000 128 gather_S100000x128_S1600000x1_S1600000x128_1_0_n_n_0_1_1128_wf := rfl
theorem scatterDims_eq : scatter_S100000x128_S1600000x1_S1600000x128_1_0_0_1
    = LibScatterRows.segDims 100000 1600000 128 scatter_S100000x128_S1600000x1_S1600000x128_1_0_0_1_wf := rfl

/-- The host's quotient at an index is the quotient of the elements. -/
theorem hostDivf_apply {s : Shape} {φ : FTy} (a b : FVec Ideal s φ) (i : s.Idx) :
    Host.divf a b i = Ideal.div (a i) (b i) := rfl

/-- The host's accumulating scatter is the exact sum at the ideal values. -/
theorem hostScatterAdd_eq {s si su : Shape} {φ : FTy} {w : Nat} (D : ScatterDims s si su) (x : FVec Ideal s φ)
    (idx : IVec si w) (u : FVec Ideal su φ) : Host.scatterAdd D x idx u = Ideal.hostScatterAdd D x idx u := rfl

/-- THE AGGREGATE AT `(i, d)`: the sum, started at zero, over the edges whose destination word names node `i`, of feature
    `d` of the node the edge's source word names (read signed, clamped to a row), divided by node `i`'s count — over
    the features `X` as launched and the source column, destination column and counts as the host operations leave them. -/
theorem entry_agg_apply (X : S100000x128.Idx → EReal) (isrc idst : IVec S1600000x1 32) (cnt : S100000.Idx → EReal)
    (hX : (V (Proc.devRef .tc main_arg0) : S100000x128.Idx → EReal) = X)
    (hsrc : (StableHlo.after hostOps0 V (Proc.devRef .tc main_v10) : IVec S1600000x1 32) = isrc)
    (hdst : (StableHlo.after hostOps0 V (Proc.devRef .tc main_v14) : IVec S1600000x1 32) = idst)
    (hcnt : (StableHlo.after hostOps0 V (Proc.devRef .tc main_v21) : S100000.Idx → EReal) = cnt)
    (i : Fin 100000) (d : Fin 128) :
    (StableHlo.after hostOps0 V (Proc.devRef .tc main_v25) : S100000x128.Idx → EReal) (ix2 i d)
      = Ideal.div (0 + ∑ e ∈ Finset.univ.filter (fun e : Fin 1600000 =>
              LibScatterRows.rowOf? 100000 (idst (ix2 e 0)) = some i),
            X (ix2 ⟨min (isrc (ix2 e 0)).toInt.toNat (100000 - 1), by omega⟩ d))
          (cnt (ix1 i)) := by
  subst hX hsrc hdst hcnt
  rw [entry_agg_eq, truncf_apply, hostDivf_apply, hostScatterAdd_eq, scatterDims_eq,
    LibScatterRows.scatterAdd_rows_apply]
  refine congrArg₂ Ideal.div ?_ ?_
  · refine congrArg₂ (· + ·) Ideal.ofBits_zero_f32 (Finset.sum_congr rfl fun e _ => ?_)
    rw [extf_apply, gatherDims_eq, LibGatherRows.gather_rows_apply (by decide)]
    rfl
  · refine (broadcastInDim_apply _ bcast_S100000x1_S100000x128_0_1 _ (ix2 i d) (ix2 i 0) (fun a => match a with
      | ⟨0, _⟩ => by show i.val = if (100000 : Nat) = 1 then 0 else i.val; rw [if_neg (by decide)]
      | ⟨1, _⟩ => by show (0 : Nat) = if (1 : Nat) = 1 then 0 else _; rw [if_pos rfl])).trans ?_
    exact broadcastInDim_apply _ bcast_S100000_S100000x1_0 _ (ix2 i 0) (ix1 i) (fun a => match a with
      | ⟨0, _⟩ => by show i.val = if (100000 : Nat) = 1 then 0 else i.val; rw [if_neg (by decide)])

end Cert.KernelIdeal.NodeValue

end
-- ==== Proof.KernelNodesPay.lean ====
/-
  The node network's arithmetic, read at one element of a block of 5000 nodes.

  A block's row `r` holds one node.  Its hidden feature `k` is

      max ((Σ_d a(r,d) · Wl(d,k) + Σ_d x(r,d) · Wr(d,k) + bias(k) − mean(k)) · (g(k) · rsqrt (var(k) + ε)) + beta(k)) 0,

  `a` the node's aggregated neighbour features, `x` its own, the two weights stored input-major (`[in, out]`), the five
  per-feature vectors stored as single rows `[1, 128]`; each of the block's two outputs at `(r, j)` is the hidden row
  against column `j` of a 128 × 64 weight.  A product of a block with a weight, accumulated into zeros, is the sum over
  the one contracted axis; a change of float format and a cast of a shape to itself do nothing to the values.
-/
import proofs.«156470_j39548058862205_2_alg».proof.Proof.Gen.KernelIdeal.Skeleton
import proofs.«156470_j39548058862205_2_alg».proof.Proof.SageAlgebra
import Idealize.ShloMosaic.Lib.ValueIdx
import Idealize.ShloMosaic.Lib.Pipeline.Value
import Idealize.ShloMosaic.PureOps.Ideal.Laws

open scoped BigOperators

noncomputable section

namespace Cert.KernelIdeal.NodeValue

open Cert.KernelIdeal Cert.KernelIdeal.Gen Idealize.ShloMosaic Idealize.ShloMosaic.ValueIdx

/-! ## The two contractions' operand indices, coordinate by coordinate -/

theorem mm128_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem mm128_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem mm128_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem mm128_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block of 5000 rows against a 128 × 128 matrix, accumulated into zeros, at `(r, k)`: row `r` of the block against column `k` of the matrix. -/
theorem mm128_apply (a : FVec Ideal S5000x128 .bf16) (w : FVec Ideal S128x128 .bf16) (r : Fin 5000) (k : Fin 128) :
    matmul dot_S5000x128_S128x128_S5000x128_1_0_0_1_n_n none a w (constant S5000x128 .f32 0x00000000#32) (ix2 r k)
      = ∑ d : Fin 128, a (ix2 r d) * w (ix2 d k) := by
  simp only [matmul]
  rw [Ideal.matmul_constant_zero_apply, ← Equiv.sum_comp (contrEquiv1 dot_S5000x128_S128x128_S5000x128_1_0_0_1_n_n 128 rfl rfl).symm]
  refine Finset.sum_congr rfl fun d _ => ?_
  have hk := contrEquiv1_symm_val dot_S5000x128_S128x128_S5000x128_1_0_0_1_n_n 128 rfl rfl d
  have el : dot_S5000x128_S128x128_S5000x128_1_0_0_1_n_n.lhsIdx (ix2 r k) ((contrEquiv1 dot_S5000x128_S128x128_S5000x128_1_0_0_1_n_n 128 rfl rfl).symm d) = ix2 r d :=
    funext fun a => Fin.ext (by
      match a with
      | ⟨0, _⟩ => exact mm128_lhs0 _ _
      | ⟨1, _⟩ => exact (mm128_lhs1 _ _).trans hk)
  have er : dot_S5000x128_S128x128_S5000x128_1_0_0_1_n_n.rhsIdx (ix2 r k) ((contrEquiv1 dot_S5000x128_S128x128_S5000x128_1_0_0_1_n_n 128 rfl rfl).symm d) = ix2 d k :=
    funext fun a => Fin.ext (by
      match a with
      | ⟨0, _⟩ => exact (mm128_rhs0 _ _).trans hk
      | ⟨1, _⟩ => exact mm128_rhs1 _ _)
  rw [el, er]

theorem mm64_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem mm64_lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem mm64_rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem mm64_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- A block of 5000 rows against a 128 × 64 matrix, accumulated into zeros, at `(r, j)`: row `r` of the block against column `j` of the matrix. -/
theorem mm64_apply (a : FVec Ideal S5000x128 .bf16) (w : FVec Ideal S128x64 .bf16) (r : Fin 5000) (k : Fin 64) :
    matmul dot_S5000x128_S128x64_S5000x64_1_0_0_1_n_n none a w (constant S5000x64 .f32 0x00000000#32) (ix2 r k)
      = ∑ d : Fin 128, a (ix2 r d) * w (ix2 d k) := by
  simp only [matmul]
  rw [Ideal.matmul_constant_zero_apply, ← Equiv.sum_comp (contrEquiv1 dot_S5000x128_S128x64_S5000x64_1_0_0_1_n_n 128 rfl rfl).symm]
  refine Finset.sum_congr rfl fun d _ => ?_
  have hk := contrEquiv1_symm_val dot_S5000x128_S128x64_S5000x64_1_0_0_1_n_n 128 rfl rfl d
  have el : dot_S5000x128_S128x64_S5000x64_1_0_0_1_n_n.lhsIdx (ix2 r k) ((contrEquiv1 dot_S5000x128_S128x64_S5000x64_1_0_0_1_n_n 128 rfl rfl).symm d) = ix2 r d :=
    funext fun a => Fin.ext (by
      match a with
      | ⟨0, _⟩ => exact mm64_lhs0 _ _
      | ⟨1, _⟩ => exact (mm64_lhs1 _ _).trans hk)
  have er : dot_S5000x128_S128x64_S5000x64_1_0_0_1_n_n.rhsIdx (ix2 r k) ((contrEquiv1 dot_S5000x128_S128x64_S5000x64_1_0_0_1_n_n 128 rfl rfl).symm d) = ix2 d k :=
    funext fun a => Fin.ext (by
      match a with
      | ⟨0, _⟩ => exact (mm64_rhs0 _ _).trans hk
      | ⟨1, _⟩ => exact mm64_rhs1 _ _)
  rw [el, er]

/-! ## The body's values at an index -/

/-- A row vector `[1, 128]` repeated down 5000 rows, at `(r, k)`, is the vector at column `k`. -/
theorem rowBcast_apply (v : FVec Ideal S1x128 .f32) (r : Fin 5000) (k : Fin 128) :
    broadcastTo S5000x128 v broadcasts_S1x128_S5000x128 (ix2 r k) = v (ix2 0 k) :=
  broadcastTo_apply v broadcasts_S1x128_S5000x128 (ix2 r k) (ix2 0 k) (fun a => match a with
    | ⟨0, _⟩ => by show (0 : Nat) = if (1 : Nat) = 1 then 0 else _; rw [if_pos rfl]
    | ⟨1, _⟩ => by show k.val = if (128 : Nat) = 1 then 0 else k.val; rw [if_neg (by decide)])

/-- THE HIDDEN FEATURES AT `(r, k)` of a block: the aggregated block's row against column `k` of the first weight,
    plus the feature block's row against column `k` of the second, plus the bias; then the batch norm with the scale
    `g · rsqrt (v + ε)`, and the ReLU. -/
theorem hidden_apply (x xa : Vec Ideal S5000x128 .bf16) (wl wr : Vec Ideal S128x128 .bf16)
    (bl g var mu be : Vec Ideal S1x128 .f32) (r : Fin 5000) (k : Fin 128) :
    k0_pay3 x xa wl wr bl g var mu be (ix2 r k)
      = max (((((∑ d : Fin 128, xa (ix2 r d) * wl (ix2 d k)) + ∑ d : Fin 128, x (ix2 r d) * wr (ix2 d k))
            + bl (ix2 0 k)) - mu (ix2 0 k)) * (g (ix2 0 k) * Ideal.rsqrt (var (ix2 0 k) + Cert.Sage.eps))
          + be (ix2 0 k)) 0 := by
  unfold k0_pay3
  simp only [shapeCast_self, truncf_apply, maximumf_apply, addf_apply, subf_apply, mulf_apply, broadcast_apply,
    mm128_apply, rowBcast_apply]
  refine congrArg₂ max ?_ Ideal.ofBits_zero_f32
  rfl

/-- The first output at `(r, j)`: the hidden block's row `r` against column `j` of its 128 × 64 weight. -/
theorem outL_apply (h : FVec Ideal S5000x128 .bf16) (w : Vec Ideal S128x64 .bf16) (r : Fin 5000) (j : Fin 64) :
    k0_pay1 h w (ix2 r j) = ∑ k : Fin 128, h (ix2 r k) * w (ix2 k j) := by
  unfold k0_pay1
  simp only [shapeCast_self]
  exact mm64_apply h w r j

/-- The second output at `(r, j)`, likewise with its own weight. -/
theorem outR_apply (h : FVec Ideal S5000x128 .bf16) (w : Vec Ideal S128x64 .bf16) (r : Fin 5000) (j : Fin 64) :
    k0_pay2 h w (ix2 r j) = ∑ k : Fin 128, h (ix2 r k) * w (ix2 k j) := by
  unfold k0_pay2
  simp only [shapeCast_self]
  exact mm64_apply h w r j

end Cert.KernelIdeal.NodeValue

end
-- ==== Proof.KernelNodesBlocks.lean ====
/-
  The node network's blocks at a grid point, and the body's values at a point in the spec's words.

  The first region runs 20 points; point `t` reads rows `5000·t … 5000·t + 4999` of the node features and of their mean
  aggregate, and the whole of the four weights and five per-feature rows.  Each block entry is named here as an entry
  of the spec's inputs: a node-row block's `(r, d)` is node `5000·t + r`'s feature (or mean-aggregated feature) `d`, a
  weight block's `(k, j)` is the weight's `(j, k)` (the kernel keeps weights input-major), a row block's `(0, k)` is the
  vector's `k`.  With these the body's hidden row at a point is the spec's first layer of that node, and each of its
  two output rows is that hidden row through one of the second layer's weights.
-/
import proofs.«156470_j39548058862205_2_alg».proof.Proof.FramePatchKernelIdeal
import proofs.«156470_j39548058862205_2_alg».proof.Proof.KernelInputs
import proofs.«156470_j39548058862205_2_alg».proof.Proof.KernelNodesHost
import proofs.«156470_j39548058862205_2_alg».proof.Proof.KernelNodesPay
import Idealize.ShloMosaic.Lib.Pipeline.Value
import Idealize.ShloMosaic.Lib.Tactic

set_option Elab.async false
set_option maxRecDepth 16384

open scoped BigOperators

noncomputable section

namespace Cert.KernelIdeal.NodeValue

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- The printed index maps, decided over the 20 grid points: the two node-row inputs and the two outputs are at block
    `(t, 0)` at point `t`; every other window stays at block `(0, 0)`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

theorem idx_fixed : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## The spec's inputs are the run's buffers

Each field of the network record is an argument array at launch, and each of the graph record's first three fields is
a buffer the host operations before the first region leave. -/

theorem net_X : (W0 m ρ c (Proc.devRef .tc main_arg0) : S100000x128.Idx → EReal) = (Inputs.netOfMem m c).X := by
  unfold Inputs.netOfMem; rfl
theorem net_Wl1 : (W0 m ρ c (Proc.devRef .tc main_arg4) : S128x128.Idx → EReal) = (Inputs.netOfMem m c).Wl1 := by
  unfold Inputs.netOfMem; rfl
theorem net_bl1 : (W0 m ρ c (Proc.devRef .tc main_arg5) : S128.Idx → EReal) = (Inputs.netOfMem m c).bl1 := by
  unfold Inputs.netOfMem; rfl
theorem net_Wr1 : (W0 m ρ c (Proc.devRef .tc main_arg6) : S128x128.Idx → EReal) = (Inputs.netOfMem m c).Wr1 := by
  unfold Inputs.netOfMem; rfl
theorem net_g1 : (W0 m ρ c (Proc.devRef .tc main_arg7) : S128.Idx → EReal) = (Inputs.netOfMem m c).g1 := by
  unfold Inputs.netOfMem; rfl
theorem net_b1 : (W0 m ρ c (Proc.devRef .tc main_arg8) : S128.Idx → EReal) = (Inputs.netOfMem m c).b1 := by
  unfold Inputs.netOfMem; rfl
theorem net_m1 : (W0 m ρ c (Proc.devRef .tc main_arg9) : S128.Idx → EReal) = (Inputs.netOfMem m c).m1 := by
  unfold Inputs.netOfMem; rfl
theorem net_v1 : (W0 m ρ c (Proc.devRef .tc main_arg10) : S128.Idx → EReal) = (Inputs.netOfMem m c).v1 := by
  unfold Inputs.netOfMem; rfl
theorem net_Wl2 : (W0 m ρ c (Proc.devRef .tc main_arg11) : S64x128.Idx → EReal) = (Inputs.netOfMem m c).Wl2 := by
  unfold Inputs.netOfMem; rfl
theorem net_Wr2 : (W0 m ρ c (Proc.devRef .tc main_arg13) : S64x128.Idx → EReal) = (Inputs.netOfMem m c).Wr2 := by
  unfold Inputs.netOfMem; rfl

theorem graph_isrc : W1 m ρ c (Proc.devRef .tc main_v10) = (Inputs.graphOfMem m ρ c).isrc := by
  unfold Inputs.graphOfMem; rfl
theorem graph_idst : W1 m ρ c (Proc.devRef .tc main_v14) = (Inputs.graphOfMem m ρ c).idst := by
  unfold Inputs.graphOfMem; rfl
theorem graph_cnt : W1 m ρ c (Proc.devRef .tc main_v21) = (Inputs.graphOfMem m ρ c).cnt := by
  unfold Inputs.graphOfMem; rfl

/-! ## The eleven input blocks at a point

Point `t` of the 20 holds nodes `5000·t … 5000·t + 4999`: row `r` of either node-row block is node `5000·t + r`.  The
weights and the per-feature rows are whole at every point. -/

/-- Row `r` of the feature block is node `5000·t + r`'s feature row. -/
theorem blk_x (t : Fin cfg0.N) (r : Fin 5000) (d : Fin 128) (i : Fin 100000) (hi : i.val = 5000 * t.val + r.val) :
    (iblk0 (V1 m ρ) c 0 t : S5000x128.Idx → EReal) (ix2 r d) = (Inputs.netOfMem m c).X (ix2 i d) := by
  have h : (iblk0 (V1 m ρ) c 0 t : S5000x128.Idx → EReal) (ix2 r d) = (W0 m ρ c (Proc.devRef .tc main_arg0) : S100000x128.Idx → EReal) (ix2 i d) := by
    unfold iblk0
    rw [View.read_apply]
    show (StableHlo.after hostOps0 (W0 m ρ c) (Proc.devRef .tc main_v4) : S100000x128.Idx → EReal) _ = _
    have e : (StableHlo.after hostOps0 (W0 m ρ c) (Proc.devRef .tc main_v4) : S100000x128.Idx → EReal) (((cfg0.win 0).blk t).view.emb (ix2 r d))
        = (StableHlo.after hostOps0 (W0 m ρ c) (Proc.devRef .tc main_v4) : S100000x128.Idx → EReal) (ix2 i d) := by
      refine congrArg (StableHlo.after hostOps0 (W0 m ρ c) (Proc.devRef .tc main_v4) : S100000x128.Idx → EReal) (funext fun a => Fin.ext ?_)
      obtain ⟨h0, h1⟩ := (⟨(idx_rows t).1, (idx_rows t).2.1⟩ : win0_0.index t (0 : Fin 2) = t.val ∧ win0_0.index t (1 : Fin 2) = 0)
      match a with
      | ⟨0, _⟩ => show win0_0.index t (0 : Fin 2) * 5000 + 1 * r.val = i.val; rw [h0, hi]; omega
      | ⟨1, _⟩ => show win0_0.index t (1 : Fin 2) * 128 + 1 * d.val = d.val; rw [h1]; omega
    exact e.trans (congrFun (entry_x (W0 m ρ c)) (ix2 i d))
  exact h.trans (congrFun (net_X m ρ c) (ix2 i d))

/-- The aggregate array at `(i, d)` is the spec's mean aggregate of node `i` at feature `d`. -/
theorem entry_agg1 (i : Fin 100000) (d : Fin 128) :
    (StableHlo.after hostOps0 (W0 m ρ c) (Proc.devRef .tc main_v25) : S100000x128.Idx → EReal) (ix2 i d) = Cert.Sage.agg1 (Inputs.netOfMem m c) (Inputs.graphOfMem m ρ c) i d := by
  refine (entry_agg_apply (W0 m ρ c) (Inputs.netOfMem m c).X (Inputs.graphOfMem m ρ c).isrc (Inputs.graphOfMem m ρ c).idst (Inputs.graphOfMem m ρ c).cnt
    (net_X m ρ c) (graph_isrc m ρ c) (graph_idst m ρ c) (graph_cnt m ρ c) i d).trans ?_
  unfold Cert.Sage.agg1 Cert.Sage.meanAgg Cert.Sage.inEdges Cert.Sage.clampRow
  rfl

/-- Row `r` of window 1's block at point `t` is row `5000·t + r` of its array, whatever the region's entry contents. -/
theorem blk_agg_gen (V : (c : Dev nD) → (b : Ref sig .tc) → Buf (Elt Ideal) ((c : Thread nD τ).loc b))
    (t : Fin cfg0.N) (r : Fin 5000) (d : Fin 128) (i : Fin 100000) (hi : i.val = 5000 * t.val + r.val) :
    (iblk0 V c 1 t : S5000x128.Idx → EReal) (ix2 r d) = (V c main_v25 : S100000x128.Idx → EReal) (ix2 i d) := by
  unfold iblk0
  rw [View.read_apply]
  show (V c main_v25 : S100000x128.Idx → EReal) _ = _
  refine congrArg (V c main_v25 : S100000x128.Idx → EReal) (funext fun a => Fin.ext ?_)
  obtain ⟨h0, h1⟩ := (⟨(idx_rows t).2.2.1, (idx_rows t).2.2.2.1⟩ : win0_1.index t (0 : Fin 2) = t.val ∧ win0_1.index t (1 : Fin 2) = 0)
  match a with
  | ⟨0, _⟩ => show win0_1.index t (0 : Fin 2) * 5000 + 1 * r.val = i.val; rw [h0, hi]; omega
  | ⟨1, _⟩ => show win0_1.index t (1 : Fin 2) * 128 + 1 * d.val = d.val; rw [h1]; omega

/-- The region's entry contents at the aggregate's buffer are what the host operations leave there. -/
theorem entry_agg1V (i : Fin 100000) (d : Fin 128) :
    (V1 m ρ c main_v25 : S100000x128.Idx → EReal) (ix2 i d) = Cert.Sage.agg1 (Inputs.netOfMem m c) (Inputs.graphOfMem m ρ c) i d := by
  show (StableHlo.after hostOps0 (W0 m ρ c) (Proc.devRef .tc main_v25) : S100000x128.Idx → EReal) (ix2 i d) = _
  exact entry_agg1 m ρ c i d

/-- Row `r` of the aggregate block is node `5000·t + r`'s mean of its neighbours' feature rows. -/
theorem blk_agg (t : Fin cfg0.N) (r : Fin 5000) (d : Fin 128) (i : Fin 100000) (hi : i.val = 5000 * t.val + r.val) :
    (iblk0 (V1 m ρ) c 1 t : S5000x128.Idx → EReal) (ix2 r d) = Cert.Sage.agg1 (Inputs.netOfMem m c) (Inputs.graphOfMem m ρ c) i d :=
  (blk_agg_gen c (V1 m ρ) t r d i hi).trans (entry_agg1V m ρ c i d)

/-- The neighbour weight of the first layer, input-major. -/
theorem blk_wl1 (t : Fin cfg0.N) (d k : Fin 128) :
    (iblk0 (V1 m ρ) c 2 t : S128x128.Idx → EReal) (ix2 d k) = (Inputs.netOfMem m c).Wl1 (ix2 k d) := by
  have h : (iblk0 (V1 m ρ) c 2 t : S128x128.Idx → EReal) (ix2 d k) = (W0 m ρ c (Proc.devRef .tc main_arg4) : S128x128.Idx → EReal) (ix2 k d) := by
    unfold iblk0
    rw [View.read_apply]
    show (StableHlo.after hostOps0 (W0 m ρ c) (Proc.devRef .tc main_v27) : S128x128.Idx → EReal) _ = _
    have e : (StableHlo.after hostOps0 (W0 m ρ c) (Proc.devRef .tc main_v27) : S128x128.Idx → EReal) (((cfg0.win 2).blk t).view.emb (ix2 d k))
        = (StableHlo.after hostOps0 (W0 m ρ c) (Proc.devRef .tc main_v27) : S128x128.Idx → EReal) (ix2 d k) := by
      refine congrArg (StableHlo.after hostOps0 (W0 m ρ c) (Proc.devRef .tc main_v27) : S128x128.Idx → EReal) (funext fun a => Fin.ext ?_)
      obtain ⟨h0, h1⟩ := (idx_fixed t).1
      match a with
      | ⟨0, _⟩ => show win0_2.index t (0 : Fin 2) * 128 + 1 * d.val = d.val; rw [h0]; omega
      | ⟨1, _⟩ => show win0_2.index t (1 : Fin 2) * 128 + 1 * k.val = k.val; rw [h1]; omega
    exact e.trans (entry_wl1 (W0 m ρ c) d k)
  exact h.trans (congrFun (net_Wl1 m ρ c) (ix2 k d))

/-- The self weight of the first layer, input-major. -/
theorem blk_wr1 (t : Fin cfg0.N) (d k : Fin 128) :
    (iblk0 (V1 m ρ) c 3 t : S128x128.Idx → EReal) (ix2 d k) = (Inputs.netOfMem m c).Wr1 (ix2 k d) := by
  have h : (iblk0 (V1 m ρ) c 3 t : S128x128.Idx → EReal) (ix2 d k) = (W0 m ρ c (Proc.devRef .tc main_arg6) : S128x128.Idx → EReal) (ix2 k d) := by
    unfold iblk0
    rw [View.read_apply]
    show (StableHlo.after hostOps0 (W0 m ρ c) (Proc.devRef .tc main_v29) : S128x128.Idx → EReal) _ = _
    have e : (StableHlo.after hostOps0 (W0 m ρ c) (Proc.devRef .tc main_v29) : S128x128.Idx → EReal) (((cfg0.win 3).blk t).view.emb (ix2 d k))
        = (StableHlo.after hostOps0 (W0 m ρ c) (Proc.devRef .tc main_v29) : S128x128.Idx → EReal) (ix2 d k) := by
      refine congrArg (StableHlo.after hostOps0 (W0 m ρ c) (Proc.devRef .tc main_v29) : S128x128.Idx → EReal) (funext fun a => Fin.ext ?_)
      obtain ⟨h0, h1⟩ := (idx_fixed t).2.1
      match a with
      | ⟨0, _⟩ => show win0_3.index t (0 : Fin 2) * 128 + 1 * d.val = d.val; rw [h0]; omega
      | ⟨1, _⟩ => show win0_3.index t (1 : Fin 2) * 128 + 1 * k.val = k.val; rw [h1]; omega
    exact e.trans (entry_wr1 (W0 m ρ c) d k)
  exact h.trans (congrFun (net_Wr1 m ρ c) (ix2 k d))

/-- The bias row. -/
theorem blk_bl1 (t : Fin cfg0.N) (k : Fin 128) :
    (iblk0 (V1 m ρ) c 4 t : S1x128.Idx → EReal) (ix2 0 k) = (Inputs.netOfMem m c).bl1 (ix1 k) := by
  have h : (iblk0 (V1 m ρ) c 4 t : S1x128.Idx → EReal) (ix2 0 k) = (W0 m ρ c (Proc.devRef .tc main_arg5) : S128.Idx → EReal) (ix1 k) := by
    unfold iblk0
    rw [View.read_apply]
    show (StableHlo.after hostOps0 (W0 m ρ c) (Proc.devRef .tc main_v34) : S1x128.Idx → EReal) _ = _
    have e : (StableHlo.after hostOps0 (W0 m ρ c) (Proc.devRef .tc main_v34) : S1x128.Idx → EReal) (((cfg0.win 4).blk t).view.emb (ix2 0 k))
        = (StableHlo.after hostOps0 (W0 m ρ c) (Proc.devRef .tc main_v34) : S1x128.Idx → EReal) (ix2 0 k) := by
      refine congrArg (StableHlo.after hostOps0 (W0 m ρ c) (Proc.devRef .tc main_v34) : S1x128.Idx → EReal) (funext fun a => Fin.ext ?_)
      obtain ⟨h0, h1⟩ := (idx_fixed t).2.2.1
      match a with
      | ⟨0, _⟩ => show win0_4.index t (0 : Fin 2) * 1 + 1 * (0 : Fin 1).val = (0 : Fin 1).val; rw [h0]; omega
      | ⟨1, _⟩ => show win0_4.index t (1 : Fin 2) * 128 + 1 * k.val = k.val; rw [h1]; omega
    exact e.trans (entry_bl1 (W0 m ρ c) k)
  exact h.trans (congrFun (net_bl1 m ρ c) (ix1 k))

/-- The gain row. -/
theorem blk_g1 (t : Fin cfg0.N) (k : Fin 128) :
    (iblk0 (V1 m ρ) c 5 t : S1x128.Idx → EReal) (ix2 0 k) = (Inputs.netOfMem m c).g1 (ix1 k) := by
  have h : (iblk0 (V1 m ρ) c 5 t : S1x128.Idx → EReal) (ix2 0 k) = (W0 m ρ c (Proc.devRef .tc main_arg7) : S128.Idx → EReal) (ix1 k) := by
    unfold iblk0
    rw [View.read_apply]
    show (StableHlo.after hostOps0 (W0 m ρ c) (Proc.devRef .tc main_v35) : S1x128.Idx → EReal) _ = _
    have e : (StableHlo.after hostOps0 (W0 m ρ c) (Proc.devRef .tc main_v35) : S1x128.Idx → EReal) (((cfg0.win 5).blk t).view.emb (ix2 0 k))
        = (StableHlo.after hostOps0 (W0 m ρ c) (Proc.devRef .tc main_v35) : S1x128.Idx → EReal) (ix2 0 k) := by
      refine congrArg (StableHlo.after hostOps0 (W0 m ρ c) (Proc.devRef .tc main_v35) : S1x128.Idx → EReal) (funext fun a => Fin.ext ?_)
      obtain ⟨h0, h1⟩ := (idx_fixed t).2.2.2.1
      match a with
      | ⟨0, _⟩ => show win0_5.index t (0 : Fin 2) * 1 + 1 * (0 : Fin 1).val = (0 : Fin 1).val; rw [h0]; omega
      | ⟨1, _⟩ => show win0_5.index t (1 : Fin 2) * 128 + 1 * k.val = k.val; rw [h1]; omega
    exact e.trans (entry_g1 (W0 m ρ c) k)
  exact h.trans (congrFun (net_g1 m ρ c) (ix1 k))

/-- The offset row. -/
theorem blk_b1 (t : Fin cfg0.N) (k : Fin 128) :
    (iblk0 (V1 m ρ) c 6 t : S1x128.Idx → EReal) (ix2 0 k) = (Inputs.netOfMem m c).b1 (ix1 k) := by
  have h : (iblk0 (V1 m ρ) c 6 t : S1x128.Idx → EReal) (ix2 0 k) = (W0 m ρ c (Proc.devRef .tc main_arg8) : S128.Idx → EReal) (ix1 k) := by
    unfold iblk0
    rw [View.read_apply]
    show (StableHlo.after hostOps0 (W0 m ρ c) (Proc.devRef .tc main_v36) : S1x128.Idx → EReal) _ = _
    have e : (StableHlo.after hostOps0 (W0 m ρ c) (Proc.devRef .tc main_v36) : S1x128.Idx → EReal) (((cfg0.win 6).blk t).view.emb (ix2 0 k))
        = (StableHlo.after hostOps0 (W0 m ρ c) (Proc.devRef .tc main_v36) : S1x128.Idx → EReal) (ix2 0 k) := by
      refine congrArg (StableHlo.after hostOps0 (W0 m ρ c) (Proc.devRef .tc main_v36) : S1x128.Idx → EReal) (funext fun a => Fin.ext ?_)
      obtain ⟨h0, h1⟩ := (idx_fixed t).2.2.2.2.1
      match a with
      | ⟨0, _⟩ => show win0_6.index t (0 : Fin 2) * 1 + 1 * (0 : Fin 1).val = (0 : Fin 1).val; rw [h0]; omega
      | ⟨1, _⟩ => show win0_6.index t (1 : Fin 2) * 128 + 1 * k.val = k.val; rw [h1]; omega
    exact e.trans (entry_b1 (W0 m ρ c) k)
  exact h.trans (congrFun (net_b1 m ρ c) (ix1 k))

/-- The mean row. -/
theorem blk_m1 (t : Fin cfg0.N) (k : Fin 128) :
    (iblk0 (V1 m ρ) c 7 t : S1x128.Idx → EReal) (ix2 0 k) = (Inputs.netOfMem m c).m1 (ix1 k) := by
  have h : (iblk0 (V1 m ρ) c 7 t : S1x128.Idx → EReal) (ix2 0 k) = (W0 m ρ c (Proc.devRef .tc main_arg9) : S128.Idx → EReal) (ix1 k) := by
    unfold iblk0
    rw [View.read_apply]
    show (StableHlo.after hostOps0 (W0 m ρ c) (Proc.devRef .tc main_v37) : S1x128.Idx → EReal) _ = _
    have e : (StableHlo.after hostOps0 (W0 m ρ c) (Proc.devRef .tc main_v37) : S1x128.Idx → EReal) (((cfg0.win 7).blk t).view.emb (ix2 0 k))
        = (StableHlo.after hostOps0 (W0 m ρ c) (Proc.devRef .tc main_v37) : S1x128.Idx → EReal) (ix2 0 k) := by
      refine congrArg (StableHlo.after hostOps0 (W0 m ρ c) (Proc.devRef .tc main_v37) : S1x128.Idx → EReal) (funext fun a => Fin.ext ?_)
      obtain ⟨h0, h1⟩ := (idx_fixed t).2.2.2.2.2.1
      match a with
      | ⟨0, _⟩ => show win0_7.index t (0 : Fin 2) * 1 + 1 * (0 : Fin 1).val = (0 : Fin 1).val; rw [h0]; omega
      | ⟨1, _⟩ => show win0_7.index t (1 : Fin 2) * 128 + 1 * k.val = k.val; rw [h1]; omega
    exact e.trans (entry_m1 (W0 m ρ c) k)
  exact h.trans (congrFun (net_m1 m ρ c) (ix1 k))

/-- The variance row. -/
theorem blk_v1 (t : Fin cfg0.N) (k : Fin 128) :
    (iblk0 (V1 m ρ) c 8 t : S1x128.Idx → EReal) (ix2 0 k) = (Inputs.netOfMem m c).v1 (ix1 k) := by
  have h : (iblk0 (V1 m ρ) c 8 t : S1x128.Idx → EReal) (ix2 0 k) = (W0 m ρ c (Proc.devRef .tc main_arg10) : S128.Idx → EReal) (ix1 k) := by
    unfold iblk0
    rw [View.read_apply]
    show (StableHlo.after hostOps0 (W0 m ρ c) (Proc.devRef .tc main_v38) : S1x128.Idx → EReal) _ = _
    have e : (StableHlo.after hostOps0 (W0 m ρ c) (Proc.devRef .tc main_v38) : S1x128.Idx → EReal) (((cfg0.win 8).blk t).view.emb (ix2 0 k))
        = (StableHlo.after hostOps0 (W0 m ρ c) (Proc.devRef .tc main_v38) : S1x128.Idx → EReal) (ix2 0 k) := by
      refine congrArg (StableHlo.after hostOps0 (W0 m ρ c) (Proc.devRef .tc main_v38) : S1x128.Idx → EReal) (funext fun a => Fin.ext ?_)
      obtain ⟨h0, h1⟩ := (idx_fixed t).2.2.2.2.2.2.1
      match a with
      | ⟨0, _⟩ => show win0_8.index t (0 : Fin 2) * 1 + 1 * (0 : Fin 1).val = (0 : Fin 1).val; rw [h0]; omega
      | ⟨1, _⟩ => show win0_8.index t (1 : Fin 2) * 128 + 1 * k.val = k.val; rw [h1]; omega
    exact e.trans (entry_v1 (W0 m ρ c) k)
  exact h.trans (congrFun (net_v1 m ρ c) (ix1 k))

/-- The neighbour weight of the second layer, input-major. -/
theorem blk_wl2 (t : Fin cfg0.N) (k : Fin 128) (j : Fin 64) :
    (iblk0 (V1 m ρ) c 9 t : S128x64.Idx → EReal) (ix2 k j) = (Inputs.netOfMem m c).Wl2 (ix2 j k) := by
  have h : (iblk0 (V1 m ρ) c 9 t : S128x64.Idx → EReal) (ix2 k j) = (W0 m ρ c (Proc.devRef .tc main_arg11) : S64x128.Idx → EReal) (ix2 j k) := by
    unfold iblk0
    rw [View.read_apply]
    show (StableHlo.after hostOps0 (W0 m ρ c) (Proc.devRef .tc main_v31) : S128x64.Idx → EReal) _ = _
    have e : (StableHlo.after hostOps0 (W0 m ρ c) (Proc.devRef .tc main_v31) : S128x64.Idx → EReal) (((cfg0.win 9).blk t).view.emb (ix2 k j))
        = (StableHlo.after hostOps0 (W0 m ρ c) (Proc.devRef .tc main_v31) : S128x64.Idx → EReal) (ix2 k j) := by
      refine congrArg (StableHlo.after hostOps0 (W0 m ρ c) (Proc.devRef .tc main_v31) : S128x64.Idx → EReal) (funext fun a => Fin.ext ?_)
      obtain ⟨h0, h1⟩ := (idx_fixed t).2.2.2.2.2.2.2.1
      match a with
      | ⟨0, _⟩ => show win0_9.index t (0 : Fin 2) * 128 + 1 * k.val = k.val; rw [h0]; omega
      | ⟨1, _⟩ => show win0_9.index t (1 : Fin 2) * 64 + 1 * j.val = j.val; rw [h1]; omega
    exact e.trans (entry_wl2 (W0 m ρ c) k j)
  exact h.trans (congrFun (net_Wl2 m ρ c) (ix2 j k))

/-- The self weight of the second layer, input-major. -/
theorem blk_wr2 (t : Fin cfg0.N) (k : Fin 128) (j : Fin 64) :
    (iblk0 (V1 m ρ) c 10 t : S128x64.Idx → EReal) (ix2 k j) = (Inputs.netOfMem m c).Wr2 (ix2 j k) := by
  have h : (iblk0 (V1 m ρ) c 10 t : S128x64.Idx → EReal) (ix2 k j) = (W0 m ρ c (Proc.devRef .tc main_arg13) : S64x128.Idx → EReal) (ix2 j k) := by
    unfold iblk0
    rw [View.read_apply]
    show (StableHlo.after hostOps0 (W0 m ρ c) (Proc.devRef .tc main_v33) : S128x64.Idx → EReal) _ = _
    have e : (StableHlo.after hostOps0 (W0 m ρ c) (Proc.devRef .tc main_v33) : S128x64.Idx → EReal) (((cfg0.win 10).blk t).view.emb (ix2 k j))
        = (StableHlo.after hostOps0 (W0 m ρ c) (Proc.devRef .tc main_v33) : S128x64.Idx → EReal) (ix2 k j) := by
      refine congrArg (StableHlo.after hostOps0 (W0 m ρ c) (Proc.devRef .tc main_v33) : S128x64.Idx → EReal) (funext fun a => Fin.ext ?_)
      obtain ⟨h0, h1⟩ := (idx_fixed t).2.2.2.2.2.2.2.2
      match a with
      | ⟨0, _⟩ => show win0_10.index t (0 : Fin 2) * 128 + 1 * k.val = k.val; rw [h0]; omega
      | ⟨1, _⟩ => show win0_10.index t (1 : Fin 2) * 64 + 1 * j.val = j.val; rw [h1]; omega
    exact e.trans (entry_wr2 (W0 m ρ c) k j)
  exact h.trans (congrFun (net_Wr2 m ρ c) (ix2 j k))

/-! ## The body over variables, and the spec spelt out

The body's values at an index depend on its blocks only through the entries it reads: whatever those entries are
known to be, the value is the same formula of them.  Stated over variables, so that instantiating at a point's blocks
is a plain application. -/

theorem hidden_congr (x xa : Vec Ideal S5000x128 .bf16) (wl wr : Vec Ideal S128x128 .bf16)
    (bl g var mu be : Vec Ideal S1x128 .f32) (r : Fin 5000) (k : Fin 128)
    (A WL X WR : Fin 128 → EReal) (BL G VAR MU BE : EReal)
    (hxa : ∀ d, xa (ix2 r d) = A d) (hwl : ∀ d, wl (ix2 d k) = WL d)
    (hx : ∀ d, x (ix2 r d) = X d) (hwr : ∀ d, wr (ix2 d k) = WR d)
    (hbl : bl (ix2 0 k) = BL) (hg : g (ix2 0 k) = G) (hvar : var (ix2 0 k) = VAR) (hmu : mu (ix2 0 k) = MU)
    (hbe : be (ix2 0 k) = BE) :
    k0_pay3 x xa wl wr bl g var mu be (ix2 r k)
      = max (((((∑ d : Fin 128, A d * WL d) + ∑ d : Fin 128, X d * WR d) + BL) - MU)
          * (G * Ideal.rsqrt (VAR + Cert.Sage.eps)) + BE) 0 := by
  rw [hidden_apply, hbl, hg, hvar, hmu, hbe,
    Finset.sum_congr rfl (fun d _ => by rw [hxa d, hwl d] : ∀ d ∈ Finset.univ, xa (ix2 r d) * wl (ix2 d k) = A d * WL d),
    Finset.sum_congr rfl (fun d _ => by rw [hx d, hwr d] : ∀ d ∈ Finset.univ, x (ix2 r d) * wr (ix2 d k) = X d * WR d)]

theorem outL_congr (h : FVec Ideal S5000x128 .bf16) (w : Vec Ideal S128x64 .bf16) (r : Fin 5000) (j : Fin 64)
    (H W : Fin 128 → EReal) (hh : ∀ k, h (ix2 r k) = H k) (hw : ∀ k, w (ix2 k j) = W k) :
    k0_pay1 h w (ix2 r j) = ∑ k : Fin 128, H k * W k := by
  rw [outL_apply]
  exact Finset.sum_congr rfl fun k _ => by rw [hh k, hw k]

theorem outR_congr (h : FVec Ideal S5000x128 .bf16) (w : Vec Ideal S128x64 .bf16) (r : Fin 5000) (j : Fin 64)
    (H W : Fin 128 → EReal) (hh : ∀ k, h (ix2 r k) = H k) (hw : ∀ k, w (ix2 k j) = W k) :
    k0_pay2 h w (ix2 r j) = ∑ k : Fin 128, H k * W k := by
  rw [outR_apply]
  exact Finset.sum_congr rfl fun k _ => by rw [hh k, hw k]

/-- The spec's hidden feature, spelt out. -/
theorem h1K_eq (n : Cert.Sage.Net) (G : Cert.Sage.Graph) (i : Fin 100000) (k : Fin 128) :
    Cert.Sage.h1K n G i k
      = max (((((∑ d : Fin 128, Cert.Sage.agg1 n G i d * n.Wl1 (ix2 k d)) + ∑ d : Fin 128, n.X (ix2 i d) * n.Wr1 (ix2 k d))
            + n.bl1 (ix1 k)) - n.m1 (ix1 k)) * (n.g1 (ix1 k) * Ideal.rsqrt (n.v1 (ix1 k) + Cert.Sage.eps))
          + n.b1 (ix1 k)) 0 := rfl

/-- A linear map of rows given as a function, spelt out. -/
theorem linF_eq {R K O : Nat} (A : Fin R → Fin K → EReal) (W : Cert.Sage.Mat O K) (i : Fin R) (j : Fin O) :
    Cert.Sage.linF A W i j = ∑ k : Fin K, A i k * W (ix2 j k) := rfl

/-- An output's block is written back whole: the part of a `[5000, 64]` block the transfer moves is the block. -/
theorem cutL_apply (t : Fin cfg0.N) (X : S5000x64.Idx → EReal) (r : Fin 5000) (j : Fin 64) :
    (cfg0.win 11).cut (grid0.coords t) X (ix2 r j) = X (ix2 r j) := rfl
theorem cutR_apply (t : Fin cfg0.N) (X : S5000x64.Idx → EReal) (r : Fin 5000) (j : Fin 64) :
    (cfg0.win 12).cut (grid0.coords t) X (ix2 r j) = X (ix2 r j) := rfl

/-- Where element `(r, j)` of an output's block at point `t` sits in the array: row `5000·t + r`, column `j`. -/
theorem embL (t : Fin cfg0.N) (r : Fin 5000) (j : Fin 64) (i : Fin 100000) (hi : i.val = 5000 * t.val + r.val) :
    ((cfg0.win 11).blk t).view.emb (ix2 r j) = (ix2 i j : S100000x64.Idx) := by
  funext a
  apply Fin.ext
  obtain ⟨h0, h1⟩ := (⟨(idx_rows t).2.2.2.2.1, (idx_rows t).2.2.2.2.2.1⟩ : win0_11.index t (0 : Fin 2) = t.val ∧ win0_11.index t (1 : Fin 2) = 0)
  match a with
  | ⟨0, _⟩ => show win0_11.index t (0 : Fin 2) * 5000 + 1 * r.val = i.val; rw [h0, hi]; omega
  | ⟨1, _⟩ => show win0_11.index t (1 : Fin 2) * 64 + 1 * j.val = j.val; rw [h1]; omega
theorem embR (t : Fin cfg0.N) (r : Fin 5000) (j : Fin 64) (i : Fin 100000) (hi : i.val = 5000 * t.val + r.val) :
    ((cfg0.win 12).blk t).view.emb (ix2 r j) = (ix2 i j : S100000x64.Idx) := by
  funext a
  apply Fin.ext
  obtain ⟨h0, h1⟩ := (⟨(idx_rows t).2.2.2.2.2.2.1, (idx_rows t).2.2.2.2.2.2.2⟩ : win0_12.index t (0 : Fin 2) = t.val ∧ win0_12.index t (1 : Fin 2) = 0)
  match a with
  | ⟨0, _⟩ => show win0_12.index t (0 : Fin 2) * 5000 + 1 * r.val = i.val; rw [h0, hi]; omega
  | ⟨1, _⟩ => show win0_12.index t (1 : Fin 2) * 64 + 1 * j.val = j.val; rw [h1]; omega

/-! ## The body at a point, in the spec's words -/

/-- THE HIDDEN FEATURES of node `5000·t + r`, as the body computes them from the blocks at point `t`. -/
theorem hidden_at (t : Fin cfg0.N) (r : Fin 5000) (k : Fin 128) (i : Fin 100000) (hi : i.val = 5000 * t.val + r.val) :
    (k0_pay3 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 8 t) (iblk0 (V1 m ρ) c 7 t) (iblk0 (V1 m ρ) c 6 t)) (ix2 r k) = Cert.Sage.h1K (Inputs.netOfMem m c) (Inputs.graphOfMem m ρ c) i k := by
  have h := hidden_congr (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 8 t) (iblk0 (V1 m ρ) c 7 t) (iblk0 (V1 m ρ) c 6 t) r k
    (fun d => Cert.Sage.agg1 (Inputs.netOfMem m c) (Inputs.graphOfMem m ρ c) i d) (fun d => (Inputs.netOfMem m c).Wl1 (ix2 k d))
    (fun d => (Inputs.netOfMem m c).X (ix2 i d)) (fun d => (Inputs.netOfMem m c).Wr1 (ix2 k d))
    ((Inputs.netOfMem m c).bl1 (ix1 k)) ((Inputs.netOfMem m c).g1 (ix1 k)) ((Inputs.netOfMem m c).v1 (ix1 k)) ((Inputs.netOfMem m c).m1 (ix1 k)) ((Inputs.netOfMem m c).b1 (ix1 k))
    (fun d => blk_agg m ρ c t r d i hi) (fun d => blk_wl1 m ρ c t d k)
    (fun d => blk_x m ρ c t r d i hi) (fun d => blk_wr1 m ρ c t d k)
    (blk_bl1 m ρ c t k) (blk_g1 m ρ c t k) (blk_v1 m ρ c t k) (blk_m1 m ρ c t k) (blk_b1 m ρ c t k)
  exact h.trans (h1K_eq (Inputs.netOfMem m c) (Inputs.graphOfMem m ρ c) i k).symm

/-- The first output's row of node `5000·t + r`: its hidden features through the second layer's neighbour weight. -/
theorem outL_at (t : Fin cfg0.N) (r : Fin 5000) (j : Fin 64) (i : Fin 100000) (hi : i.val = 5000 * t.val + r.val) :
    k0_pay1 (k0_pay3 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 8 t) (iblk0 (V1 m ρ) c 7 t) (iblk0 (V1 m ρ) c 6 t)) (iblk0 (V1 m ρ) c 9 t) (ix2 r j) = Cert.Sage.linF (Cert.Sage.h1K (Inputs.netOfMem m c) (Inputs.graphOfMem m ρ c)) (Inputs.netOfMem m c).Wl2 i j := by
  have h := outL_congr (k0_pay3 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 8 t) (iblk0 (V1 m ρ) c 7 t) (iblk0 (V1 m ρ) c 6 t)) (iblk0 (V1 m ρ) c 9 t) r j
    (fun k => Cert.Sage.h1K (Inputs.netOfMem m c) (Inputs.graphOfMem m ρ c) i k) (fun k => (Inputs.netOfMem m c).Wl2 (ix2 j k))
    (fun k => hidden_at m ρ c t r k i hi) (fun k => blk_wl2 m ρ c t k j)
  exact h.trans (linF_eq (Cert.Sage.h1K (Inputs.netOfMem m c) (Inputs.graphOfMem m ρ c)) (Inputs.netOfMem m c).Wl2 i j).symm

/-- The second output's row of node `5000·t + r`: its hidden features through the second layer's self weight. -/
theorem outR_at (t : Fin cfg0.N) (r : Fin 5000) (j : Fin 64) (i : Fin 100000) (hi : i.val = 5000 * t.val + r.val) :
    k0_pay2 (k0_pay3 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 8 t) (iblk0 (V1 m ρ) c 7 t) (iblk0 (V1 m ρ) c 6 t)) (iblk0 (V1 m ρ) c 10 t) (ix2 r j) = Cert.Sage.linF (Cert.Sage.h1K (Inputs.netOfMem m c) (Inputs.graphOfMem m ρ c)) (Inputs.netOfMem m c).Wr2 i j := by
  have h := outR_congr (k0_pay3 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 8 t) (iblk0 (V1 m ρ) c 7 t) (iblk0 (V1 m ρ) c 6 t)) (iblk0 (V1 m ρ) c 10 t) r j
    (fun k => Cert.Sage.h1K (Inputs.netOfMem m c) (Inputs.graphOfMem m ρ c) i k) (fun k => (Inputs.netOfMem m c).Wr2 (ix2 j k))
    (fun k => hidden_at m ρ c t r k i hi) (fun k => blk_wr2 m ρ c t k j)
  exact h.trans (linF_eq (Cert.Sage.h1K (Inputs.netOfMem m c) (Inputs.graphOfMem m ρ c)) (Inputs.netOfMem m c).Wr2 i j).symm

end Cert.KernelIdeal.NodeValue

end
-- ==== Proof.KernelNodesR.lean ====
/-
  The kernel's first region, second result: what the 20 points write back to it and what it ends holding.

  Point `t` writes rows `5000·t … 5000·t + 4999`; row by row that is the node's hidden features through the second
  layer's self weight, one function of the node index, so the 20 blocks that tile the array leave it holding that
  function.
-/
import proofs.«156470_j39548058862205_2_alg».proof.Proof.KernelNodesBlocks
import Idealize.ShloMosaic.Lib.Pipeline.Value
import Idealize.ShloMosaic.Lib.Tactic

set_option Elab.async false
set_option maxRecDepth 16384

open scoped BigOperators

noncomputable section

namespace Cert.KernelIdeal.NodeValue

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The second result: from blocks to the array -/

/-- What the second output array holds after the region: every node's hidden features through the self weight. -/
def GRt : S100000x64.Idx → EReal := fun i => Cert.Sage.linF (Cert.Sage.h1K (Inputs.netOfMem m c) (Inputs.graphOfMem m ρ c)) (Inputs.netOfMem m c).Wr2 (i 0) (i 1)

theorem GRt_apply (i : Fin 100000) (j : Fin 64) : GRt m ρ c (ix2 i j) = Cert.Sage.linF (Cert.Sage.h1K (Inputs.netOfMem m c) (Inputs.graphOfMem m ρ c)) (Inputs.netOfMem m c).Wr2 i j := rfl

/-- WHAT POINT `t` WRITES BACK to this output, for ANY contents `V` the region is entered with: if the body's value at
    `(r, j)` of the blocks at every point `t` is `G` at row `5000·t + r`, column `j`, then what point `t` writes back is its
    block of `G`. -/
theorem flushedR_gen (V : (c : Dev nD) → (b : Ref sig .tc) → Buf (Elt Ideal) ((c : Thread nD τ).loc b))
    (G : S100000x64.Idx → EReal)
    (hG : ∀ (t : Fin cfg0.N) (r : Fin 5000) (j : Fin 64) (i : Fin 100000), i.val = 5000 * t.val + r.val →
      k0_pay2 (k0_pay3 (iblk0 V c 0 t) (iblk0 V c 1 t) (iblk0 V c 2 t) (iblk0 V c 3 t) (iblk0 V c 4 t) (iblk0 V c 5 t) (iblk0 V c 8 t) (iblk0 V c 7 t) (iblk0 V c 6 t)) (iblk0 V c 10 t) (ix2 r j) = G (ix2 i j))
    (t : Fin cfg0.N) :
    (dat0 V c).flushed 12 t = ((cfg0.win 12).blk t).view.read (Elt Ideal) G := by
  show (cfg0.win 12).cut (grid0.coords t) ((dat0 V c).after 12 t) = _
  rw [after0_12]
  unfold out0_12
  rw [View.canon_unit_zero hz]
  simp only [View.ld_unit_zero (S := S5000x128) hz, View.ld_unit_zero (S := S128x128) hz,
    View.ld_unit_zero (S := S1x128) hz, View.ld_unit_zero (S := S128x64) hz]
  funext y
  obtain ⟨r, j, rfl⟩ : ∃ (r : Fin 5000) (j : Fin 64), y = ix2 r j := ⟨y 0, y 1, eq_ix2 y⟩
  have hN : cfg0.N = 20 := N_0
  have ht : t.val < 20 := hN ▸ t.isLt
  rw [View.read_apply, cutR_apply, embR t r j ⟨5000 * t.val + r.val, by omega⟩ rfl]
  exact hG t r j ⟨5000 * t.val + r.val, by omega⟩ rfl

/-- WHAT POINT `t` WRITES BACK to the second output is its block of `GRt`: rows `5000·t … 5000·t + 4999`. -/
theorem flushedR_eq (t : Fin cfg0.N) :
    (dat0 (V1 m ρ) c).flushed 12 t = ((cfg0.win 12).blk t).view.read (Elt Ideal) (GRt m ρ c) :=
  flushedR_gen c (V1 m ρ) (GRt m ρ c)
    (fun t r j i hi => (outR_at m ρ c t r j i hi).trans (GRt_apply m ρ c i j).symm) t

/-- An index of the second output array lies in the block of the point that holds its row: rows `5000·t … 5000·t + 4999`
    are point `t`'s, with all 64 columns. -/
theorem coverR (i : S100000x64.Idx) :
    ∃ t : Fin cfg0.N, (cfg0.win 12).flush t = true ∧ i ∈ ((cfg0.win 12).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_12 t, ?_⟩
  show i ∈ ((View.whole main_v39_1).slice (win0_12.rect t)).set
  rw [View.set_slice_whole, Rect.mem_set_unit]
  obtain ⟨h0, h1⟩ := (⟨(idx_rows t).2.2.2.2.2.2.1, (idx_rows t).2.2.2.2.2.2.2⟩ : win0_12.index t (0 : Fin 2) = t.val ∧ win0_12.index t (1 : Fin 2) = 0)
  intro a
  match a with
  | ⟨0, _⟩ =>
    show win0_12.index t (0 : Fin 2) * 5000 ≤ (i 0).val ∧ (i 0).val < win0_12.index t (0 : Fin 2) * 5000 + 5000
    rw [h0, ht]
    omega
  | ⟨1, _⟩ =>
    show win0_12.index t (1 : Fin 2) * 64 ≤ (i 1).val ∧ (i 1).val < win0_12.index t (1 : Fin 2) * 64 + 64
    rw [h1]
    omega
/-- The 20 blocks tile the second output array, so it ends holding its function whole. -/
theorem arrR : (dat0 (V1 m ρ) c).arrAt 12 cfg0.N = GRt m ρ c :=
  (dat0 (V1 m ρ) c).arrAt_eq_of_cover 12 (GRt m ρ c) (fun t _ => flushedR_eq m ρ c t) coverR

/-- AFTER THE FIRST REGION its second result holds, at `(i, j)`, node `i`'s hidden features against row `j` of the second
    layer's self weight. -/
theorem hr2_apply (i : Fin 100000) (j : Fin 64) :
    (W2 m ρ c (Proc.devRef .tc main_v39_1) : Cert.Sage.Mat 100000 64) (ValueIdx.ix2 i j)
      = Cert.Sage.linF (Cert.Sage.h1K (Inputs.netOfMem m c) (Inputs.graphOfMem m ρ c)) (Inputs.netOfMem m c).Wr2 i j := by
  have h : W2 m ρ c (Proc.devRef .tc main_v39_1) = (dat0 (V1 m ρ) c).arrAt 12 cfg0.N := W2_arr m ρ c 12
  rw [h, arrR, GRt_apply]

end Cert.KernelIdeal.NodeValue

end
-- ==== Proof.KernelNodes.lean ====
/-
  The kernel's first region: the node network, from the blocks of 5000 nodes to its two result arrays.

  The region runs 20 points; point `t` reads rows `5000·t … 5000·t + 4999` of the node features and of their mean
  aggregate, the whole of the four weights and five per-feature rows, and writes rows `5000·t … 5000·t + 4999` of two
  `[100000, 64]` results.  Row by row the body is the spec's first layer — two products, the bias, the batch norm with
  its scale written `g · rsqrt (v + ε)`, the ReLU — followed by the second layer's two linear maps applied per node.  So
  what point `t` writes back is block `t` of ONE function of the node index, the 20 blocks tile the 100000 rows, and
  each result array ends holding that function: at `(i, j)`, `Σₖ h₁(i, k) · W(j, k)` for `W` the second layer's neighbour
  weight (first result) or self weight (second result).
-/
import proofs.«156470_j39548058862205_2_alg».proof.Proof.KernelNodesR
import Idealize.ShloMosaic.Lib.Pipeline.Value
import Idealize.ShloMosaic.Lib.Tactic

set_option Elab.async false
set_option maxRecDepth 16384

open scoped BigOperators

noncomputable section

namespace Cert.KernelIdeal.NodeValue

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The first result: from blocks to the array -/

/-- What the first output array holds after the region: every node's hidden features through the neighbour weight. -/
def GLt : S100000x64.Idx → EReal := fun i => Cert.Sage.linF (Cert.Sage.h1K (Inputs.netOfMem m c) (Inputs.graphOfMem m ρ c)) (Inputs.netOfMem m c).Wl2 (i 0) (i 1)

theorem GLt_apply (i : Fin 100000) (j : Fin 64) : GLt m ρ c (ix2 i j) = Cert.Sage.linF (Cert.Sage.h1K (Inputs.netOfMem m c) (Inputs.graphOfMem m ρ c)) (Inputs.netOfMem m c).Wl2 i j := rfl

/-- WHAT POINT `t` WRITES BACK to this output, for ANY contents `V` the region is entered with: if the body's value at
    `(r, j)` of the blocks at every point `t` is `G` at row `5000·t + r`, column `j`, then what point `t` writes back is its
    block of `G`. -/
theorem flushedL_gen (V : (c : Dev nD) → (b : Ref sig .tc) → Buf (Elt Ideal) ((c : Thread nD τ).loc b))
    (G : S100000x64.Idx → EReal)
    (hG : ∀ (t : Fin cfg0.N) (r : Fin 5000) (j : Fin 64) (i : Fin 100000), i.val = 5000 * t.val + r.val →
      k0_pay1 (k0_pay3 (iblk0 V c 0 t) (iblk0 V c 1 t) (iblk0 V c 2 t) (iblk0 V c 3 t) (iblk0 V c 4 t) (iblk0 V c 5 t) (iblk0 V c 8 t) (iblk0 V c 7 t) (iblk0 V c 6 t)) (iblk0 V c 9 t) (ix2 r j) = G (ix2 i j))
    (t : Fin cfg0.N) :
    (dat0 V c).flushed 11 t = ((cfg0.win 11).blk t).view.read (Elt Ideal) G := by
  show (cfg0.win 11).cut (grid0.coords t) ((dat0 V c).after 11 t) = _
  rw [after0_11]
  unfold out0_11
  rw [View.canon_unit_zero hz]
  simp only [View.ld_unit_zero (S := S5000x128) hz, View.ld_unit_zero (S := S128x128) hz,
    View.ld_unit_zero (S := S1x128) hz, View.ld_unit_zero (S := S128x64) hz]
  funext y
  obtain ⟨r, j, rfl⟩ : ∃ (r : Fin 5000) (j : Fin 64), y = ix2 r j := ⟨y 0, y 1, eq_ix2 y⟩
  have hN : cfg0.N = 20 := N_0
  have ht : t.val < 20 := hN ▸ t.isLt
  rw [View.read_apply, cutL_apply, embL t r j ⟨5000 * t.val + r.val, by omega⟩ rfl]
  exact hG t r j ⟨5000 * t.val + r.val, by omega⟩ rfl

/-- WHAT POINT `t` WRITES BACK to the first output is its block of `GLt`: rows `5000·t … 5000·t + 4999`. -/
theorem flushedL_eq (t : Fin cfg0.N) :
    (dat0 (V1 m ρ) c).flushed 11 t = ((cfg0.win 11).blk t).view.read (Elt Ideal) (GLt m ρ c) :=
  flushedL_gen c (V1 m ρ) (GLt m ρ c)
    (fun t r j i hi => (outL_at m ρ c t r j i hi).trans (GLt_apply m ρ c i j).symm) t

/-- An index of the first output array lies in the block of the point that holds its row: rows `5000·t … 5000·t + 4999`
    are point `t`'s, with all 64 columns. -/
theorem coverL (i : S100000x64.Idx) :
    ∃ t : Fin cfg0.N, (cfg0.win 11).flush t = true ∧ i ∈ ((cfg0.win 11).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_11 t, ?_⟩
  show i ∈ ((View.whole main_v39_0).slice (win0_11.rect t)).set
  rw [View.set_slice_whole, Rect.mem_set_unit]
  obtain ⟨h0, h1⟩ := (⟨(idx_rows t).2.2.2.2.1, (idx_rows t).2.2.2.2.2.1⟩ : win0_11.index t (0 : Fin 2) = t.val ∧ win0_11.index t (1 : Fin 2) = 0)
  intro a
  match a with
  | ⟨0, _⟩ =>
    show win0_11.index t (0 : Fin 2) * 5000 ≤ (i 0).val ∧ (i 0).val < win0_11.index t (0 : Fin 2) * 5000 + 5000
    rw [h0, ht]
    omega
  | ⟨1, _⟩ =>
    show win0_11.index t (1 : Fin 2) * 64 ≤ (i 1).val ∧ (i 1).val < win0_11.index t (1 : Fin 2) * 64 + 64
    rw [h1]
    omega

/-- The 20 blocks tile the first output array, so it ends holding its function whole. -/
theorem arrL : (dat0 (V1 m ρ) c).arrAt 11 cfg0.N = GLt m ρ c :=
  (dat0 (V1 m ρ) c).arrAt_eq_of_cover 11 (GLt m ρ c) (fun t _ => flushedL_eq m ρ c t) coverL

/-- AFTER THE FIRST REGION its first result holds, at `(i, j)`, node `i`'s hidden features against row `j` of the second
    layer's neighbour weight. -/
theorem hl2_apply (i : Fin 100000) (j : Fin 64) :
    (W2 m ρ c (Proc.devRef .tc main_v39_0) : Cert.Sage.Mat 100000 64) (ValueIdx.ix2 i j)
      = Cert.Sage.linF (Cert.Sage.h1K (Inputs.netOfMem m c) (Inputs.graphOfMem m ρ c)) (Inputs.netOfMem m c).Wl2 i j := by
  have h : W2 m ρ c (Proc.devRef .tc main_v39_0) = (dat0 (V1 m ρ) c).arrAt 11 cfg0.N := W2_arr m ρ c 11
  rw [h, arrL, GLt_apply]

end Cert.KernelIdeal.NodeValue

end
-- ==== Proof.KernelEmbedOps.lean ====
/-
  The host operations between the kernel's two regions, read at an index.

  From the per-node products `HL` (the hidden features against the second layer's neighbour weights) and `HR` (against its
  root weights) the host gathers the rows of `HL` at the message edges' source words, scatter-adds them into zeros at the
  destination words, divides by the broadcast edge count, adds `HR` and the broadcast bias.  At node `i` and feature `j`
  that is the mean over the edges into `i` of `HL` at the edge's source node, plus `HR i j`, plus the bias `j`.
-/
import proofs.«156470_j39548058862205_2_alg».proof.KernelIdeal
import proofs.«156470_j39548058862205_2_alg».proof.Proof.Gen.KernelIdeal
import proofs.«156470_j39548058862205_2_alg».proof.Proof.SageSpec
import proofs.«156470_j39548058862205_2_alg».proof.Proof.LibGatherRows
import proofs.«156470_j39548058862205_2_alg».proof.Proof.LibScatterRows
import Idealize.ShloMosaic.Lib.Pipeline.Value
import Idealize.ShloMosaic.PureOps.Ideal.Laws

open scoped BigOperators

noncomputable section

namespace Cert.KernelIdeal.EmbedValue

open Cert.KernelIdeal Idealize.ShloMosaic Idealize.ShloMosaic.ValueIdx Cert.Sage
open Facts₀ Facts

/-- The row gather of a 64-feature node table at a column of edge words. -/
theorem gather64_apply (x : FVec Ideal S100000x64 .bf16) (idx : IVec S1600000x1 32) (e : Fin 1600000) (j : Fin 64) :
    Host.gather gather_S100000x64_S1600000x1_S1600000x64_1_0_n_n_0_1_164 x idx (ix2 e j)
      = x (ix2 (clampRow (idx (ix2 e 0))) j) :=
  LibGatherRows.gather_rows_apply (N := 100000) (R := 1600000) (C := 64) (by decide)
    gather_S100000x64_S1600000x1_S1600000x64_1_0_n_n_0_1_164.wf x idx e j

/-- The exact scatter-add of rows with the program's own dimension numbers, at node `n` and feature `j`. -/
theorem scatter64_sum (x : FVec Ideal S100000x64 .f32) (idx : IVec S1600000x1 32) (upd : FVec Ideal S1600000x64 .f32)
    (n : Fin 100000) (j : Fin 64) :
    Ideal.hostScatterAdd scatter_S100000x64_S1600000x1_S1600000x64_1_0_0_1 x idx upd (ix2 n j)
      = x (ix2 n j) + ∑ e ∈ Finset.univ.filter (fun e : Fin 1600000 => LibScatterRows.rowOf? 100000 (idx (ix2 e 0)) = some n),
          upd (ix2 e j) :=
  LibScatterRows.scatterAdd_rows_apply (N := 100000) (R := 1600000) (C := 64)
    scatter_S100000x64_S1600000x1_S1600000x64_1_0_0_1.wf idx x upd n j

/-- The zero table at an index. -/
theorem zeros64_apply (y : S100000x64.Idx) :
    (broadcastInDim S100000x64 ![] bcast_S_S100000x64 (constant (F := Ideal) S_ .f32 0x00000000#32)) y = (0 : EReal) :=
  (broadcastInDim_apply (s := S_) (t := S100000x64) ![] bcast_S_S100000x64
      (constant (F := Ideal) S_ .f32 0x00000000#32) y ix0 (fun a => a.elim0)).trans
    ((constant_apply (s := S_) (φ := .f32) 0x00000000#32 ix0).trans Ideal.ofBits_zero_f32)

/-- The host's row scatter-add into any table, at node `n` and feature `j`. -/
theorem scatter64_gen (x : FVec Ideal S100000x64 .f32) (idx : IVec S1600000x1 32) (upd : FVec Ideal S1600000x64 .f32)
    (n : Fin 100000) (j : Fin 64) :
    Host.scatterAdd scatter_S100000x64_S1600000x1_S1600000x64_1_0_0_1 x idx upd (ix2 n j)
      = x (ix2 n j) + ∑ e ∈ Finset.univ.filter (fun e : Fin 1600000 => LibScatterRows.rowOf? 100000 (idx (ix2 e 0)) = some n),
          upd (ix2 e j) := by
  unfold Host.scatterAdd
  rw [Ideal.hostScatterAdd_def, scatter64_sum]

/-- The row scatter-add of edge rows into a zero table, at node `n` and feature `j`. -/
theorem scatter64_apply (idx : IVec S1600000x1 32) (upd : FVec Ideal S1600000x64 .f32) (n : Fin 100000) (j : Fin 64) :
    Host.scatterAdd scatter_S100000x64_S1600000x1_S1600000x64_1_0_0_1
        (broadcastInDim S100000x64 ![] bcast_S_S100000x64 (constant (F := Ideal) S_ .f32 0x00000000#32)) idx upd (ix2 n j)
      = 0 + ∑ e ∈ Finset.univ.filter (fun e : Fin 1600000 => LibScatterRows.rowOf? 100000 (idx (ix2 e 0)) = some n),
          upd (ix2 e j) := by
  rw [scatter64_gen, zeros64_apply]

/-- A per-node vector broadcast along the features, at `(n, j)`. -/
theorem nodeBcast64_apply (cv : FVec Ideal S100000 .f32) (n : Fin 100000) (j : Fin 64) :
    broadcastInDim S100000x64 ![0, 1] bcast_S100000x1_S100000x64_0_1
        (broadcastInDim S100000x1 ![0] bcast_S100000_S100000x1_0 cv) (ix2 n j) = cv (ix1 n) := by
  rw [broadcastInDim_apply (s := S100000x1) (t := S100000x64) ![0, 1] bcast_S100000x1_S100000x64_0_1 _ (ix2 n j) (ix2 n 0)
      (fun a => match a with | ⟨0, _⟩ => rfl | ⟨1, _⟩ => rfl),
    broadcastInDim_apply (s := S100000) (t := S100000x1) ![0] bcast_S100000_S100000x1_0 cv (ix2 n 0) (ix1 n) (fun a => match a with | ⟨0, _⟩ => rfl)]

/-- A per-feature vector broadcast along the nodes, at `(n, j)`. -/
theorem featBcast64_apply (b : FVec Ideal S64 .f32) (n : Fin 100000) (j : Fin 64) :
    broadcastInDim S100000x64 ![0, 1] bcast_S1x64_S100000x64_0_1
        (broadcastInDim S1x64 ![1] bcast_S64_S1x64_1 b) (ix2 n j) = b (ix1 j) := by
  rw [broadcastInDim_apply (s := S1x64) (t := S100000x64) ![0, 1] bcast_S1x64_S100000x64_0_1 _ (ix2 n j) (ix2 0 j)
      (fun a => match a with | ⟨0, _⟩ => rfl | ⟨1, _⟩ => rfl),
    broadcastInDim_apply (s := S64) (t := S1x64) ![1] bcast_S64_S1x64_1 b (ix2 0 j) (ix1 j) (fun a => match a with | ⟨0, _⟩ => rfl)]

/-- A quotient plus a widened table plus a table, narrowed, at an index: the formats change nothing. -/
theorem quot_add_add_apply (A B C : FVec Ideal S100000x64 .f32) (H : FVec Ideal S100000x64 .bf16) (x : S100000x64.Idx) :
    (truncf .bf16 (addf (addf (Host.divf A B) (extf .f32 H bitsLt_bf16_f32)) C) bitsLt_bf16_f32
      : FVec Ideal S100000x64 .bf16) x = (Ideal.div (A x) (B x) + H x) + C x := rfl

/-- THE NODE EMBEDDING AS THE HOST COMPUTES IT, at node `i` and feature `j`. -/
theorem embed_apply (HL HR : FVec Ideal S100000x64 .bf16) (isrc idst : IVec S1600000x1 32) (cv : FVec Ideal S100000 .f32)
    (bl : FVec Ideal S64 .f32) (i : Fin 100000) (j : Fin 64) :
    (truncf .bf16
        (addf
          (addf
            (Host.divf
              (Host.scatterAdd scatter_S100000x64_S1600000x1_S1600000x64_1_0_0_1
                (broadcastInDim S100000x64 ![] bcast_S_S100000x64 (constant (F := Ideal) S_ .f32 0x00000000#32)) idst
                (extf .f32 (Host.gather gather_S100000x64_S1600000x1_S1600000x64_1_0_n_n_0_1_164 HL isrc) bitsLt_bf16_f32))
              (broadcastInDim S100000x64 ![0, 1] bcast_S100000x1_S100000x64_0_1
                (broadcastInDim S100000x1 ![0] bcast_S100000_S100000x1_0 cv)))
            (extf .f32 HR bitsLt_bf16_f32))
          (broadcastInDim S100000x64 ![0, 1] bcast_S1x64_S100000x64_0_1 (broadcastInDim S1x64 ![1] bcast_S64_S1x64_1 bl)))
        bitsLt_bf16_f32 : FVec Ideal S100000x64 .bf16) (ix2 i j)
      = (Ideal.div
            (0 + ∑ e ∈ Finset.univ.filter (fun e : Fin 1600000 => LibScatterRows.rowOf? 100000 (idst (ix2 e 0)) = some i),
              HL (ix2 (clampRow (isrc (ix2 e 0))) j))
            (cv (ix1 i))
          + HR (ix2 i j)) + bl (ix1 j) := by
  have hsum : ∀ S : Finset (Fin 1600000),
      ∑ e ∈ S, (extf .f32 (Host.gather gather_S100000x64_S1600000x1_S1600000x64_1_0_n_n_0_1_164 HL isrc) bitsLt_bf16_f32
          : FVec Ideal S1600000x64 .f32) (ix2 e j)
        = ∑ e ∈ S, HL (ix2 (clampRow (isrc (ix2 e 0))) j) :=
    fun S => Finset.sum_congr rfl fun e _ => gather64_apply HL isrc e j
  rw [quot_add_add_apply, scatter64_apply, nodeBcast64_apply, featBcast64_apply, hsum]

end Cert.KernelIdeal.EmbedValue

end
-- ==== Proof.KernelEmbed.lean ====
/-
  The node embedding the kernel's second region is given.

  Between the regions the host reads the first region's two per-node products back, aggregates the first over the
  message edges (the same source and destination words and the same edge counts as before the first region, recomputed
  from the same index argument), adds the second and the second layer's bias.  At node `i` and feature `j` this is the
  kernel's arrangement of the embedding, `zK`.
-/
import proofs.«156470_j39548058862205_2_alg».proof.Proof.FramePatchKernelIdeal
import proofs.«156470_j39548058862205_2_alg».proof.Proof.KernelInputs
import proofs.«156470_j39548058862205_2_alg».proof.Proof.KernelEmbedOps

set_option maxRecDepth 16384

open scoped BigOperators

noncomputable section

namespace Cert.KernelIdeal.EmbedValue

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx Cert.Sage

variable (m : (ℓ : Loc nD τ sig) → Buf (Elt Ideal) ℓ) (ρ : Dev nD → PrngReg) (c : Dev nD)

set_option maxHeartbeats 4000000 in
/-- The embedding buffer after the first host stretch between the regions, as the operations' term of the first
    region's two outputs, the graph's words and counts, and the bias. -/
theorem embed_term :
    (W3 m ρ c (Proc.devRef .tc main_v65) : FVec Ideal S100000x64 .bf16)
      = truncf .bf16
        (addf
          (addf
            (Host.divf
              (Host.scatterAdd scatter_S100000x64_S1600000x1_S1600000x64_1_0_0_1
                (broadcastInDim S100000x64 ![] bcast_S_S100000x64 (constant (F := Ideal) S_ .f32 0x00000000#32))
                (Inputs.graphOfMem m ρ c).idst
                (extf .f32 (Host.gather gather_S100000x64_S1600000x1_S1600000x64_1_0_n_n_0_1_164
                  (W2 m ρ c (Proc.devRef .tc main_v39_0)) (Inputs.graphOfMem m ρ c).isrc) bitsLt_bf16_f32))
              (broadcastInDim S100000x64 ![0, 1] bcast_S100000x1_S100000x64_0_1
                (broadcastInDim S100000x1 ![0] bcast_S100000_S100000x1_0 (Inputs.graphOfMem m ρ c).cnt)))
            (extf .f32 (W2 m ρ c (Proc.devRef .tc main_v39_1)) bitsLt_bf16_f32))
          (broadcastInDim S100000x64 ![0, 1] bcast_S1x64_S100000x64_0_1
            (broadcastInDim S1x64 ![1] bcast_S64_S1x64_1 (Inputs.netOfMem m c).bl2)))
        bitsLt_bf16_f32 := by
  show StableHlo.after hostOps1 (W2 m ρ c) (Proc.devRef .tc main_v65) = _
  after_results_simp
  rw [W2_of_ne m ρ c main_v1 (by decide), W2_of_ne m ρ c main_v3 (by decide), W2_of_ne m ρ c main_arg12 (by decide)]
  unfold Inputs.graphOfMem Inputs.netOfMem
  dsimp only
  after_results_simp

/-- THE EMBEDDING at node `i` and feature `j`, given the first region's two products. -/
theorem z_apply
    (hl2 : ∀ (i : Fin 100000) (j : Fin 64), (W2 m ρ c (Proc.devRef .tc main_v39_0) : Mat 100000 64) (ix2 i j)
      = linF (h1K (Inputs.netOfMem m c) (Inputs.graphOfMem m ρ c)) (Inputs.netOfMem m c).Wl2 i j)
    (hr2 : ∀ (i : Fin 100000) (j : Fin 64), (W2 m ρ c (Proc.devRef .tc main_v39_1) : Mat 100000 64) (ix2 i j)
      = linF (h1K (Inputs.netOfMem m c) (Inputs.graphOfMem m ρ c)) (Inputs.netOfMem m c).Wr2 i j)
    (i : Fin 100000) (j : Fin 64) :
    (W3 m ρ c (Proc.devRef .tc main_v65) : Mat 100000 64) (ix2 i j)
      = zK (Inputs.netOfMem m c) (Inputs.graphOfMem m ρ c) i j := by
  rw [embed_term m ρ c, embed_apply]
  unfold zK meanAgg inEdges
  rw [hr2 i j]
  exact congrArg
    (fun s : EReal => (Ideal.div (0 + s) ((Inputs.graphOfMem m ρ c).cnt (ix1 i))
      + linF (h1K (Inputs.netOfMem m c) (Inputs.graphOfMem m ρ c)) (Inputs.netOfMem m c).Wr2 i j)
      + (Inputs.netOfMem m c).bl2 (ix1 j))
    (Finset.sum_congr rfl fun e _ => hl2 (clampRow ((Inputs.graphOfMem m ρ c).isrc (ix2 e 0))) j)

end Cert.KernelIdeal.EmbedValue

end
-- ==== Proof.KernelScorePay.lean ====
/-
  The scorer's arithmetic at one candidate edge.

  One block of the second region holds 8192 candidate edges.  For row `r` of a block the stored value is a function of
  row `r` of the three edge-wise inputs (the two gathered end-node embeddings and the edge features) and of the whole
  weight and batch-norm blocks: an edge-feature network 32 → 64 → 32 (a product, a batch norm with ReLU, a product), a
  first scorer layer fed as three partial products against the three column blocks of its weight, a batch norm with
  ReLU, a second layer with batch norm and ReLU, and a final 64 → 1 product plus a bias.  Every matrix product is
  `Σₖ a(r,k) · w(k,c)` against a weight block stored transposed; every bias or batch-norm vector is a one-row block laid
  along the rows.  Changes of float format are the identity on the extended reals.
-/
import proofs.«156470_j39548058862205_2_alg».proof.Proof.Gen.KernelIdeal.Skeleton
import proofs.«156470_j39548058862205_2_alg».proof.Proof.SageAlgebra
import Idealize.ShloMosaic.Lib.StackMember
import Idealize.ShloMosaic.Lib.KernelVsHost
import Idealize.ShloMosaic.Lib.Pipeline.Value

set_option maxRecDepth 16384

open scoped BigOperators

noncomputable section

namespace Cert.KernelIdeal.ScoreValue

open Cert.KernelIdeal Cert.KernelIdeal.Gen Idealize.ShloMosaic Idealize.ShloMosaic.ValueIdx

/-! ### Two layout facts over literal-rank shapes -/

/-- A one-row block laid along `M` rows reads, at `(p, r)`, its entry `(0, r)`. -/
theorem rowBlock_apply {α : Type} {M N : Nat} (x : (⟨2, ![1, N]⟩ : Shape).Idx → α)
    (hb : (⟨2, ![1, N]⟩ : Shape).Broadcasts ⟨2, ![M, N]⟩) (p : Fin M) (r : Fin N) :
    broadcastTo ⟨2, ![M, N]⟩ x hb (ix2 p r) = x (ix2 (0 : Fin 1) r) :=
  broadcastTo_apply x hb (ix2 p r) (ix2 (0 : Fin 1) r) (fun a => match a with
    | ⟨0, _⟩ => by show (0 : Nat) = if (1 : Nat) = 1 then 0 else _; rw [if_pos rfl]
    | ⟨1, _⟩ => by
      show r.val = if N = 1 then 0 else r.val
      split_ifs with h
      · subst h; omega
      · rfl)

/-- A product of an `M × K` block by a `K × N` block accumulated into zero, at `(a, b)`: `Σ_c A(a,c) · B(c,b)`. -/
theorem matmul_plain_apply {M K N : Nat} {φ₁ φ₂ : FTy} (A : FVec Ideal ⟨2, ![M, K]⟩ φ₁) (B : FVec Ideal ⟨2, ![K, N]⟩ φ₂)
    (a : Fin M) (b : Fin N) :
    matmul (DotDims.plain M K N) none A B (constant ⟨2, ![M, N]⟩ .f32 0x00000000#32) (ix2 a b)
      = ∑ c : Fin K, A (ix2 a c) * B (ix2 c b) :=
  (congrFun (matmul_zero_eq_dotGeneral (DotDims.plain M K N) none A B) (ix2 a b)).trans
    (StackMember.dotGeneral_plain_apply none A B a b)

/-- The six products of the scorer, each at its literal extents. -/
theorem mm_32_64 (A : FVec Ideal S8192x32 .bf16) (B : FVec Ideal S32x64 .bf16) (a : Fin 8192) (b : Fin 64) :
    matmul dot_S8192x32_S32x64_S8192x64_1_0_0_1_n_n none A B (constant S8192x64 .f32 0x00000000#32) (ix2 a b)
      = ∑ c : Fin 32, A (ix2 a c) * B (ix2 c b) := matmul_plain_apply A B a b
theorem mm_64_32 (A : FVec Ideal S8192x64 .bf16) (B : FVec Ideal S64x32 .bf16) (a : Fin 8192) (b : Fin 32) :
    matmul dot_S8192x64_S64x32_S8192x32_1_0_0_1_n_n none A B (constant S8192x32 .f32 0x00000000#32) (ix2 a b)
      = ∑ c : Fin 64, A (ix2 a c) * B (ix2 c b) := matmul_plain_apply A B a b
theorem mm_64_128 (A : FVec Ideal S8192x64 .bf16) (B : FVec Ideal S64x128 .bf16) (a : Fin 8192) (b : Fin 128) :
    matmul dot_S8192x64_S64x128_S8192x128_1_0_0_1_n_n none A B (constant S8192x128 .f32 0x00000000#32) (ix2 a b)
      = ∑ c : Fin 64, A (ix2 a c) * B (ix2 c b) := matmul_plain_apply A B a b
theorem mm_32_128 (A : FVec Ideal S8192x32 .bf16) (B : FVec Ideal S32x128 .bf16) (a : Fin 8192) (b : Fin 128) :
    matmul dot_S8192x32_S32x128_S8192x128_1_0_0_1_n_n none A B (constant S8192x128 .f32 0x00000000#32) (ix2 a b)
      = ∑ c : Fin 32, A (ix2 a c) * B (ix2 c b) := matmul_plain_apply A B a b
theorem mm_128_64 (A : FVec Ideal S8192x128 .bf16) (B : FVec Ideal S128x64 .bf16) (a : Fin 8192) (b : Fin 64) :
    matmul dot_S8192x128_S128x64_S8192x64_1_0_0_1_n_n none A B (constant S8192x64 .f32 0x00000000#32) (ix2 a b)
      = ∑ c : Fin 128, A (ix2 a c) * B (ix2 c b) := matmul_plain_apply A B a b
theorem mm_64_1 (A : FVec Ideal S8192x64 .bf16) (B : FVec Ideal S64x1 .bf16) (a : Fin 8192) (b : Fin 1) :
    matmul dot_S8192x64_S64x1_S8192x1_1_0_0_1_n_n none A B (constant S8192x1 .f32 0x00000000#32) (ix2 a b)
      = ∑ c : Fin 64, A (ix2 a c) * B (ix2 c b) := matmul_plain_apply A B a b

/-- The literal the batch norms add to a variance is the specification's offset. -/
theorem eps_word : (Scalar.ofBits .f32 0x3727C5AC#32 : Ideal .f32) = Cert.Sage.eps := rfl
/-- The zero literal of a ReLU is the extended real zero. -/
theorem zero_word : (Scalar.ofBits .f32 0x00000000#32 : Ideal .f32) = 0 := Ideal.ofBits_zero_f32
/-- A reciprocal square root at an index is that of the entry. -/
theorem rsqrt_apply {s : Shape} {φ : FTy} (a : FVec Ideal s φ) (i : s.Idx) : rsqrt a i = Ideal.rsqrt (a i) := rfl

/-- Batch norm then ReLU with the scale as a product with the reciprocal square root:
    `max ((h − m) · (g · rsqrt (v + ε)) + b) 0`. -/
def bnRelu (h g b m v : EReal) : EReal := max ((h - m) * (g * Ideal.rsqrt (v + Cert.Sage.eps)) + b) 0

/-! ### The edge-feature network: features · W₁ᵀ + bias, batch norm and ReLU, · W₂ᵀ + bias -/

theorem pay2_apply (v0 : Vec Ideal S8192x32 .bf16) (v2 : Vec Ideal S32x64 .bf16) (v5 v9 v11 v17 v23 : Vec Ideal S1x64 .f32)
    (v30 : Vec Ideal S64x32 .bf16) (v33 : Vec Ideal S1x32 .f32) (p : Fin 8192) (q : Fin 32) :
    k1_pay2 (F := Ideal) v0 v2 v5 v9 v11 v17 v23 v30 v33 (ix2 p q)
      = (∑ r : Fin 64, bnRelu ((∑ k : Fin 32, v0 (ix2 p k) * v2 (ix2 k r)) + v5 (ix2 (0 : Fin 1) r))
            (v9 (ix2 (0 : Fin 1) r)) (v23 (ix2 (0 : Fin 1) r)) (v17 (ix2 (0 : Fin 1) r)) (v11 (ix2 (0 : Fin 1) r)) * v30 (ix2 r q))
          + v33 (ix2 (0 : Fin 1) q) := by
  unfold k1_pay2
  simp only [addf_apply, mm_64_32, truncf_apply, maximumf_apply, mulf_apply, subf_apply, mm_32_64, shapeCast_self,
    rowBlock_apply, broadcast_apply, eps_word, zero_word, rsqrt_apply]
  rfl

/-! ### The first scorer layer before its shift: three partial products, the bias, the batch norm's scale -/

theorem pay3_apply (v36 : FVec Ideal S8192x32 .f32) (v37 v39 : Vec Ideal S8192x64 .bf16) (v41 v44 : Vec Ideal S64x128 .bf16)
    (v49 : Vec Ideal S32x128 .bf16) (v53 v57 v59 v65 : Vec Ideal S1x128 .f32) (p : Fin 8192) (k : Fin 128) :
    k1_pay3 (F := Ideal) v36 v37 v39 v41 v44 v49 v53 v57 v59 v65 (ix2 p k)
      = (((((∑ j : Fin 64, v37 (ix2 p j) * v41 (ix2 j k)) + ∑ j : Fin 64, v39 (ix2 p j) * v44 (ix2 j k))
            + ∑ q : Fin 32, v36 (ix2 p q) * v49 (ix2 q k)) + v53 (ix2 (0 : Fin 1) k)) - v65 (ix2 (0 : Fin 1) k))
          * (v57 (ix2 (0 : Fin 1) k) * Ideal.rsqrt (v59 (ix2 (0 : Fin 1) k) + Cert.Sage.eps)) := by
  unfold k1_pay3
  simp only [addf_apply, mm_64_128, mm_32_128, truncf_apply, mulf_apply, subf_apply, shapeCast_self,
    rowBlock_apply, broadcast_apply, eps_word, rsqrt_apply]

theorem pay4_apply (v71 : Vec Ideal S1x128 .f32) : k1_pay4 (F := Ideal) v71 = v71 := by
  unfold k1_pay4
  exact shapeCast_self _ _

/-! ### The shift and ReLU of the first layer, the second layer, and the product with the last weight -/

theorem pay5_apply (v70 : FVec Ideal S8192x128 .f32) (v72 : FVec Ideal S1x128 .f32) (v78 : Vec Ideal S128x64 .bf16)
    (v81 v85 v87 v93 v99 : Vec Ideal S1x64 .f32) (v106 : Vec Ideal S64x1 .bf16) (p : Fin 8192) (z : Fin 1) :
    k1_pay5 (F := Ideal) v70 v72 v78 v81 v85 v87 v93 v99 v106 (ix2 p z)
      = ∑ r : Fin 64, bnRelu ((∑ k : Fin 128, max (v70 (ix2 p k) + v72 (ix2 (0 : Fin 1) k)) 0 * v78 (ix2 k r)) + v81 (ix2 (0 : Fin 1) r))
            (v85 (ix2 (0 : Fin 1) r)) (v99 (ix2 (0 : Fin 1) r)) (v93 (ix2 (0 : Fin 1) r)) (v87 (ix2 (0 : Fin 1) r)) * v106 (ix2 r z) := by
  unfold k1_pay5
  simp only [addf_apply, mm_64_1, mm_128_64, truncf_apply, maximumf_apply, mulf_apply, subf_apply, shapeCast_self,
    rowBlock_apply, broadcast_apply, eps_word, zero_word, rsqrt_apply]
  rfl

theorem pay6_apply (v109 : Vec Ideal S1x1 .f32) (p : Fin 8192) (z : Fin 1) :
    k1_pay6 (F := Ideal) v109 (ix2 p z) = v109 (ix2 (0 : Fin 1) z) := by
  unfold k1_pay6
  simp only [shapeCast_self, rowBlock_apply]

/-- The stored column, taken as a vector: entry `r` is the product's entry `(r, 0)` plus the bias's. -/
theorem pay1_apply (v108 v111 : FVec Ideal S8192x1 .f32) (r : Fin 8192) :
    k1_pay1 (F := Ideal) v108 v111 (ix1 r) = v108 (ix2 r (0 : Fin 1)) + v111 (ix2 r (0 : Fin 1)) := by
  unfold k1_pay1
  exact shapeCast_apply _ _ (ix1 r) (ix2 r (0 : Fin 1)) (by
    rw [Shape.rowMajor_val_two, Shape.rowMajor_val_one]; show r.val * 1 + 0 = r.val; omega)

/-! ### The whole chain at row `r` of a block -/

/-- The score of one candidate edge from its own rows (`zs`, `zd`: the two end nodes' embeddings; `ef`: its features)
    and the weight and batch-norm blocks, each weight block indexed `(input, output)` as stored. -/
def scoreFn (zs zd : Fin 64 → EReal) (ef : Fin 32 → EReal)
    (w1 : Fin 32 → Fin 64 → EReal) (eb1 eg ebb em ev : Fin 64 → EReal) (w2 : Fin 64 → Fin 32 → EReal) (eb2 : Fin 32 → EReal)
    (wa wb : Fin 64 → Fin 128 → EReal) (wc : Fin 32 → Fin 128 → EReal) (pb1 pg1 pbb1 pm1 pv1 : Fin 128 → EReal)
    (w4 : Fin 128 → Fin 64 → EReal) (pb2 pg2 pbb2 pm2 pv2 : Fin 64 → EReal) (w5 : Fin 64 → EReal) (pb3 : EReal) : EReal :=
  (∑ r : Fin 64, bnRelu ((∑ k : Fin 128, bnRelu
        ((((∑ j : Fin 64, zs j * wa j k) + ∑ j : Fin 64, zd j * wb j k)
            + ∑ q : Fin 32, ((∑ r2 : Fin 64, bnRelu ((∑ k2 : Fin 32, ef k2 * w1 k2 r2) + eb1 r2) (eg r2) (ebb r2) (em r2) (ev r2) * w2 r2 q)
                + eb2 q) * wc q k) + pb1 k)
        (pg1 k) (pbb1 k) (pm1 k) (pv1 k) * w4 k r) + pb2 r) (pg2 r) (pbb2 r) (pm2 r) (pv2 r) * w5 r) + pb3

/-- What the body stores at entry `r` of its output block, from its 27 input blocks (in window order). -/
theorem out_apply (x0 x1 : Vec Ideal S8192x64 .bf16) (x2 : Vec Ideal S8192x32 .bf16) (x3 : Vec Ideal S32x64 .bf16)
    (x4 x5 x6 x7 x8 : Vec Ideal S1x64 .f32) (x9 : Vec Ideal S64x32 .bf16) (x10 : Vec Ideal S1x32 .f32)
    (x11 x12 : Vec Ideal S64x128 .bf16) (x13 : Vec Ideal S32x128 .bf16) (x14 x15 x16 x17 x18 : Vec Ideal S1x128 .f32)
    (x19 : Vec Ideal S128x64 .bf16) (x20 x21 x22 x23 x24 : Vec Ideal S1x64 .f32) (x25 : Vec Ideal S64x1 .bf16)
    (x26 : Vec Ideal S1x1 .f32) (r : Fin 8192) :
    k1_pay1 (F := Ideal) (k1_pay5 (k1_pay3 (k1_pay2 x2 x3 x4 x5 x8 x7 x6 x9 x10) x0 x1 x11 x12 x13 x14 x15 x18 x17) (k1_pay4 x16)
        x19 x20 x21 x24 x23 x22 x25) (k1_pay6 x26) (ix1 r)
      = scoreFn (fun j => x0 (ix2 r j)) (fun j => x1 (ix2 r j)) (fun k => x2 (ix2 r k))
          (fun k c => x3 (ix2 k c)) (fun c => x4 (ix2 (0 : Fin 1) c)) (fun c => x5 (ix2 (0 : Fin 1) c)) (fun c => x6 (ix2 (0 : Fin 1) c))
          (fun c => x7 (ix2 (0 : Fin 1) c)) (fun c => x8 (ix2 (0 : Fin 1) c)) (fun k c => x9 (ix2 k c)) (fun c => x10 (ix2 (0 : Fin 1) c))
          (fun k c => x11 (ix2 k c)) (fun k c => x12 (ix2 k c)) (fun k c => x13 (ix2 k c))
          (fun c => x14 (ix2 (0 : Fin 1) c)) (fun c => x15 (ix2 (0 : Fin 1) c)) (fun c => x16 (ix2 (0 : Fin 1) c))
          (fun c => x17 (ix2 (0 : Fin 1) c)) (fun c => x18 (ix2 (0 : Fin 1) c)) (fun k c => x19 (ix2 k c))
          (fun c => x20 (ix2 (0 : Fin 1) c)) (fun c => x21 (ix2 (0 : Fin 1) c)) (fun c => x22 (ix2 (0 : Fin 1) c))
          (fun c => x23 (ix2 (0 : Fin 1) c)) (fun c => x24 (ix2 (0 : Fin 1) c)) (fun k => x25 (ix2 k (0 : Fin 1)))
          (x26 (ix2 (0 : Fin 1) (0 : Fin 1))) := by
  rw [pay1_apply, pay5_apply, pay6_apply, pay4_apply]
  simp only [pay3_apply, pay2_apply]
  rfl

end Cert.KernelIdeal.ScoreValue

end
-- ==== Proof.KernelScoreHost.lean ====
/-
  The host operations around the scorer, read at an index.

  Before the second region the host gathers the rows of the node embedding at the candidate edges' two end-node words,
  takes the edge features and every weight to the narrow float format (the identity on the extended reals), transposes
  each weight (the first scorer weight in three column blocks), lays each bias and batch-norm vector out as one row, and
  appends 7616 zero rows to the three edge-wise arrays.  After the region it keeps the first 1000000 scores.  Each of
  these, at an index, reads one entry of its operand.
-/
import proofs.«156470_j39548058862205_2_alg».proof.Proof.Gen.KernelIdeal.Launch
import proofs.«156470_j39548058862205_2_alg».proof.Proof.LibGatherRows
import Idealize.ShloMosaic.Lib.KernelVsHost
import Idealize.ShloMosaic.Lib.Pipeline.Value

set_option maxRecDepth 16384

noncomputable section

namespace Cert.KernelIdeal.ScoreValue

open Cert.KernelIdeal Cert.KernelIdeal.Gen Idealize.ShloMosaic Idealize.ShloMosaic.TcCoe Idealize.ShloMosaic.ValueIdx
open Idealize.SL.Sem

/-- A valuation of the TensorCore's buffers at the extended reals. -/
abbrev Val := Valuation τ sig (Elt Ideal)

/-! ### Layout operations of literal rank, at an index -/

/-- A transposed matrix at `(k, c)` is the matrix at `(c, k)`. -/
theorem transpose2_apply {α : Type} {A B : Nat} (x : (⟨2, ![A, B]⟩ : Shape).Idx → α)
    (h : (⟨2, ![A, B]⟩ : Shape).Transposes [1, 0] ⟨2, ![B, A]⟩) (k : Fin B) (c : Fin A) :
    transpose ⟨2, ![B, A]⟩ [1, 0] x h (ix2 k c) = x (ix2 c k) :=
  transpose_apply [1, 0] x h (ix2 k c) (ix2 c k) (fun b => match b with
    | ⟨0, _⟩ => rfl
    | ⟨1, _⟩ => rfl)

/-- Columns `o … o + C' − 1` of a matrix, at `(k, j)`: the matrix at `(k, o + j)`. -/
theorem sliceCols_apply {α : Type} {R C C' : Nat} (o : Nat) (x : (⟨2, ![R, C]⟩ : Shape).Idx → α)
    (h : (⟨2, ![R, C]⟩ : Shape).Slices ![0, o] ⟨2, ![R, C']⟩) (ho : o + C' ≤ C) (k : Fin R) (j : Fin C') :
    extractStridedSlice ⟨2, ![R, C']⟩ ![0, o] x h (ix2 k j) = x (ix2 k (⟨o + j.val, by omega⟩ : Fin C)) :=
  extractStridedSlice_apply _ x h (ix2 k j) (ix2 k (⟨o + j.val, by omega⟩ : Fin C)) (fun a => match a with
    | ⟨0, _⟩ => by show k.val = 0 + k.val; omega
    | ⟨1, _⟩ => rfl)

/-- A vector laid out as one row, at `(0, c)`: its entry `c`. -/
theorem rowOf_apply {α : Type} {n : Nat} (x : (⟨1, ![n]⟩ : Shape).Idx → α)
    (h : (⟨1, ![n]⟩ : Shape).ShapeCasts ⟨2, ![1, n]⟩) (c : Fin n) :
    shapeCast ⟨2, ![1, n]⟩ x h (ix2 (0 : Fin 1) c) = x (ix1 c) :=
  shapeCast_apply x h (ix2 (0 : Fin 1) c) (ix1 c) (by
    rw [Shape.rowMajor_val_one, Shape.rowMajor_val_two]; show c.val = 0 * n + c.val; omega)

/-- Rows appended below a matrix leave its own rows: at `(i, j)` with `i` a row `p` of the matrix, the matrix at `(p, j)`. -/
theorem padRows_apply {α : Type} {R R' C : Nat} (hi : Nat) (x : (⟨2, ![R, C]⟩ : Shape).Idx → α) {u : Shape} (v : u.Idx → α)
    (h : (⟨2, ![R, C]⟩ : Shape).Pads ![0, 0] ![hi, 0] ![0, 0] ⟨2, ![R', C]⟩) (hu : 0 < u.numel)
    (i : Fin R') (p : Fin R) (hip : i.val = p.val) (j : Fin C) :
    pad ⟨2, ![R', C]⟩ ![0, 0] ![hi, 0] ![0, 0] x v h hu (ix2 i j) = x (ix2 p j) :=
  pad_apply_of_inside _ _ _ x v h hu (ix2 i j) (ix2 p j) (fun a => match a with
    | ⟨0, _⟩ => by show i.val = 0 + p.val * (0 + 1); omega
    | ⟨1, _⟩ => by show j.val = 0 + j.val * (0 + 1); omega)

/-- The first `n'` entries of a vector. -/
theorem sliceHead_apply {α : Type} {n n' : Nat} (x : (⟨1, ![n]⟩ : Shape).Idx → α)
    (h : (⟨1, ![n]⟩ : Shape).Slices ![0] ⟨1, ![n']⟩) (hn : n' ≤ n) (p : Fin n') :
    extractStridedSlice ⟨1, ![n']⟩ ![0] x h (ix1 p) = x (ix1 (⟨p.val, by omega⟩ : Fin n)) :=
  extractStridedSlice_apply _ x h (ix1 p) (ix1 (⟨p.val, by omega⟩ : Fin n)) (fun a => match a with
    | ⟨0, _⟩ => by show p.val = 0 + p.val; omega)

/-- The row gather of the node embedding at a column of 1000000 words, at `(e, k)`: the embedding at the row the word
    names when read signed and clamped into `[0, 100000)`, column `k`. -/
theorem gatherRows_apply {α : Type} (x : S100000x64.Idx → α) (idx : IVec S1000000x1 32) (e : Fin 1000000) (k : Fin 64) :
    Host.gather gather_S100000x64_S1000000x1_S1000000x64_1_0_n_n_0_1_164 x idx (ix2 e k)
      = x (ix2 (⟨min (idx (ix2 e (0 : Fin 1))).toInt.toNat (100000 - 1), by omega⟩ : Fin 100000) k) :=
  Cert.LibGatherRows.gather_rows_apply (N := 100000) (R := 1000000) (C := 64) (by decide)
    gather_S100000x64_S1000000x1_S1000000x64_1_0_n_n_0_1_164.wf x idx e k

/-! ### The stretch before the pads, buffer by buffer, from any contents `F`

Each buffer this stretch writes, read at an index after the whole stretch, as one entry of a buffer the stretch does
not write (an argument) — or, for the two gathers, of the node embedding and the end-node words after the stretch. -/

set_option maxHeartbeats 4000000 in
/-- The source-end rows: row `e` is the embedding's row at the first end-node word of edge `e`. -/
theorem h1_v76_apply (F : Val) (e : Fin 1000000) (k : Fin 64) :
    (StableHlo.after hostOps1 F (Proc.devRef .tc main_v76) : S1000000x64.Idx → EReal) (ix2 e k)
      = (StableHlo.after hostOps1 F (Proc.devRef .tc main_v65) : S100000x64.Idx → EReal)
          (ix2 (⟨min ((StableHlo.after hostOps1 F (Proc.devRef .tc main_v75) : IVec S1000000x1 32) (ix2 e (0 : Fin 1))).toInt.toNat (100000 - 1), by omega⟩ : Fin 100000) k) := by
  after_results_simp
  exact gatherRows_apply _ _ e k

set_option maxHeartbeats 4000000 in
/-- The destination-end rows likewise, at the second end-node word. -/
theorem h1_v83_apply (F : Val) (e : Fin 1000000) (k : Fin 64) :
    (StableHlo.after hostOps1 F (Proc.devRef .tc main_v83) : S1000000x64.Idx → EReal) (ix2 e k)
      = (StableHlo.after hostOps1 F (Proc.devRef .tc main_v65) : S100000x64.Idx → EReal)
          (ix2 (⟨min ((StableHlo.after hostOps1 F (Proc.devRef .tc main_v82) : IVec S1000000x1 32) (ix2 e (0 : Fin 1))).toInt.toNat (100000 - 1), by omega⟩ : Fin 100000) k) := by
  after_results_simp
  exact gatherRows_apply _ _ e k

set_option maxHeartbeats 4000000 in
/-- The edge features in the narrow format are the edge features. -/
theorem h1_v84_apply (F : Val) (i : S1000000x32.Idx) :
    (StableHlo.after hostOps1 F (Proc.devRef .tc main_v84) : S1000000x32.Idx → EReal) i
      = (F (Proc.devRef .tc main_arg3) : S1000000x32.Idx → EReal) i := by
  after_results_simp
  rfl

set_option maxHeartbeats 4000000 in
/-- A weight, stored transposed. -/
theorem h1_v86_apply (F : Val) (k : Fin 32) (c : Fin 64) :
    (StableHlo.after hostOps1 F (Proc.devRef .tc main_v86) : S32x64.Idx → EReal) (ix2 k c)
      = (F (Proc.devRef .tc main_arg14) : S64x32.Idx → EReal) (ix2 c k) := by
  after_results_simp
  exact transpose2_apply _ _ k c

set_option maxHeartbeats 4000000 in
/-- A weight, stored transposed. -/
theorem h1_v88_apply (F : Val) (k : Fin 64) (c : Fin 32) :
    (StableHlo.after hostOps1 F (Proc.devRef .tc main_v88) : S64x32.Idx → EReal) (ix2 k c)
      = (F (Proc.devRef .tc main_arg20) : S32x64.Idx → EReal) (ix2 c k) := by
  after_results_simp
  exact transpose2_apply _ _ k c

set_option maxHeartbeats 4000000 in
/-- A weight, stored transposed. -/
theorem h1_v99_apply (F : Val) (k : Fin 128) (c : Fin 64) :
    (StableHlo.after hostOps1 F (Proc.devRef .tc main_v99) : S128x64.Idx → EReal) (ix2 k c)
      = (F (Proc.devRef .tc main_arg28) : S64x128.Idx → EReal) (ix2 c k) := by
  after_results_simp
  exact transpose2_apply _ _ k c

set_option maxHeartbeats 4000000 in
/-- A weight, stored transposed. -/
theorem h1_v101_apply (F : Val) (k : Fin 64) (c : Fin 1) :
    (StableHlo.after hostOps1 F (Proc.devRef .tc main_v101) : S64x1.Idx → EReal) (ix2 k c)
      = (F (Proc.devRef .tc main_arg34) : S1x64.Idx → EReal) (ix2 c k) := by
  after_results_simp
  exact transpose2_apply _ _ k c

set_option maxHeartbeats 4000000 in
/-- Columns `0 … 63` of the first scorer weight, stored transposed. -/
theorem h1_v91_apply (F : Val) (j : Fin 64) (k : Fin 128) :
    (StableHlo.after hostOps1 F (Proc.devRef .tc main_v91) : S64x128.Idx → EReal) (ix2 j k)
      = (F (Proc.devRef .tc main_arg22) : S128x160.Idx → EReal) (ix2 k (⟨j.val, by omega⟩ : Fin 160)) := by
  after_results_simp
  refine (transpose2_apply _ _ j k).trans ?_
  refine (sliceCols_apply (R := 128) (C := 160) (C' := 64) 0 (F (Proc.devRef .tc main_arg22) : S128x160.Idx → EReal) slices_S128x160_S128x64_0_0 (by decide) k j).trans ?_
  exact congrArg (fun q : Fin 160 => (F (Proc.devRef .tc main_arg22) : S128x160.Idx → EReal) (ix2 k q)) (Fin.ext (by show 0 + j.val = j.val; omega))

set_option maxHeartbeats 4000000 in
/-- Columns `64 … 127` of the first scorer weight, stored transposed. -/
theorem h1_v94_apply (F : Val) (j : Fin 64) (k : Fin 128) :
    (StableHlo.after hostOps1 F (Proc.devRef .tc main_v94) : S64x128.Idx → EReal) (ix2 j k)
      = (F (Proc.devRef .tc main_arg22) : S128x160.Idx → EReal) (ix2 k (⟨64 + j.val, by omega⟩ : Fin 160)) := by
  after_results_simp
  refine (transpose2_apply _ _ j k).trans ?_
  refine (sliceCols_apply (R := 128) (C := 160) (C' := 64) 64 (F (Proc.devRef .tc main_arg22) : S128x160.Idx → EReal) slices_S128x160_S128x64_0_64 (by decide) k j).trans ?_
  exact congrArg (fun q : Fin 160 => (F (Proc.devRef .tc main_arg22) : S128x160.Idx → EReal) (ix2 k q)) (Fin.ext (by show 64 + j.val = 64 + j.val; omega))

set_option maxHeartbeats 4000000 in
/-- Columns `128 … 159` of the first scorer weight, stored transposed. -/
theorem h1_v97_apply (F : Val) (j : Fin 32) (k : Fin 128) :
    (StableHlo.after hostOps1 F (Proc.devRef .tc main_v97) : S32x128.Idx → EReal) (ix2 j k)
      = (F (Proc.devRef .tc main_arg22) : S128x160.Idx → EReal) (ix2 k (⟨128 + j.val, by omega⟩ : Fin 160)) := by
  after_results_simp
  refine (transpose2_apply _ _ j k).trans ?_
  refine (sliceCols_apply (R := 128) (C := 160) (C' := 32) 128 (F (Proc.devRef .tc main_arg22) : S128x160.Idx → EReal) slices_S128x160_S128x32_0_128 (by decide) k j).trans ?_
  exact congrArg (fun q : Fin 160 => (F (Proc.devRef .tc main_arg22) : S128x160.Idx → EReal) (ix2 k q)) (Fin.ext (by show 128 + j.val = 128 + j.val; omega))

set_option maxHeartbeats 4000000 in
theorem h1_v102_apply (F : Val) (c : Fin 64) :
    (StableHlo.after hostOps1 F (Proc.devRef .tc main_v102) : S1x64.Idx → EReal) (ix2 (0 : Fin 1) c)
      = (F (Proc.devRef .tc main_arg15) : S64.Idx → EReal) (ix1 c) := by
  after_results_simp
  exact rowOf_apply _ _ c

set_option maxHeartbeats 4000000 in
theorem h1_v103_apply (F : Val) (c : Fin 64) :
    (StableHlo.after hostOps1 F (Proc.devRef .tc main_v103) : S1x64.Idx → EReal) (ix2 (0 : Fin 1) c)
      = (F (Proc.devRef .tc main_arg16) : S64.Idx → EReal) (ix1 c) := by
  after_results_simp
  exact rowOf_apply _ _ c

set_option maxHeartbeats 4000000 in
theorem h1_v104_apply (F : Val) (c : Fin 64) :
    (StableHlo.after hostOps1 F (Proc.devRef .tc main_v104) : S1x64.Idx → EReal) (ix2 (0 : Fin 1) c)
      = (F (Proc.devRef .tc main_arg17) : S64.Idx → EReal) (ix1 c) := by
  after_results_simp
  exact rowOf_apply _ _ c

set_option maxHeartbeats 4000000 in
theorem h1_v105_apply (F : Val) (c : Fin 64) :
    (StableHlo.after hostOps1 F (Proc.devRef .tc main_v105) : S1x64.Idx → EReal) (ix2 (0 : Fin 1) c)
      = (F (Proc.devRef .tc main_arg18) : S64.Idx → EReal) (ix1 c) := by
  after_results_simp
  exact rowOf_apply _ _ c

set_option maxHeartbeats 4000000 in
theorem h1_v106_apply (F : Val) (c : Fin 64) :
    (StableHlo.after hostOps1 F (Proc.devRef .tc main_v106) : S1x64.Idx → EReal) (ix2 (0 : Fin 1) c)
      = (F (Proc.devRef .tc main_arg19) : S64.Idx → EReal) (ix1 c) := by
  after_results_simp
  exact rowOf_apply _ _ c

set_option maxHeartbeats 4000000 in
theorem h1_v107_apply (F : Val) (c : Fin 32) :
    (StableHlo.after hostOps1 F (Proc.devRef .tc main_v107) : S1x32.Idx → EReal) (ix2 (0 : Fin 1) c)
      = (F (Proc.devRef .tc main_arg21) : S32.Idx → EReal) (ix1 c) := by
  after_results_simp
  exact rowOf_apply _ _ c

set_option maxHeartbeats 4000000 in
theorem h1_v108_apply (F : Val) (c : Fin 128) :
    (StableHlo.after hostOps1 F (Proc.devRef .tc main_v108) : S1x128.Idx → EReal) (ix2 (0 : Fin 1) c)
      = (F (Proc.devRef .tc main_arg23) : S128.Idx → EReal) (ix1 c) := by
  after_results_simp
  exact rowOf_apply _ _ c

set_option maxHeartbeats 4000000 in
theorem h1_v109_apply (F : Val) (c : Fin 128) :
    (StableHlo.after hostOps1 F (Proc.devRef .tc main_v109) : S1x128.Idx → EReal) (ix2 (0 : Fin 1) c)
      = (F (Proc.devRef .tc main_arg24) : S128.Idx → EReal) (ix1 c) := by
  after_results_simp
  exact rowOf_apply _ _ c

set_option maxHeartbeats 4000000 in
theorem h1_v110_apply (F : Val) (c : Fin 128) :
    (StableHlo.after hostOps1 F (Proc.devRef .tc main_v110) : S1x128.Idx → EReal) (ix2 (0 : Fin 1) c)
      = (F (Proc.devRef .tc main_arg25) : S128.Idx → EReal) (ix1 c) := by
  after_results_simp
  exact rowOf_apply _ _ c

set_option maxHeartbeats 4000000 in
theorem h1_v111_apply (F : Val) (c : Fin 128) :
    (StableHlo.after hostOps1 F (Proc.devRef .tc main_v111) : S1x128.Idx → EReal) (ix2 (0 : Fin 1) c)
      = (F (Proc.devRef .tc main_arg26) : S128.Idx → EReal) (ix1 c) := by
  after_results_simp
  exact rowOf_apply _ _ c

set_option maxHeartbeats 4000000 in
theorem h1_v112_apply (F : Val) (c : Fin 128) :
    (StableHlo.after hostOps1 F (Proc.devRef .tc main_v112) : S1x128.Idx → EReal) (ix2 (0 : Fin 1) c)
      = (F (Proc.devRef .tc main_arg27) : S128.Idx → EReal) (ix1 c) := by
  after_results_simp
  exact rowOf_apply _ _ c

set_option maxHeartbeats 4000000 in
theorem h1_v113_apply (F : Val) (c : Fin 64) :
    (StableHlo.after hostOps1 F (Proc.devRef .tc main_v113) : S1x64.Idx → EReal) (ix2 (0 : Fin 1) c)
      = (F (Proc.devRef .tc main_arg29) : S64.Idx → EReal) (ix1 c) := by
  after_results_simp
  exact rowOf_apply _ _ c

set_option maxHeartbeats 4000000 in
theorem h1_v114_apply (F : Val) (c : Fin 64) :
    (StableHlo.after hostOps1 F (Proc.devRef .tc main_v114) : S1x64.Idx → EReal) (ix2 (0 : Fin 1) c)
      = (F (Proc.devRef .tc main_arg30) : S64.Idx → EReal) (ix1 c) := by
  after_results_simp
  exact rowOf_apply _ _ c

set_option maxHeartbeats 4000000 in
theorem h1_v115_apply (F : Val) (c : Fin 64) :
    (StableHlo.after hostOps1 F (Proc.devRef .tc main_v115) : S1x64.Idx → EReal) (ix2 (0 : Fin 1) c)
      = (F (Proc.devRef .tc main_arg31) : S64.Idx → EReal) (ix1 c) := by
  after_results_simp
  exact rowOf_apply _ _ c

set_option maxHeartbeats 4000000 in
theorem h1_v116_apply (F : Val) (c : Fin 64) :
    (StableHlo.after hostOps1 F (Proc.devRef .tc main_v116) : S1x64.Idx → EReal) (ix2 (0 : Fin 1) c)
      = (F (Proc.devRef .tc main_arg32) : S64.Idx → EReal) (ix1 c) := by
  after_results_simp
  exact rowOf_apply _ _ c

set_option maxHeartbeats 4000000 in
theorem h1_v117_apply (F : Val) (c : Fin 64) :
    (StableHlo.after hostOps1 F (Proc.devRef .tc main_v117) : S1x64.Idx → EReal) (ix2 (0 : Fin 1) c)
      = (F (Proc.devRef .tc main_arg33) : S64.Idx → EReal) (ix1 c) := by
  after_results_simp
  exact rowOf_apply _ _ c

set_option maxHeartbeats 4000000 in
theorem h1_v118_apply (F : Val) (c : Fin 1) :
    (StableHlo.after hostOps1 F (Proc.devRef .tc main_v118) : S1x1.Idx → EReal) (ix2 (0 : Fin 1) c)
      = (F (Proc.devRef .tc main_arg35) : S1.Idx → EReal) (ix1 c) := by
  after_results_simp
  exact rowOf_apply _ _ c

/-! ### The pads and the final slice -/

/-- The padded source-end rows, at a row of the unpadded array. -/
theorem h11_v119_apply (F : Val) (i : Fin 1007616) (p : Fin 1000000) (hip : i.val = p.val) (j : Fin 64) :
    (StableHlo.after hostOps1_1 F (Proc.devRef .tc main_v119) : S1007616x64.Idx → EReal) (ix2 i j)
      = (F (Proc.devRef .tc main_v76) : S1000000x64.Idx → EReal) (ix2 p j) := by
  after_results
  exact padRows_apply (R := 1000000) (R' := 1007616) (C := 64) 7616 (F (Proc.devRef .tc main_v76) : S1000000x64.Idx → EReal) _ pads_S1000000x64_S1007616x64_076160_000 h_S_ i p hip j

/-- The padded destination-end rows likewise. -/
theorem h13_v120_apply (F : Val) (i : Fin 1007616) (p : Fin 1000000) (hip : i.val = p.val) (j : Fin 64) :
    (StableHlo.after hostOps1_3 F (Proc.devRef .tc main_v120) : S1007616x64.Idx → EReal) (ix2 i j)
      = (F (Proc.devRef .tc main_v83) : S1000000x64.Idx → EReal) (ix2 p j) := by
  after_results
  exact padRows_apply (R := 1000000) (R' := 1007616) (C := 64) 7616 (F (Proc.devRef .tc main_v83) : S1000000x64.Idx → EReal) _ pads_S1000000x64_S1007616x64_076160_000 h_S_ i p hip j

/-- The padded edge features likewise. -/
theorem h15_v121_apply (F : Val) (i : Fin 1007616) (p : Fin 1000000) (hip : i.val = p.val) (j : Fin 32) :
    (StableHlo.after hostOps1_5 F (Proc.devRef .tc main_v121) : S1007616x32.Idx → EReal) (ix2 i j)
      = (F (Proc.devRef .tc main_v84) : S1000000x32.Idx → EReal) (ix2 p j) := by
  after_results
  exact padRows_apply (R := 1000000) (R' := 1007616) (C := 32) 7616 (F (Proc.devRef .tc main_v84) : S1000000x32.Idx → EReal) _ pads_S1000000x32_S1007616x32_076160_000 h_S_ i p hip j

/-- The scores kept: entry `p` of the result is entry `p` of the padded score vector. -/
theorem h2_v123_apply (F : Val) (p : Fin 1000000) :
    (StableHlo.after hostOps2 F (Proc.devRef .tc main_v123) : S1000000.Idx → EReal) (ix1 p)
      = (F (Proc.devRef .tc main_v122) : S1007616.Idx → EReal) (ix1 (⟨p.val, by omega⟩ : Fin 1007616)) := by
  after_results
  exact sliceHead_apply (n := 1007616) (n' := 1000000) (F (Proc.devRef .tc main_v122) : S1007616.Idx → EReal) slices_S1007616_S1000000_0 (by decide) p

/-! ### Buffers a stretch does not write -/

/-- The buffers the first stretch (before the first region) writes. -/
def wr0 : List (Ref sig .tc) := [main_v0, main_v1, main_v2, main_v3, main_v4, main_c, main_v5, main_v6, main_c_0, main_v7, main_v8, main_v9, main_v10, main_v11, main_v12, main_cst, main_v13, main_v14, main_v15, main_cst_1, main_v16, main_cst_2, main_v17, main_v18, main_v19, main_cst_3, main_v20, main_v21, main_v22, main_v23, main_v24, main_v25, main_v26, main_v27, main_v28, main_v29, main_v30, main_v31, main_v32, main_v33, main_v34, main_v35, main_v36, main_v37, main_v38]

theorem hostOps0_writes : (hostOps0 : List (HloOp τ sig (Elt Ideal))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer the first stretch does not write keeps its contents. -/
theorem h0_keep (F : Val) (b : Ref sig .tc) (hb : b ∉ wr0) :
    StableHlo.after hostOps0 F (Proc.devRef .tc b) = F (Proc.devRef .tc b) :=
  StableHlo.after_of_writes_sub hostOps0 F hostOps0_writes hb

end Cert.KernelIdeal.ScoreValue

end
-- ==== Proof.KernelScore.lean ====
/-
  The scorer region's result, entry by entry.

  Block `t` of the second region holds candidate edges `8192·t … 8192·t + 8191`; each weight and batch-norm window is
  one block, the whole array, at every point.  So what point `t` writes back is, at entry `r`, the scorer's arithmetic
  at rows `8192·t + r` of the three padded edge-wise arrays; the 123 blocks tile the padded score vector; a padded
  edge-wise array at a row below 1000000 is the unpadded one; the unpadded ones are the gathered end-node rows of the
  node embedding and the edge features; the weights are the arguments transposed; and the result keeps the first
  1000000 entries.  Together: entry `p` of the result is the specification's score of candidate edge `p`.
-/
import proofs.«156470_j39548058862205_2_alg».proof.Proof.FramePatchKernelIdeal
import proofs.«156470_j39548058862205_2_alg».proof.Proof.KernelInputs
import proofs.«156470_j39548058862205_2_alg».proof.Proof.KernelScorePay
import proofs.«156470_j39548058862205_2_alg».proof.Proof.KernelScoreHost
import Idealize.ShloMosaic.Lib.Pipeline.Value

set_option maxRecDepth 16384

open scoped BigOperators

noncomputable section

namespace Cert.KernelIdeal.ScoreValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

theorem hz1 : (![0] : Fin 1 → Nat) = fun _ => 0 := funext fun a => by fin_cases a; rfl
theorem hz2 : (![0, 0] : Fin 2 → Nat) = fun _ => 0 := funext fun a => by fin_cases a <;> rfl

/-! ### The windows' index maps over the 123 points -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = 0 ∧ win1_14.index t (1 : Fin 2) = 0 :=
  (by decide +kernel : ∀ t : Fin grid1.N, _)
theorem idx1_15 : ∀ t : Fin cfg1.N, win1_15.index t (0 : Fin 2) = 0 ∧ win1_15.index t (1 : Fin 2) = 0 :=
  (by decide +kernel : ∀ t : Fin grid1.N, _)
theorem idx1_16 : ∀ t : Fin cfg1.N, win1_16.index t (0 : Fin 2) = 0 ∧ win1_16.index t (1 : Fin 2) = 0 :=
  (by decide +kernel : ∀ t : Fin grid1.N, _)
theorem idx1_17 : ∀ t : Fin cfg1.N, win1_17.index t (0 : Fin 2) = 0 ∧ win1_17.index t (1 : Fin 2) = 0 :=
  (by decide +kernel : ∀ t : Fin grid1.N, _)
theorem idx1_18 : ∀ t : Fin cfg1.N, win1_18.index t (0 : Fin 2) = 0 ∧ win1_18.index t (1 : Fin 2) = 0 :=
  (by decide +kernel : ∀ t : Fin grid1.N, _)
theorem idx1_19 : ∀ t : Fin cfg1.N, win1_19.index t (0 : Fin 2) = 0 ∧ win1_19.index t (1 : Fin 2) = 0 :=
  (by decide +kernel : ∀ t : Fin grid1.N, _)
theorem idx1_20 : ∀ t : Fin cfg1.N, win1_20.index t (0 : Fin 2) = 0 ∧ win1_20.index t (1 : Fin 2) = 0 :=
  (by decide +kernel : ∀ t : Fin grid1.N, _)
theorem idx1_21 : ∀ t : Fin cfg1.N, win1_21.index t (0 : Fin 2) = 0 ∧ win1_21.index t (1 : Fin 2) = 0 :=
  (by decide +kernel : ∀ t : Fin grid1.N, _)
theorem idx1_22 : ∀ t : Fin cfg1.N, win1_22.index t (0 : Fin 2) = 0 ∧ win1_22.index t (1 : Fin 2) = 0 :=
  (by decide +kernel : ∀ t : Fin grid1.N, _)
theorem idx1_23 : ∀ t : Fin cfg1.N, win1_23.index t (0 : Fin 2) = 0 ∧ win1_23.index t (1 : Fin 2) = 0 :=
  (by decide +kernel : ∀ t : Fin grid1.N, _)
theorem idx1_24 : ∀ t : Fin cfg1.N, win1_24.index t (0 : Fin 2) = 0 ∧ win1_24.index t (1 : Fin 2) = 0 :=
  (by decide +kernel : ∀ t : Fin grid1.N, _)
theorem idx1_25 : ∀ t : Fin cfg1.N, win1_25.index t (0 : Fin 2) = 0 ∧ win1_25.index t (1 : Fin 2) = 0 :=
  (by decide +kernel : ∀ t : Fin grid1.N, _)
theorem idx1_26 : ∀ t : Fin cfg1.N, win1_26.index t (0 : Fin 2) = 0 ∧ win1_26.index t (1 : Fin 2) = 0 :=
  (by decide +kernel : ∀ t : Fin grid1.N, _)
theorem idx1_27 : ∀ t : Fin cfg1.N, win1_27.index t (0 : Fin 1) = t.val :=
  (by decide +kernel : ∀ t : Fin grid1.N, _)

/-- Row `r` of block `t`, as a row of a padded array. -/
def rowAt (t : Fin cfg1.N) (r : Fin 8192) : Fin 1007616 :=
  ⟨8192 * t.val + r.val, by have := t.isLt; have h : cfg1.N = 123 := N_1; omega⟩

section Blocks

variable (V : (c : Dev nD) → (b : Ref sig .tc) → Buf (Elt Ideal) ((c : Thread nD τ).loc b)) (c : Dev nD)

/-! ### Each input window's block at a point, as entries of its array -/

theorem blk0_apply (t : Fin cfg1.N) (r : Fin 8192) (j : Fin 64) :
    (iblk1 V c 0 t : Vec Ideal S8192x64 .bf16) (ix2 r j) = (V c main_v119 : S1007616x64.Idx → EReal) (ix2 (rowAt t r) j) := by
  unfold iblk1
  rw [View.read_apply]
  show V c main_v119 _ = V c main_v119 _
  congr 1
  funext a
  apply Fin.ext
  match a with
  | ⟨0, _⟩ => show win1_0.index t 0 * 8192 + 1 * r.val = 8192 * t.val + r.val; rw [(idx1_0 t).1]; omega
  | ⟨1, _⟩ => show win1_0.index t 1 * 64 + 1 * j.val = j.val; rw [(idx1_0 t).2]; omega

theorem blk1_apply (t : Fin cfg1.N) (r : Fin 8192) (j : Fin 64) :
    (iblk1 V c 1 t : Vec Ideal S8192x64 .bf16) (ix2 r j) = (V c main_v120 : S1007616x64.Idx → EReal) (ix2 (rowAt t r) j) := by
  unfold iblk1
  rw [View.read_apply]
  show V c main_v120 _ = V c main_v120 _
  congr 1
  funext a
  apply Fin.ext
  match a with
  | ⟨0, _⟩ => show win1_1.index t 0 * 8192 + 1 * r.val = 8192 * t.val + r.val; rw [(idx1_1 t).1]; omega
  | ⟨1, _⟩ => show win1_1.index t 1 * 64 + 1 * j.val = j.val; rw [(idx1_1 t).2]; omega

theorem blk2_apply (t : Fin cfg1.N) (r : Fin 8192) (j : Fin 32) :
    (iblk1 V c 2 t : Vec Ideal S8192x32 .bf16) (ix2 r j) = (V c main_v121 : S1007616x32.Idx → EReal) (ix2 (rowAt t r) j) := by
  unfold iblk1
  rw [View.read_apply]
  show V c main_v121 _ = V c main_v121 _
  congr 1
  funext a
  apply Fin.ext
  match a with
  | ⟨0, _⟩ => show win1_2.index t 0 * 8192 + 1 * r.val = 8192 * t.val + r.val; rw [(idx1_2 t).1]; omega
  | ⟨1, _⟩ => show win1_2.index t 1 * 32 + 1 * j.val = j.val; rw [(idx1_2 t).2]; omega

theorem blk3_apply (t : Fin cfg1.N) (k : Fin 32) (j : Fin 64) :
    (iblk1 V c 3 t : Vec Ideal S32x64 .bf16) (ix2 k j) = (V c main_v86 : S32x64.Idx → EReal) (ix2 k j) := by
  unfold iblk1
  rw [View.read_apply]
  show V c main_v86 _ = V c main_v86 _
  congr 1
  funext a
  apply Fin.ext
  match a with
  | ⟨0, _⟩ => show win1_3.index t 0 * 32 + 1 * k.val = k.val; rw [(idx1_3 t).1]; omega
  | ⟨1, _⟩ => show win1_3.index t 1 * 64 + 1 * j.val = j.val; rw [(idx1_3 t).2]; omega

theorem blk4_apply (t : Fin cfg1.N) (k : Fin 1) (j : Fin 64) :
    (iblk1 V c 4 t : Vec Ideal S1x64 .f32) (ix2 k j) = (V c main_v102 : S1x64.Idx → EReal) (ix2 k j) := by
  unfold iblk1
  rw [View.read_apply]
  show V c main_v102 _ = V c main_v102 _
  congr 1
  funext a
  apply Fin.ext
  match a with
  | ⟨0, _⟩ => show win1_4.index t 0 * 1 + 1 * k.val = k.val; rw [(idx1_4 t).1]; omega
  | ⟨1, _⟩ => show win1_4.index t 1 * 64 + 1 * j.val = j.val; rw [(idx1_4 t).2]; omega

theorem blk5_apply (t : Fin cfg1.N) (k : Fin 1) (j : Fin 64) :
    (iblk1 V c 5 t : Vec Ideal S1x64 .f32) (ix2 k j) = (V c main_v103 : S1x64.Idx → EReal) (ix2 k j) := by
  unfold iblk1
  rw [View.read_apply]
  show V c main_v103 _ = V c main_v103 _
  congr 1
  funext a
  apply Fin.ext
  match a with
  | ⟨0, _⟩ => show win1_5.index t 0 * 1 + 1 * k.val = k.val; rw [(idx1_5 t).1]; omega
  | ⟨1, _⟩ => show win1_5.index t 1 * 64 + 1 * j.val = j.val; rw [(idx1_5 t).2]; omega

theorem blk6_apply (t : Fin cfg1.N) (k : Fin 1) (j : Fin 64) :
    (iblk1 V c 6 t : Vec Ideal S1x64 .f32) (ix2 k j) = (V c main_v104 : S1x64.Idx → EReal) (ix2 k j) := by
  unfold iblk1
  rw [View.read_apply]
  show V c main_v104 _ = V c main_v104 _
  congr 1
  funext a
  apply Fin.ext
  match a with
  | ⟨0, _⟩ => show win1_6.index t 0 * 1 + 1 * k.val = k.val; rw [(idx1_6 t).1]; omega
  | ⟨1, _⟩ => show win1_6.index t 1 * 64 + 1 * j.val = j.val; rw [(idx1_6 t).2]; omega

theorem blk7_apply (t : Fin cfg1.N) (k : Fin 1) (j : Fin 64) :
    (iblk1 V c 7 t : Vec Ideal S1x64 .f32) (ix2 k j) = (V c main_v105 : S1x64.Idx → EReal) (ix2 k j) := by
  unfold iblk1
  rw [View.read_apply]
  show V c main_v105 _ = V c main_v105 _
  congr 1
  funext a
  apply Fin.ext
  match a with
  | ⟨0, _⟩ => show win1_7.index t 0 * 1 + 1 * k.val = k.val; rw [(idx1_7 t).1]; omega
  | ⟨1, _⟩ => show win1_7.index t 1 * 64 + 1 * j.val = j.val; rw [(idx1_7 t).2]; omega

theorem blk8_apply (t : Fin cfg1.N) (k : Fin 1) (j : Fin 64) :
    (iblk1 V c 8 t : Vec Ideal S1x64 .f32) (ix2 k j) = (V c main_v106 : S1x64.Idx → EReal) (ix2 k j) := by
  unfold iblk1
  rw [View.read_apply]
  show V c main_v106 _ = V c main_v106 _
  congr 1
  funext a
  apply Fin.ext
  match a with
  | ⟨0, _⟩ => show win1_8.index t 0 * 1 + 1 * k.val = k.val; rw [(idx1_8 t).1]; omega
  | ⟨1, _⟩ => show win1_8.index t 1 * 64 + 1 * j.val = j.val; rw [(idx1_8 t).2]; omega

theorem blk9_apply (t : Fin cfg1.N) (k : Fin 64) (j : Fin 32) :
    (iblk1 V c 9 t : Vec Ideal S64x32 .bf16) (ix2 k j) = (V c main_v88 : S64x32.Idx → EReal) (ix2 k j) := by
  unfold iblk1
  rw [View.read_apply]
  show V c main_v88 _ = V c main_v88 _
  congr 1
  funext a
  apply Fin.ext
  match a with
  | ⟨0, _⟩ => show win1_9.index t 0 * 64 + 1 * k.val = k.val; rw [(idx1_9 t).1]; omega
  | ⟨1, _⟩ => show win1_9.index t 1 * 32 + 1 * j.val = j.val; rw [(idx1_9 t).2]; omega

theorem blk10_apply (t : Fin cfg1.N) (k : Fin 1) (j : Fin 32) :
    (iblk1 V c 10 t : Vec Ideal S1x32 .f32) (ix2 k j) = (V c main_v107 : S1x32.Idx → EReal) (ix2 k j) := by
  unfold iblk1
  rw [View.read_apply]
  show V c main_v107 _ = V c main_v107 _
  congr 1
  funext a
  apply Fin.ext
  match a with
  | ⟨0, _⟩ => show win1_10.index t 0 * 1 + 1 * k.val = k.val; rw [(idx1_10 t).1]; omega
  | ⟨1, _⟩ => show win1_10.index t 1 * 32 + 1 * j.val = j.val; rw [(idx1_10 t).2]; omega

theorem blk11_apply (t : Fin cfg1.N) (k : Fin 64) (j : Fin 128) :
    (iblk1 V c 11 t : Vec Ideal S64x128 .bf16) (ix2 k j) = (V c main_v91 : S64x128.Idx → EReal) (ix2 k j) := by
  unfold iblk1
  rw [View.read_apply]
  show V c main_v91 _ = V c main_v91 _
  congr 1
  funext a
  apply Fin.ext
  match a with
  | ⟨0, _⟩ => show win1_11.index t 0 * 64 + 1 * k.val = k.val; rw [(idx1_11 t).1]; omega
  | ⟨1, _⟩ => show win1_11.index t 1 * 128 + 1 * j.val = j.val; rw [(idx1_11 t).2]; omega

theorem blk12_apply (t : Fin cfg1.N) (k : Fin 64) (j : Fin 128) :
    (iblk1 V c 12 t : Vec Ideal S64x128 .bf16) (ix2 k j) = (V c main_v94 : S64x128.Idx → EReal) (ix2 k j) := by
  unfold iblk1
  rw [View.read_apply]
  show V c main_v94 _ = V c main_v94 _
  congr 1
  funext a
  apply Fin.ext
  match a with
  | ⟨0, _⟩ => show win1_12.index t 0 * 64 + 1 * k.val = k.val; rw [(idx1_12 t).1]; omega
  | ⟨1, _⟩ => show win1_12.index t 1 * 128 + 1 * j.val = j.val; rw [(idx1_12 t).2]; omega

theorem blk13_apply (t : Fin cfg1.N) (k : Fin 32) (j : Fin 128) :
    (iblk1 V c 13 t : Vec Ideal S32x128 .bf16) (ix2 k j) = (V c main_v97 : S32x128.Idx → EReal) (ix2 k j) := by
  unfold iblk1
  rw [View.read_apply]
  show V c main_v97 _ = V c main_v97 _
  congr 1
  funext a
  apply Fin.ext
  match a with
  | ⟨0, _⟩ => show win1_13.index t 0 * 32 + 1 * k.val = k.val; rw [(idx1_13 t).1]; omega
  | ⟨1, _⟩ => show win1_13.index t 1 * 128 + 1 * j.val = j.val; rw [(idx1_13 t).2]; omega

theorem blk14_apply (t : Fin cfg1.N) (k : Fin 1) (j : Fin 128) :
    (iblk1 V c 14 t : Vec Ideal S1x128 .f32) (ix2 k j) = (V c main_v108 : S1x128.Idx → EReal) (ix2 k j) := by
  unfold iblk1
  rw [View.read_apply]
  show V c main_v108 _ = V c main_v108 _
  congr 1
  funext a
  apply Fin.ext
  match a with
  | ⟨0, _⟩ => show win1_14.index t 0 * 1 + 1 * k.val = k.val; rw [(idx1_14 t).1]; omega
  | ⟨1, _⟩ => show win1_14.index t 1 * 128 + 1 * j.val = j.val; rw [(idx1_14 t).2]; omega

theorem blk15_apply (t : Fin cfg1.N) (k : Fin 1) (j : Fin 128) :
    (iblk1 V c 15 t : Vec Ideal S1x128 .f32) (ix2 k j) = (V c main_v109 : S1x128.Idx → EReal) (ix2 k j) := by
  unfold iblk1
  rw [View.read_apply]
  show V c main_v109 _ = V c main_v109 _
  congr 1
  funext a
  apply Fin.ext
  match a with
  | ⟨0, _⟩ => show win1_15.index t 0 * 1 + 1 * k.val = k.val; rw [(idx1_15 t).1]; omega
  | ⟨1, _⟩ => show win1_15.index t 1 * 128 + 1 * j.val = j.val; rw [(idx1_15 t).2]; omega

theorem blk16_apply (t : Fin cfg1.N) (k : Fin 1) (j : Fin 128) :
    (iblk1 V c 16 t : Vec Ideal S1x128 .f32) (ix2 k j) = (V c main_v110 : S1x128.Idx → EReal) (ix2 k j) := by
  unfold iblk1
  rw [View.read_apply]
  show V c main_v110 _ = V c main_v110 _
  congr 1
  funext a
  apply Fin.ext
  match a with
  | ⟨0, _⟩ => show win1_16.index t 0 * 1 + 1 * k.val = k.val; rw [(idx1_16 t).1]; omega
  | ⟨1, _⟩ => show win1_16.index t 1 * 128 + 1 * j.val = j.val; rw [(idx1_16 t).2]; omega

theorem blk17_apply (t : Fin cfg1.N) (k : Fin 1) (j : Fin 128) :
    (iblk1 V c 17 t : Vec Ideal S1x128 .f32) (ix2 k j) = (V c main_v111 : S1x128.Idx → EReal) (ix2 k j) := by
  unfold iblk1
  rw [View.read_apply]
  show V c main_v111 _ = V c main_v111 _
  congr 1
  funext a
  apply Fin.ext
  match a with
  | ⟨0, _⟩ => show win1_17.index t 0 * 1 + 1 * k.val = k.val; rw [(idx1_17 t).1]; omega
  | ⟨1, _⟩ => show win1_17.index t 1 * 128 + 1 * j.val = j.val; rw [(idx1_17 t).2]; omega

theorem blk18_apply (t : Fin cfg1.N) (k : Fin 1) (j : Fin 128) :
    (iblk1 V c 18 t : Vec Ideal S1x128 .f32) (ix2 k j) = (V c main_v112 : S1x128.Idx → EReal) (ix2 k j) := by
  unfold iblk1
  rw [View.read_apply]
  show V c main_v112 _ = V c main_v112 _
  congr 1
  funext a
  apply Fin.ext
  match a with
  | ⟨0, _⟩ => show win1_18.index t 0 * 1 + 1 * k.val = k.val; rw [(idx1_18 t).1]; omega
  | ⟨1, _⟩ => show win1_18.index t 1 * 128 + 1 * j.val = j.val; rw [(idx1_18 t).2]; omega

theorem blk19_apply (t : Fin cfg1.N) (k : Fin 128) (j : Fin 64) :
    (iblk1 V c 19 t : Vec Ideal S128x64 .bf16) (ix2 k j) = (V c main_v99 : S128x64.Idx → EReal) (ix2 k j) := by
  unfold iblk1
  rw [View.read_apply]
  show V c main_v99 _ = V c main_v99 _
  congr 1
  funext a
  apply Fin.ext
  match a with
  | ⟨0, _⟩ => show win1_19.index t 0 * 128 + 1 * k.val = k.val; rw [(idx1_19 t).1]; omega
  | ⟨1, _⟩ => show win1_19.index t 1 * 64 + 1 * j.val = j.val; rw [(idx1_19 t).2]; omega

theorem blk20_apply (t : Fin cfg1.N) (k : Fin 1) (j : Fin 64) :
    (iblk1 V c 20 t : Vec Ideal S1x64 .f32) (ix2 k j) = (V c main_v113 : S1x64.Idx → EReal) (ix2 k j) := by
  unfold iblk1
  rw [View.read_apply]
  show V c main_v113 _ = V c main_v113 _
  congr 1
  funext a
  apply Fin.ext
  match a with
  | ⟨0, _⟩ => show win1_20.index t 0 * 1 + 1 * k.val = k.val; rw [(idx1_20 t).1]; omega
  | ⟨1, _⟩ => show win1_20.index t 1 * 64 + 1 * j.val = j.val; rw [(idx1_20 t).2]; omega

theorem blk21_apply (t : Fin cfg1.N) (k : Fin 1) (j : Fin 64) :
    (iblk1 V c 21 t : Vec Ideal S1x64 .f32) (ix2 k j) = (V c main_v114 : S1x64.Idx → EReal) (ix2 k j) := by
  unfold iblk1
  rw [View.read_apply]
  show V c main_v114 _ = V c main_v114 _
  congr 1
  funext a
  apply Fin.ext
  match a with
  | ⟨0, _⟩ => show win1_21.index t 0 * 1 + 1 * k.val = k.val; rw [(idx1_21 t).1]; omega
  | ⟨1, _⟩ => show win1_21.index t 1 * 64 + 1 * j.val = j.val; rw [(idx1_21 t).2]; omega

theorem blk22_apply (t : Fin cfg1.N) (k : Fin 1) (j : Fin 64) :
    (iblk1 V c 22 t : Vec Ideal S1x64 .f32) (ix2 k j) = (V c main_v115 : S1x64.Idx → EReal) (ix2 k j) := by
  unfold iblk1
  rw [View.read_apply]
  show V c main_v115 _ = V c main_v115 _
  congr 1
  funext a
  apply Fin.ext
  match a with
  | ⟨0, _⟩ => show win1_22.index t 0 * 1 + 1 * k.val = k.val; rw [(idx1_22 t).1]; omega
  | ⟨1, _⟩ => show win1_22.index t 1 * 64 + 1 * j.val = j.val; rw [(idx1_22 t).2]; omega

theorem blk23_apply (t : Fin cfg1.N) (k : Fin 1) (j : Fin 64) :
    (iblk1 V c 23 t : Vec Ideal S1x64 .f32) (ix2 k j) = (V c main_v116 : S1x64.Idx → EReal) (ix2 k j) := by
  unfold iblk1
  rw [View.read_apply]
  show V c main_v116 _ = V c main_v116 _
  congr 1
  funext a
  apply Fin.ext
  match a with
  | ⟨0, _⟩ => show win1_23.index t 0 * 1 + 1 * k.val = k.val; rw [(idx1_23 t).1]; omega
  | ⟨1, _⟩ => show win1_23.index t 1 * 64 + 1 * j.val = j.val; rw [(idx1_23 t).2]; omega

theorem blk24_apply (t : Fin cfg1.N) (k : Fin 1) (j : Fin 64) :
    (iblk1 V c 24 t : Vec Ideal S1x64 .f32) (ix2 k j) = (V c main_v117 : S1x64.Idx → EReal) (ix2 k j) := by
  unfold iblk1
  rw [View.read_apply]
  show V c main_v117 _ = V c main_v117 _
  congr 1
  funext a
  apply Fin.ext
  match a with
  | ⟨0, _⟩ => show win1_24.index t 0 * 1 + 1 * k.val = k.val; rw [(idx1_24 t).1]; omega
  | ⟨1, _⟩ => show win1_24.index t 1 * 64 + 1 * j.val = j.val; rw [(idx1_24 t).2]; omega

theorem blk25_apply (t : Fin cfg1.N) (k : Fin 64) (j : Fin 1) :
    (iblk1 V c 25 t : Vec Ideal S64x1 .bf16) (ix2 k j) = (V c main_v101 : S64x1.Idx → EReal) (ix2 k j) := by
  unfold iblk1
  rw [View.read_apply]
  show V c main_v101 _ = V c main_v101 _
  congr 1
  funext a
  apply Fin.ext
  match a with
  | ⟨0, _⟩ => show win1_25.index t 0 * 64 + 1 * k.val = k.val; rw [(idx1_25 t).1]; omega
  | ⟨1, _⟩ => show win1_25.index t 1 * 1 + 1 * j.val = j.val; rw [(idx1_25 t).2]; omega

theorem blk26_apply (t : Fin cfg1.N) (k : Fin 1) (j : Fin 1) :
    (iblk1 V c 26 t : Vec Ideal S1x1 .f32) (ix2 k j) = (V c main_v118 : S1x1.Idx → EReal) (ix2 k j) := by
  unfold iblk1
  rw [View.read_apply]
  show V c main_v118 _ = V c main_v118 _
  congr 1
  funext a
  apply Fin.ext
  match a with
  | ⟨0, _⟩ => show win1_26.index t 0 * 1 + 1 * k.val = k.val; rw [(idx1_26 t).1]; omega
  | ⟨1, _⟩ => show win1_26.index t 1 * 1 + 1 * j.val = j.val; rw [(idx1_26 t).2]; omega

/-! ### The scorer's arithmetic depends on its inputs entry by entry -/

theorem scoreFn_congr
    {zs zs' : Fin 64 → EReal}
    {zd zd' : Fin 64 → EReal}
    {ef ef' : Fin 32 → EReal}
    {w1 w1' : Fin 32 → Fin 64 → EReal}
    {eb1 eb1' : Fin 64 → EReal}
    {eg eg' : Fin 64 → EReal}
    {ebb ebb' : Fin 64 → EReal}
    {em em' : Fin 64 → EReal}
    {ev ev' : Fin 64 → EReal}
    {w2 w2' : Fin 64 → Fin 32 → EReal}
    {eb2 eb2' : Fin 32 → EReal}
    {wa wa' : Fin 64 → Fin 128 → EReal}
    {wb wb' : Fin 64 → Fin 128 → EReal}
    {wc wc' : Fin 32 → Fin 128 → EReal}
    {pb1 pb1' : Fin 128 → EReal}
    {pg1 pg1' : Fin 128 → EReal}
    {pbb1 pbb1' : Fin 128 → EReal}
    {pm1 pm1' : Fin 128 → EReal}
    {pv1 pv1' : Fin 128 → EReal}
    {w4 w4' : Fin 128 → Fin 64 → EReal}
    {pb2 pb2' : Fin 64 → EReal}
    {pg2 pg2' : Fin 64 → EReal}
    {pbb2 pbb2' : Fin 64 → EReal}
    {pm2 pm2' : Fin 64 → EReal}
    {pv2 pv2' : Fin 64 → EReal}
    {w5 w5' : Fin 64 → EReal}
    {pb3 pb3' : EReal}
    (h0 : ∀ a, zs a = zs' a)
    (h1 : ∀ a, zd a = zd' a)
    (h2 : ∀ a, ef a = ef' a)
    (h3 : ∀ a b, w1 a b = w1' a b)
    (h4 : ∀ a, eb1 a = eb1' a)
    (h5 : ∀ a, eg a = eg' a)
    (h6 : ∀ a, ebb a = ebb' a)
    (h7 : ∀ a, em a = em' a)
    (h8 : ∀ a, ev a = ev' a)
    (h9 : ∀ a b, w2 a b = w2' a b)
    (h10 : ∀ a, eb2 a = eb2' a)
    (h11 : ∀ a b, wa a b = wa' a b)
    (h12 : ∀ a b, wb a b = wb' a b)
    (h13 : ∀ a b, wc a b = wc' a b)
    (h14 : ∀ a, pb1 a = pb1' a)
    (h15 : ∀ a, pg1 a = pg1' a)
    (h16 : ∀ a, pbb1 a = pbb1' a)
    (h17 : ∀ a, pm1 a = pm1' a)
    (h18 : ∀ a, pv1 a = pv1' a)
    (h19 : ∀ a b, w4 a b = w4' a b)
    (h20 : ∀ a, pb2 a = pb2' a)
    (h21 : ∀ a, pg2 a = pg2' a)
    (h22 : ∀ a, pbb2 a = pbb2' a)
    (h23 : ∀ a, pm2 a = pm2' a)
    (h24 : ∀ a, pv2 a = pv2' a)
    (h25 : ∀ a, w5 a = w5' a)
    (h26 : pb3 = pb3') :
    scoreFn zs zd ef w1 eb1 eg ebb em ev w2 eb2 wa wb wc pb1 pg1 pbb1 pm1 pv1 w4 pb2 pg2 pbb2 pm2 pv2 w5 pb3 = scoreFn zs' zd' ef' w1' eb1' eg' ebb' em' ev' w2' eb2' wa' wb' wc' pb1' pg1' pbb1' pm1' pv1' w4' pb2' pg2' pbb2' pm2' pv2' w5' pb3' := by
  obtain rfl : zs = zs' := funext h0
  obtain rfl : zd = zd' := funext h1
  obtain rfl : ef = ef' := funext h2
  obtain rfl : w1 = w1' := funext fun a => funext fun b => h3 a b
  obtain rfl : eb1 = eb1' := funext h4
  obtain rfl : eg = eg' := funext h5
  obtain rfl : ebb = ebb' := funext h6
  obtain rfl : em = em' := funext h7
  obtain rfl : ev = ev' := funext h8
  obtain rfl : w2 = w2' := funext fun a => funext fun b => h9 a b
  obtain rfl : eb2 = eb2' := funext h10
  obtain rfl : wa = wa' := funext fun a => funext fun b => h11 a b
  obtain rfl : wb = wb' := funext fun a => funext fun b => h12 a b
  obtain rfl : wc = wc' := funext fun a => funext fun b => h13 a b
  obtain rfl : pb1 = pb1' := funext h14
  obtain rfl : pg1 = pg1' := funext h15
  obtain rfl : pbb1 = pbb1' := funext h16
  obtain rfl : pm1 = pm1' := funext h17
  obtain rfl : pv1 = pv1' := funext h18
  obtain rfl : w4 = w4' := funext fun a => funext fun b => h19 a b
  obtain rfl : pb2 = pb2' := funext h20
  obtain rfl : pg2 = pg2' := funext h21
  obtain rfl : pbb2 = pbb2' := funext h22
  obtain rfl : pm2 = pm2' := funext h23
  obtain rfl : pv2 = pv2' := funext h24
  obtain rfl : w5 = w5' := funext h25
  obtain rfl : pb3 = pb3' := h26
  rfl

/-! ### What a point writes back -/

/-- The output block after the body, at entry `y`, from the 27 input blocks. -/
theorem out27_apply (x0 : Vec Ideal S8192x64 .bf16) (x1 : Vec Ideal S8192x64 .bf16) (x2 : Vec Ideal S8192x32 .bf16) (x3 : Vec Ideal S32x64 .bf16) (x4 : Vec Ideal S1x64 .f32) (x5 : Vec Ideal S1x64 .f32) (x6 : Vec Ideal S1x64 .f32) (x7 : Vec Ideal S1x64 .f32) (x8 : Vec Ideal S1x64 .f32) (x9 : Vec Ideal S64x32 .bf16) (x10 : Vec Ideal S1x32 .f32) (x11 : Vec Ideal S64x128 .bf16) (x12 : Vec Ideal S64x128 .bf16) (x13 : Vec Ideal S32x128 .bf16) (x14 : Vec Ideal S1x128 .f32) (x15 : Vec Ideal S1x128 .f32) (x16 : Vec Ideal S1x128 .f32) (x17 : Vec Ideal S1x128 .f32) (x18 : Vec Ideal S1x128 .f32) (x19 : Vec Ideal S128x64 .bf16) (x20 : Vec Ideal S1x64 .f32) (x21 : Vec Ideal S1x64 .f32) (x22 : Vec Ideal S1x64 .f32) (x23 : Vec Ideal S1x64 .f32) (x24 : Vec Ideal S1x64 .f32) (x25 : Vec Ideal S64x1 .bf16) (x26 : Vec Ideal S1x1 .f32) (y : S8192.Idx) :
    out1_27 (F := Ideal) x0 x1 x2 x3 x4 x5 x6 x7 x8 x9 x10 x11 x12 x13 x14 x15 x16 x17 x18 x19 x20 x21 x22 x23 x24 x25 x26 y
      = scoreFn (fun j => x0 (ix2 (y 0) j))
          (fun j => x1 (ix2 (y 0) j))
          (fun j => x2 (ix2 (y 0) j))
          (fun k j => x3 (ix2 k j))
          (fun j => x4 (ix2 (0 : Fin 1) j))
          (fun j => x5 (ix2 (0 : Fin 1) j))
          (fun j => x6 (ix2 (0 : Fin 1) j))
          (fun j => x7 (ix2 (0 : Fin 1) j))
          (fun j => x8 (ix2 (0 : Fin 1) j))
          (fun k j => x9 (ix2 k j))
          (fun j => x10 (ix2 (0 : Fin 1) j))
          (fun k j => x11 (ix2 k j))
          (fun k j => x12 (ix2 k j))
          (fun k j => x13 (ix2 k j))
          (fun j => x14 (ix2 (0 : Fin 1) j))
          (fun j => x15 (ix2 (0 : Fin 1) j))
          (fun j => x16 (ix2 (0 : Fin 1) j))
          (fun j => x17 (ix2 (0 : Fin 1) j))
          (fun j => x18 (ix2 (0 : Fin 1) j))
          (fun k j => x19 (ix2 k j))
          (fun j => x20 (ix2 (0 : Fin 1) j))
          (fun j => x21 (ix2 (0 : Fin 1) j))
          (fun j => x22 (ix2 (0 : Fin 1) j))
          (fun j => x23 (ix2 (0 : Fin 1) j))
          (fun j => x24 (ix2 (0 : Fin 1) j))
          (fun k => x25 (ix2 k (0 : Fin 1)))
          (x26 (ix2 (0 : Fin 1) (0 : Fin 1))) := by
  unfold out1_27
  rw [View.canon_unit_zero hz1]
  simp only [View.ld_unit_zero (S := S8192x64) hz2, View.ld_unit_zero (S := S8192x32) hz2, View.ld_unit_zero (S := S32x64) hz2, View.ld_unit_zero (S := S1x64) hz2, View.ld_unit_zero (S := S64x32) hz2, View.ld_unit_zero (S := S1x32) hz2, View.ld_unit_zero (S := S64x128) hz2, View.ld_unit_zero (S := S32x128) hz2, View.ld_unit_zero (S := S1x128) hz2, View.ld_unit_zero (S := S128x64) hz2, View.ld_unit_zero (S := S64x1) hz2, View.ld_unit_zero (S := S1x1) hz2]
  obtain ⟨r, rfl⟩ : ∃ r : Fin 8192, y = ix1 r := ⟨y 0, eq_ix1 y⟩
  exact out_apply x0 x1 x2 x3 x4 x5 x6 x7 x8 x9 x10 x11 x12 x13 x14 x15 x16 x17 x18 x19 x20 x21 x22 x23 x24 x25 x26 r

/-- The padded score vector the region leaves: entry `i` is the scorer's arithmetic at row `i` of the three padded
    edge-wise arrays and the weight and batch-norm arrays, all as the region finds them. -/
def G : S1007616.Idx → EReal := fun i =>
  scoreFn (fun j => (V c main_v119 : S1007616x64.Idx → EReal) (ix2 (i 0 : Fin 1007616) j))
    (fun j => (V c main_v120 : S1007616x64.Idx → EReal) (ix2 (i 0 : Fin 1007616) j))
    (fun j => (V c main_v121 : S1007616x32.Idx → EReal) (ix2 (i 0 : Fin 1007616) j))
    (fun k j => (V c main_v86 : S32x64.Idx → EReal) (ix2 k j))
    (fun j => (V c main_v102 : S1x64.Idx → EReal) (ix2 (0 : Fin 1) j))
    (fun j => (V c main_v103 : S1x64.Idx → EReal) (ix2 (0 : Fin 1) j))
    (fun j => (V c main_v104 : S1x64.Idx → EReal) (ix2 (0 : Fin 1) j))
    (fun j => (V c main_v105 : S1x64.Idx → EReal) (ix2 (0 : Fin 1) j))
    (fun j => (V c main_v106 : S1x64.Idx → EReal) (ix2 (0 : Fin 1) j))
    (fun k j => (V c main_v88 : S64x32.Idx → EReal) (ix2 k j))
    (fun j => (V c main_v107 : S1x32.Idx → EReal) (ix2 (0 : Fin 1) j))
    (fun k j => (V c main_v91 : S64x128.Idx → EReal) (ix2 k j))
    (fun k j => (V c main_v94 : S64x128.Idx → EReal) (ix2 k j))
    (fun k j => (V c main_v97 : S32x128.Idx → EReal) (ix2 k j))
    (fun j => (V c main_v108 : S1x128.Idx → EReal) (ix2 (0 : Fin 1) j))
    (fun j => (V c main_v109 : S1x128.Idx → EReal) (ix2 (0 : Fin 1) j))
    (fun j => (V c main_v110 : S1x128.Idx → EReal) (ix2 (0 : Fin 1) j))
    (fun j => (V c main_v111 : S1x128.Idx → EReal) (ix2 (0 : Fin 1) j))
    (fun j => (V c main_v112 : S1x128.Idx → EReal) (ix2 (0 : Fin 1) j))
    (fun k j => (V c main_v99 : S128x64.Idx → EReal) (ix2 k j))
    (fun j => (V c main_v113 : S1x64.Idx → EReal) (ix2 (0 : Fin 1) j))
    (fun j => (V c main_v114 : S1x64.Idx → EReal) (ix2 (0 : Fin 1) j))
    (fun j => (V c main_v115 : S1x64.Idx → EReal) (ix2 (0 : Fin 1) j))
    (fun j => (V c main_v116 : S1x64.Idx → EReal) (ix2 (0 : Fin 1) j))
    (fun j => (V c main_v117 : S1x64.Idx → EReal) (ix2 (0 : Fin 1) j))
    (fun k => (V c main_v101 : S64x1.Idx → EReal) (ix2 k (0 : Fin 1)))
    ((V c main_v118 : S1x1.Idx → EReal) (ix2 (0 : Fin 1) (0 : Fin 1)))

theorem out_at (t : Fin cfg1.N) (y : S8192.Idx) :
    out1_27 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) y
      = G V c (ix1 (rowAt t (y 0))) := by
  refine (out27_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) y).trans ?_
  unfold G
  refine scoreFn_congr ?_ ?_ ?_ ?_ ?_ ?_ ?_ ?_ ?_ ?_ ?_ ?_ ?_ ?_ ?_ ?_ ?_ ?_ ?_ ?_ ?_ ?_ ?_ ?_ ?_ ?_ ?_
  · exact fun j => blk0_apply V c t (y 0) j
  · exact fun j => blk1_apply V c t (y 0) j
  · exact fun j => blk2_apply V c t (y 0) j
  · exact fun k j => blk3_apply V c t k j
  · exact fun j => blk4_apply V c t 0 j
  · exact fun j => blk5_apply V c t 0 j
  · exact fun j => blk6_apply V c t 0 j
  · exact fun j => blk7_apply V c t 0 j
  · exact fun j => blk8_apply V c t 0 j
  · exact fun k j => blk9_apply V c t k j
  · exact fun j => blk10_apply V c t 0 j
  · exact fun k j => blk11_apply V c t k j
  · exact fun k j => blk12_apply V c t k j
  · exact fun k j => blk13_apply V c t k j
  · exact fun j => blk14_apply V c t 0 j
  · exact fun j => blk15_apply V c t 0 j
  · exact fun j => blk16_apply V c t 0 j
  · exact fun j => blk17_apply V c t 0 j
  · exact fun j => blk18_apply V c t 0 j
  · exact fun k j => blk19_apply V c t k j
  · exact fun j => blk20_apply V c t 0 j
  · exact fun j => blk21_apply V c t 0 j
  · exact fun j => blk22_apply V c t 0 j
  · exact fun j => blk23_apply V c t 0 j
  · exact fun j => blk24_apply V c t 0 j
  · exact fun k => blk25_apply V c t k 0
  · exact blk26_apply V c t 0 0

/-- WHAT POINT `t` WRITES BACK is block `t` of `G`. -/
theorem flushed27 (t : Fin cfg1.N) :
    (dat1 V c).flushed 27 t = ((cfg1.win 27).blk t).view.read (Elt Ideal) (G V c) := by
  show (cfg1.win 27).cut (grid1.coords t) ((dat1 V c).after 27 t) = _
  rw [after1_27]
  funext y
  rw [View.read_apply]
  show _ = G V c (((cfg1.win 27).blk t).view.emb y)
  refine (out_at V c t y).trans (congrArg (G V c) ?_)
  funext a
  apply Fin.ext
  match a with
  | ⟨0, _⟩ => show 8192 * t.val + (y 0).val = win1_27.index t 0 * 8192 + 1 * (y 0).val; rw [idx1_27 t]; omega

/-- An index of the padded score vector is in point `t`'s block iff it is in the block's range. -/
theorem mem_blk27 (t : Fin cfg1.N) (i : S1007616.Idx) :
    i ∈ ((cfg1.win 27).blk t).view.set ↔ ∀ a : Fin 1, win1_27.index t a * S8192.size a ≤ (i a).val ∧ (i a).val < win1_27.index t a * S8192.size a + S8192.size a := by
  show i ∈ ((View.whole main_v122).slice (win1_27.rect t)).set ↔ _
  rw [View.set_slice_whole, Rect.mem_set_unit]
  exact Iff.rfl

/-- The array after the region, at entry `i`: `G` there (entry `i` lies in block `i / 8192`). -/
theorem arr27_apply (i : Fin 1007616) :
    ((dat1 V c).arrAt 27 cfg1.N : S1007616.Idx → EReal) (ix1 i) = G V c (ix1 i) := by
  have hN : cfg1.N = 123 := N_1
  have hi := i.isLt
  refine (dat1 V c).arrAt_apply_of_mem 27 (G V c) (fun t _ => flushed27 V c t) cfg1.N ⟨i.val / 8192, by omega⟩ (ix1 i)
    (by show i.val / 8192 < cfg1.N; omega) (flush1_27 _) ?_
  rw [mem_blk27]
  intro a
  match a with
  | ⟨0, _⟩ =>
    show win1_27.index ⟨i.val / 8192, _⟩ 0 * 8192 ≤ i.val ∧ i.val < win1_27.index ⟨i.val / 8192, _⟩ 0 * 8192 + 8192
    rw [idx1_27]
    show i.val / 8192 * 8192 ≤ i.val ∧ i.val < i.val / 8192 * 8192 + 8192
    omega

end Blocks

/-! ### The run: from the region's entry back to the arguments, and forward to the result -/

section Run

variable (m : (ℓ : Loc nD τ sig) → Buf (Elt Ideal) ℓ) (ρ : Dev nD → PrngReg) (c : Dev nD)

/-- What each stretch between the pads writes. -/
def wr11 : List (Ref sig .tc) := [main_call0_v0, main_v119]
def wr12 : List (Ref sig .tc) := [main_c_15]
def wr13 : List (Ref sig .tc) := [main_call1_v0, main_v120]
def wr14 : List (Ref sig .tc) := [main_c_16]
def wr15 : List (Ref sig .tc) := [main_call2_v0, main_v121]

theorem w11 : (hostOps1_1 : List (HloOp τ sig (Elt Ideal))).Forall fun op =>
    op.writes ⊆ (wr11.map (Proc.devRef (τ := τ) .tc)).toFinset := by
  simp only [hostOps1_1, List.Forall, StableHlo.nullary_writes, StableHlo.unary_writes, StableHlo.binary_writes,
    Finset.singleton_subset_iff, List.mem_toFinset]
  repeat' apply And.intro
  all_goals exact List.mem_map_of_mem (by decide)
theorem keep11 (F : Val) (b : Ref sig .tc) (hb : b ∉ wr11) :
    StableHlo.after hostOps1_1 F (Proc.devRef .tc b) = F (Proc.devRef .tc b) :=
  StableHlo.after_of_writes_sub hostOps1_1 F w11 hb

theorem w12 : (hostOps1_2 : List (HloOp τ sig (Elt Ideal))).Forall fun op =>
    op.writes ⊆ (wr12.map (Proc.devRef (τ := τ) .tc)).toFinset := by
  simp only [hostOps1_2, List.Forall, StableHlo.nullary_writes, StableHlo.unary_writes, StableHlo.binary_writes,
    Finset.singleton_subset_iff, List.mem_toFinset]
  repeat' apply And.intro
  all_goals exact List.mem_map_of_mem (by decide)
theorem keep12 (F : Val) (b : Ref sig .tc) (hb : b ∉ wr12) :
    StableHlo.after hostOps1_2 F (Proc.devRef .tc b) = F (Proc.devRef .tc b) :=
  StableHlo.after_of_writes_sub hostOps1_2 F w12 hb

theorem w13 : (hostOps1_3 : List (HloOp τ sig (Elt Ideal))).Forall fun op =>
    op.writes ⊆ (wr13.map (Proc.devRef (τ := τ) .tc)).toFinset := by
  simp only [hostOps1_3, List.Forall, StableHlo.nullary_writes, StableHlo.unary_writes, StableHlo.binary_writes,
    Finset.singleton_subset_iff, List.mem_toFinset]
  repeat' apply And.intro
  all_goals exact List.mem_map_of_mem (by decide)
theorem keep13 (F : Val) (b : Ref sig .tc) (hb : b ∉ wr13) :
    StableHlo.after hostOps1_3 F (Proc.devRef .tc b) = F (Proc.devRef .tc b) :=
  StableHlo.after_of_writes_sub hostOps1_3 F w13 hb

theorem w14 : (hostOps1_4 : List (HloOp τ sig (Elt Ideal))).Forall fun op =>
    op.writes ⊆ (wr14.map (Proc.devRef (τ := τ) .tc)).toFinset := by
  simp only [hostOps1_4, List.Forall, StableHlo.nullary_writes, StableHlo.unary_writes, StableHlo.binary_writes,
    Finset.singleton_subset_iff, List.mem_toFinset]
  repeat' apply And.intro
  all_goals exact List.mem_map_of_mem (by decide)
theorem keep14 (F : Val) (b : Ref sig .tc) (hb : b ∉ wr14) :
    StableHlo.after hostOps1_4 F (Proc.devRef .tc b) = F (Proc.devRef .tc b) :=
  StableHlo.after_of_writes_sub hostOps1_4 F w14 hb

theorem w15 : (hostOps1_5 : List (HloOp τ sig (Elt Ideal))).Forall fun op =>
    op.writes ⊆ (wr15.map (Proc.devRef (τ := τ) .tc)).toFinset := by
  simp only [hostOps1_5, List.Forall, StableHlo.nullary_writes, StableHlo.unary_writes, StableHlo.binary_writes,
    Finset.singleton_subset_iff, List.mem_toFinset]
  repeat' apply And.intro
  all_goals exact List.mem_map_of_mem (by decide)
theorem keep15 (F : Val) (b : Ref sig .tc) (hb : b ∉ wr15) :
    StableHlo.after hostOps1_5 F (Proc.devRef .tc b) = F (Proc.devRef .tc b) :=
  StableHlo.after_of_writes_sub hostOps1_5 F w15 hb

/-- A buffer none of the pads' stretches writes is, at the region's entry, what it was after the long stretch. -/
theorem W8_W3 (b : Ref sig .tc) (h1 : b ∉ wr11) (h2 : b ∉ wr12) (h3 : b ∉ wr13) (h4 : b ∉ wr14) (h5 : b ∉ wr15) :
    W8 m ρ c (Proc.devRef .tc b) = W3 m ρ c (Proc.devRef .tc b) :=
  (keep15 (W7 m ρ c) b h5).trans ((keep14 (W6 m ρ c) b h4).trans ((keep13 (W5 m ρ c) b h3).trans
    ((keep12 (W4 m ρ c) b h2).trans (keep11 (W3 m ρ c) b h1))))

/-- A buffer neither the first stretch nor the first region writes is, after the first region, as launched. -/
theorem W2_W0 (b : Ref sig .tc) (hs : ∀ w, Pipeline.arrRef spec0 w ≠ b) (h0 : b ∉ wr0) :
    W2 m ρ c (Proc.devRef .tc b) = W0 m ρ c (Proc.devRef .tc b) :=
  (W2_of_ne m ρ c b hs).trans (h0_keep (W0 m ρ c) b h0)

/-- The padded source-end rows at the region's entry, at a row `p` of the unpadded array: the node embedding's row at
    the first end-node word of candidate edge `p`. -/
theorem v119_at (i : Fin 1007616) (p : Fin 1000000) (hip : i.val = p.val) (j : Fin 64) :
    (W8 m ρ c (Proc.devRef .tc main_v119) : S1007616x64.Idx → EReal) (ix2 i j)
      = (W3 m ρ c (Proc.devRef .tc main_v65) : S100000x64.Idx → EReal)
          (ix2 (⟨min ((W3 m ρ c (Proc.devRef .tc main_v75) : IVec S1000000x1 32) (ix2 p (0 : Fin 1))).toInt.toNat (100000 - 1), by omega⟩ : Fin 100000) j) := by
  have e : W8 m ρ c (Proc.devRef .tc main_v119) = W4 m ρ c (Proc.devRef .tc main_v119) :=
    (keep15 (W7 m ρ c) main_v119 (by decide)).trans ((keep14 (W6 m ρ c) main_v119 (by decide)).trans
      ((keep13 (W5 m ρ c) main_v119 (by decide)).trans (keep12 (W4 m ρ c) main_v119 (by decide))))
  exact (congrFun e _).trans ((h11_v119_apply (W3 m ρ c) i p hip j).trans (h1_v76_apply (W2 m ρ c) p j))

/-- The padded destination-end rows likewise, at the second end-node word. -/
theorem v120_at (i : Fin 1007616) (p : Fin 1000000) (hip : i.val = p.val) (j : Fin 64) :
    (W8 m ρ c (Proc.devRef .tc main_v120) : S1007616x64.Idx → EReal) (ix2 i j)
      = (W3 m ρ c (Proc.devRef .tc main_v65) : S100000x64.Idx → EReal)
          (ix2 (⟨min ((W3 m ρ c (Proc.devRef .tc main_v82) : IVec S1000000x1 32) (ix2 p (0 : Fin 1))).toInt.toNat (100000 - 1), by omega⟩ : Fin 100000) j) := by
  have e : W8 m ρ c (Proc.devRef .tc main_v120) = W6 m ρ c (Proc.devRef .tc main_v120) :=
    (keep15 (W7 m ρ c) main_v120 (by decide)).trans (keep14 (W6 m ρ c) main_v120 (by decide))
  have e' : W5 m ρ c (Proc.devRef .tc main_v83) = W3 m ρ c (Proc.devRef .tc main_v83) :=
    (keep12 (W4 m ρ c) main_v83 (by decide)).trans (keep11 (W3 m ρ c) main_v83 (by decide))
  exact (congrFun e _).trans ((h13_v120_apply (W5 m ρ c) i p hip j).trans ((congrFun e' _).trans (h1_v83_apply (W2 m ρ c) p j)))

/-- The padded edge features at the region's entry, at a row `p` of the unpadded array: the edge-feature argument. -/
theorem v121_at (i : Fin 1007616) (p : Fin 1000000) (hip : i.val = p.val) (k : Fin 32) :
    (W8 m ρ c (Proc.devRef .tc main_v121) : S1007616x32.Idx → EReal) (ix2 i k)
      = (m ((c : Thread nD τ).loc main_arg3) : S1000000x32.Idx → EReal) (ix2 p k) := by
  have e' : W7 m ρ c (Proc.devRef .tc main_v84) = W3 m ρ c (Proc.devRef .tc main_v84) :=
    (keep14 (W6 m ρ c) main_v84 (by decide)).trans ((keep13 (W5 m ρ c) main_v84 (by decide)).trans
      ((keep12 (W4 m ρ c) main_v84 (by decide)).trans (keep11 (W3 m ρ c) main_v84 (by decide))))
  exact (h15_v121_apply (W7 m ρ c) i p hip k).trans ((congrFun e' _).trans ((h1_v84_apply (W2 m ρ c) (ix2 p k)).trans
    (congrFun (W2_W0 m ρ c main_arg3 (by decide) (by decide)) _)))

/-- The specification's score, spelt over the rows and the transposed weights the kernel's blocks hold. -/
theorem scoreK_eq (n : Cert.Sage.Net) (Gr : Cert.Sage.Graph) (Z : Fin 100000 → Fin 64 → EReal) (p : Fin 1000000) :
    Cert.Sage.scoreK n Gr Z p
      = scoreFn (Z (Cert.Sage.end0 Gr p))
          (Z (Cert.Sage.end1 Gr p))
          (fun k => n.EF (ix2 p k))
          (fun k j => n.eW1 (ix2 j k))
          (fun j => n.eb1 (ix1 j))
          (fun j => n.eg (ix1 j))
          (fun j => n.ebb (ix1 j))
          (fun j => n.em (ix1 j))
          (fun j => n.ev (ix1 j))
          (fun k j => n.eW2 (ix2 j k))
          (fun j => n.eb2 (ix1 j))
          (fun j k => n.pW1 (ix2 k (⟨j.val, by omega⟩ : Fin 160)))
          (fun j k => n.pW1 (ix2 k (⟨64 + j.val, by omega⟩ : Fin 160)))
          (fun q k => n.pW1 (ix2 k (⟨128 + q.val, by omega⟩ : Fin 160)))
          (fun j => n.pb1 (ix1 j))
          (fun j => n.pg1 (ix1 j))
          (fun j => n.pbb1 (ix1 j))
          (fun j => n.pm1 (ix1 j))
          (fun j => n.pv1 (ix1 j))
          (fun k j => n.pW2 (ix2 j k))
          (fun j => n.pb2 (ix1 j))
          (fun j => n.pg2 (ix1 j))
          (fun j => n.pbb2 (ix1 j))
          (fun j => n.pm2 (ix1 j))
          (fun j => n.pv2 (ix1 j))
          (fun k => n.pW3 (ix2 (0 : Fin 1) k))
          (n.pb3 (ix1 (0 : Fin 1))) := rfl

/-! ### Each input of the scorer at the region's entry is the specification's -/

/-- Row `p` of a padded array, for a candidate edge `p`. -/
def padRow (p : Fin 1000000) : Fin 1007616 := ⟨p.val, by have := p.isLt; omega⟩

/-! The candidate edges' end-node words of the specification's graph are the words the host holds after the long stretch. -/
section Words
set_option allowUnsafeReducibility true
attribute [local irreducible] Cert.KernelIdeal.GenP.W3 Cert.KernelIdeal.GenP.W1

theorem ip0_eq : (Inputs.graphOfMem m ρ c).ip0 = W3 m ρ c (Proc.devRef .tc main_v75) := rfl
theorem ip1_eq : (Inputs.graphOfMem m ρ c).ip1 = W3 m ρ c (Proc.devRef .tc main_v82) := rfl

end Words

/-- The two end nodes of candidate edge `p`: its words read signed and clamped to a row number. -/
theorem end0_eq (p : Fin 1000000) :
    Cert.Sage.end0 (Inputs.graphOfMem m ρ c) p
      = (⟨min ((W3 m ρ c (Proc.devRef .tc main_v75) : IVec S1000000x1 32) (ix2 p (0 : Fin 1))).toInt.toNat (100000 - 1), by omega⟩ : Fin 100000) := by
  unfold Cert.Sage.end0 Cert.Sage.clampRow
  rw [ip0_eq]
theorem end1_eq (p : Fin 1000000) :
    Cert.Sage.end1 (Inputs.graphOfMem m ρ c) p
      = (⟨min ((W3 m ρ c (Proc.devRef .tc main_v82) : IVec S1000000x1 32) (ix2 p (0 : Fin 1))).toInt.toNat (100000 - 1), by omega⟩ : Fin 100000) := by
  unfold Cert.Sage.end1 Cert.Sage.clampRow
  rw [ip1_eq]

theorem in_0 (Z : Fin 100000 → Fin 64 → EReal)
    (hZ : ∀ i j, (W3 m ρ c (Proc.devRef .tc main_v65) : Cert.Sage.Mat 100000 64) (ValueIdx.ix2 i j) = Z i j)
    (p : Fin 1000000) (j : Fin 64) :
    (W8 m ρ c (Proc.devRef .tc main_v119) : S1007616x64.Idx → EReal) (ix2 (padRow p) j)
      = Z (Cert.Sage.end0 (Inputs.graphOfMem m ρ c) p) j := by
  rw [end0_eq m ρ c p]
  exact (v119_at m ρ c (padRow p) p rfl j).trans (hZ _ j)

theorem in_1 (Z : Fin 100000 → Fin 64 → EReal)
    (hZ : ∀ i j, (W3 m ρ c (Proc.devRef .tc main_v65) : Cert.Sage.Mat 100000 64) (ValueIdx.ix2 i j) = Z i j)
    (p : Fin 1000000) (j : Fin 64) :
    (W8 m ρ c (Proc.devRef .tc main_v120) : S1007616x64.Idx → EReal) (ix2 (padRow p) j)
      = Z (Cert.Sage.end1 (Inputs.graphOfMem m ρ c) p) j := by
  rw [end1_eq m ρ c p]
  exact (v120_at m ρ c (padRow p) p rfl j).trans (hZ _ j)

theorem in_2 (p : Fin 1000000) (k : Fin 32) :
    (W8 m ρ c (Proc.devRef .tc main_v121) : S1007616x32.Idx → EReal) (ix2 (padRow p) k)
      = (Inputs.netOfMem m c).EF (ix2 p k) :=
  v121_at m ρ c (padRow p) p rfl k

theorem in_3 (k : Fin 32) (j : Fin 64) :
    (W8 m ρ c (Proc.devRef .tc main_v86) : S32x64.Idx → EReal) (ix2 k j) = (Inputs.netOfMem m c).eW1 (ix2 j k) :=
  (congrFun (W8_W3 m ρ c main_v86 (by decide) (by decide) (by decide) (by decide) (by decide)) _).trans ((h1_v86_apply (W2 m ρ c) k j).trans (congrFun (W2_W0 m ρ c main_arg14 (by decide) (by decide)) _))

theorem in_4 (j : Fin 64) :
    (W8 m ρ c (Proc.devRef .tc main_v102) : S1x64.Idx → EReal) (ix2 (0 : Fin 1) j) = (Inputs.netOfMem m c).eb1 (ix1 j) :=
  (congrFun (W8_W3 m ρ c main_v102 (by decide) (by decide) (by decide) (by decide) (by decide)) _).trans ((h1_v102_apply (W2 m ρ c) j).trans (congrFun (W2_W0 m ρ c main_arg15 (by decide) (by decide)) _))

theorem in_5 (j : Fin 64) :
    (W8 m ρ c (Proc.devRef .tc main_v103) : S1x64.Idx → EReal) (ix2 (0 : Fin 1) j) = (Inputs.netOfMem m c).eg (ix1 j) :=
  (congrFun (W8_W3 m ρ c main_v103 (by decide) (by decide) (by decide) (by decide) (by decide)) _).trans ((h1_v103_apply (W2 m ρ c) j).trans (congrFun (W2_W0 m ρ c main_arg16 (by decide) (by decide)) _))

theorem in_6 (j : Fin 64) :
    (W8 m ρ c (Proc.devRef .tc main_v104) : S1x64.Idx → EReal) (ix2 (0 : Fin 1) j) = (Inputs.netOfMem m c).ebb (ix1 j) :=
  (congrFun (W8_W3 m ρ c main_v104 (by decide) (by decide) (by decide) (by decide) (by decide)) _).trans ((h1_v104_apply (W2 m ρ c) j).trans (congrFun (W2_W0 m ρ c main_arg17 (by decide) (by decide)) _))

theorem in_7 (j : Fin 64) :
    (W8 m ρ c (Proc.devRef .tc main_v105) : S1x64.Idx → EReal) (ix2 (0 : Fin 1) j) = (Inputs.netOfMem m c).em (ix1 j) :=
  (congrFun (W8_W3 m ρ c main_v105 (by decide) (by decide) (by decide) (by decide) (by decide)) _).trans ((h1_v105_apply (W2 m ρ c) j).trans (congrFun (W2_W0 m ρ c main_arg18 (by decide) (by decide)) _))

theorem in_8 (j : Fin 64) :
    (W8 m ρ c (Proc.devRef .tc main_v106) : S1x64.Idx → EReal) (ix2 (0 : Fin 1) j) = (Inputs.netOfMem m c).ev (ix1 j) :=
  (congrFun (W8_W3 m ρ c main_v106 (by decide) (by decide) (by decide) (by decide) (by decide)) _).trans ((h1_v106_apply (W2 m ρ c) j).trans (congrFun (W2_W0 m ρ c main_arg19 (by decide) (by decide)) _))

theorem in_9 (k : Fin 64) (j : Fin 32) :
    (W8 m ρ c (Proc.devRef .tc main_v88) : S64x32.Idx → EReal) (ix2 k j) = (Inputs.netOfMem m c).eW2 (ix2 j k) :=
  (congrFun (W8_W3 m ρ c main_v88 (by decide) (by decide) (by decide) (by decide) (by decide)) _).trans ((h1_v88_apply (W2 m ρ c) k j).trans (congrFun (W2_W0 m ρ c main_arg20 (by decide) (by decide)) _))

theorem in_10 (j : Fin 32) :
    (W8 m ρ c (Proc.devRef .tc main_v107) : S1x32.Idx → EReal) (ix2 (0 : Fin 1) j) = (Inputs.netOfMem m c).eb2 (ix1 j) :=
  (congrFun (W8_W3 m ρ c main_v107 (by decide) (by decide) (by decide) (by decide) (by decide)) _).trans ((h1_v107_apply (W2 m ρ c) j).trans (congrFun (W2_W0 m ρ c main_arg21 (by decide) (by decide)) _))

theorem in_11 (j : Fin 64) (k : Fin 128) :
    (W8 m ρ c (Proc.devRef .tc main_v91) : S64x128.Idx → EReal) (ix2 j k) = (Inputs.netOfMem m c).pW1 (ix2 k (⟨j.val, by omega⟩ : Fin 160)) :=
  (congrFun (W8_W3 m ρ c main_v91 (by decide) (by decide) (by decide) (by decide) (by decide)) _).trans ((h1_v91_apply (W2 m ρ c) j k).trans (congrFun (W2_W0 m ρ c main_arg22 (by decide) (by decide)) _))

theorem in_12 (j : Fin 64) (k : Fin 128) :
    (W8 m ρ c (Proc.devRef .tc main_v94) : S64x128.Idx → EReal) (ix2 j k) = (Inputs.netOfMem m c).pW1 (ix2 k (⟨64 + j.val, by omega⟩ : Fin 160)) :=
  (congrFun (W8_W3 m ρ c main_v94 (by decide) (by decide) (by decide) (by decide) (by decide)) _).trans ((h1_v94_apply (W2 m ρ c) j k).trans (congrFun (W2_W0 m ρ c main_arg22 (by decide) (by decide)) _))

theorem in_13 (j : Fin 32) (k : Fin 128) :
    (W8 m ρ c (Proc.devRef .tc main_v97) : S32x128.Idx → EReal) (ix2 j k) = (Inputs.netOfMem m c).pW1 (ix2 k (⟨128 + j.val, by omega⟩ : Fin 160)) :=
  (congrFun (W8_W3 m ρ c main_v97 (by decide) (by decide) (by decide) (by decide) (by decide)) _).trans ((h1_v97_apply (W2 m ρ c) j k).trans (congrFun (W2_W0 m ρ c main_arg22 (by decide) (by decide)) _))

theorem in_14 (j : Fin 128) :
    (W8 m ρ c (Proc.devRef .tc main_v108) : S1x128.Idx → EReal) (ix2 (0 : Fin 1) j) = (Inputs.netOfMem m c).pb1 (ix1 j) :=
  (congrFun (W8_W3 m ρ c main_v108 (by decide) (by decide) (by decide) (by decide) (by decide)) _).trans ((h1_v108_apply (W2 m ρ c) j).trans (congrFun (W2_W0 m ρ c main_arg23 (by decide) (by decide)) _))

theorem in_15 (j : Fin 128) :
    (W8 m ρ c (Proc.devRef .tc main_v109) : S1x128.Idx → EReal) (ix2 (0 : Fin 1) j) = (Inputs.netOfMem m c).pg1 (ix1 j) :=
  (congrFun (W8_W3 m ρ c main_v109 (by decide) (by decide) (by decide) (by decide) (by decide)) _).trans ((h1_v109_apply (W2 m ρ c) j).trans (congrFun (W2_W0 m ρ c main_arg24 (by decide) (by decide)) _))

theorem in_16 (j : Fin 128) :
    (W8 m ρ c (Proc.devRef .tc main_v110) : S1x128.Idx → EReal) (ix2 (0 : Fin 1) j) = (Inputs.netOfMem m c).pbb1 (ix1 j) :=
  (congrFun (W8_W3 m ρ c main_v110 (by decide) (by decide) (by decide) (by decide) (by decide)) _).trans ((h1_v110_apply (W2 m ρ c) j).trans (congrFun (W2_W0 m ρ c main_arg25 (by decide) (by decide)) _))

theorem in_17 (j : Fin 128) :
    (W8 m ρ c (Proc.devRef .tc main_v111) : S1x128.Idx → EReal) (ix2 (0 : Fin 1) j) = (Inputs.netOfMem m c).pm1 (ix1 j) :=
  (congrFun (W8_W3 m ρ c main_v111 (by decide) (by decide) (by decide) (by decide) (by decide)) _).trans ((h1_v111_apply (W2 m ρ c) j).trans (congrFun (W2_W0 m ρ c main_arg26 (by decide) (by decide)) _))

theorem in_18 (j : Fin 128) :
    (W8 m ρ c (Proc.devRef .tc main_v112) : S1x128.Idx → EReal) (ix2 (0 : Fin 1) j) = (Inputs.netOfMem m c).pv1 (ix1 j) :=
  (congrFun (W8_W3 m ρ c main_v112 (by decide) (by decide) (by decide) (by decide) (by decide)) _).trans ((h1_v112_apply (W2 m ρ c) j).trans (congrFun (W2_W0 m ρ c main_arg27 (by decide) (by decide)) _))

theorem in_19 (k : Fin 128) (j : Fin 64) :
    (W8 m ρ c (Proc.devRef .tc main_v99) : S128x64.Idx → EReal) (ix2 k j) = (Inputs.netOfMem m c).pW2 (ix2 j k) :=
  (congrFun (W8_W3 m ρ c main_v99 (by decide) (by decide) (by decide) (by decide) (by decide)) _).trans ((h1_v99_apply (W2 m ρ c) k j).trans (congrFun (W2_W0 m ρ c main_arg28 (by decide) (by decide)) _))

theorem in_20 (j : Fin 64) :
    (W8 m ρ c (Proc.devRef .tc main_v113) : S1x64.Idx → EReal) (ix2 (0 : Fin 1) j) = (Inputs.netOfMem m c).pb2 (ix1 j) :=
  (congrFun (W8_W3 m ρ c main_v113 (by decide) (by decide) (by decide) (by decide) (by decide)) _).trans ((h1_v113_apply (W2 m ρ c) j).trans (congrFun (W2_W0 m ρ c main_arg29 (by decide) (by decide)) _))

theorem in_21 (j : Fin 64) :
    (W8 m ρ c (Proc.devRef .tc main_v114) : S1x64.Idx → EReal) (ix2 (0 : Fin 1) j) = (Inputs.netOfMem m c).pg2 (ix1 j) :=
  (congrFun (W8_W3 m ρ c main_v114 (by decide) (by decide) (by decide) (by decide) (by decide)) _).trans ((h1_v114_apply (W2 m ρ c) j).trans (congrFun (W2_W0 m ρ c main_arg30 (by decide) (by decide)) _))

theorem in_22 (j : Fin 64) :
    (W8 m ρ c (Proc.devRef .tc main_v115) : S1x64.Idx → EReal) (ix2 (0 : Fin 1) j) = (Inputs.netOfMem m c).pbb2 (ix1 j) :=
  (congrFun (W8_W3 m ρ c main_v115 (by decide) (by decide) (by decide) (by decide) (by decide)) _).trans ((h1_v115_apply (W2 m ρ c) j).trans (congrFun (W2_W0 m ρ c main_arg31 (by decide) (by decide)) _))

theorem in_23 (j : Fin 64) :
    (W8 m ρ c (Proc.devRef .tc main_v116) : S1x64.Idx → EReal) (ix2 (0 : Fin 1) j) = (Inputs.netOfMem m c).pm2 (ix1 j) :=
  (congrFun (W8_W3 m ρ c main_v116 (by decide) (by decide) (by decide) (by decide) (by decide)) _).trans ((h1_v116_apply (W2 m ρ c) j).trans (congrFun (W2_W0 m ρ c main_arg32 (by decide) (by decide)) _))

theorem in_24 (j : Fin 64) :
    (W8 m ρ c (Proc.devRef .tc main_v117) : S1x64.Idx → EReal) (ix2 (0 : Fin 1) j) = (Inputs.netOfMem m c).pv2 (ix1 j) :=
  (congrFun (W8_W3 m ρ c main_v117 (by decide) (by decide) (by decide) (by decide) (by decide)) _).trans ((h1_v117_apply (W2 m ρ c) j).trans (congrFun (W2_W0 m ρ c main_arg33 (by decide) (by decide)) _))

theorem in_25 (k : Fin 64) :
    (W8 m ρ c (Proc.devRef .tc main_v101) : S64x1.Idx → EReal) (ix2 k (0 : Fin 1)) = (Inputs.netOfMem m c).pW3 (ix2 (0 : Fin 1) k) :=
  (congrFun (W8_W3 m ρ c main_v101 (by decide) (by decide) (by decide) (by decide) (by decide)) _).trans ((h1_v101_apply (W2 m ρ c) k 0).trans (congrFun (W2_W0 m ρ c main_arg34 (by decide) (by decide)) _))

theorem in_26 :
    (W8 m ρ c (Proc.devRef .tc main_v118) : S1x1.Idx → EReal) (ix2 (0 : Fin 1) (0 : Fin 1)) = (Inputs.netOfMem m c).pb3 (ix1 (0 : Fin 1)) :=
  (congrFun (W8_W3 m ρ c main_v118 (by decide) (by decide) (by decide) (by decide) (by decide)) _).trans ((h1_v118_apply (W2 m ρ c) 0).trans (congrFun (W2_W0 m ρ c main_arg35 (by decide) (by decide)) _))

set_option maxHeartbeats 4000000 in
/-- THE SCORES: entry `p` of the kernel's result is the specification's score of candidate edge `p`, from whatever node
    embedding `Z` the host left before the gathers. -/
theorem score_apply (Z : Fin 100000 → Fin 64 → EReal)
    (hZ : ∀ i j, (W3 m ρ c (Proc.devRef .tc main_v65) : Cert.Sage.Mat 100000 64) (ValueIdx.ix2 i j) = Z i j)
    (p : Fin 1000000) :
    (W10 m ρ c (Proc.devRef .tc main_v123) : Cert.Sage.Vc 1000000) (ValueIdx.ix1 p)
      = Cert.Sage.scoreK (Inputs.netOfMem m c) (Inputs.graphOfMem m ρ c) Z p := by
  have hA : (W9 m ρ c (Proc.devRef .tc main_v122) : S1007616.Idx → EReal) = (dat1 (V8 m ρ) c).arrAt 27 cfg1.N :=
    W9_arr m ρ c 27
  refine (h2_v123_apply (W9 m ρ c) p).trans ((congrFun hA _).trans ((arr27_apply (V8 m ρ) c (padRow p)).trans ?_))
  rw [scoreK_eq]
  unfold G
  refine scoreFn_congr ?_ ?_ ?_ ?_ ?_ ?_ ?_ ?_ ?_ ?_ ?_ ?_ ?_ ?_ ?_ ?_ ?_ ?_ ?_ ?_ ?_ ?_ ?_ ?_ ?_ ?_ ?_
  · exact fun j => in_0 m ρ c Z hZ p j
  · exact fun j => in_1 m ρ c Z hZ p j
  · exact fun k => in_2 m ρ c p k
  · exact fun a b => in_3 m ρ c a b
  · exact fun a => in_4 m ρ c a
  · exact fun a => in_5 m ρ c a
  · exact fun a => in_6 m ρ c a
  · exact fun a => in_7 m ρ c a
  · exact fun a => in_8 m ρ c a
  · exact fun a b => in_9 m ρ c a b
  · exact fun a => in_10 m ρ c a
  · exact fun a b => in_11 m ρ c a b
  · exact fun a b => in_12 m ρ c a b
  · exact fun a b => in_13 m ρ c a b
  · exact fun a => in_14 m ρ c a
  · exact fun a => in_15 m ρ c a
  · exact fun a => in_16 m ρ c a
  · exact fun a => in_17 m ρ c a
  · exact fun a => in_18 m ρ c a
  · exact fun a b => in_19 m ρ c a b
  · exact fun a => in_20 m ρ c a
  · exact fun a => in_21 m ρ c a
  · exact fun a => in_22 m ρ c a
  · exact fun a => in_23 m ρ c a
  · exact fun a => in_24 m ρ c a
  · exact fun a => in_25 m ρ c a
  · exact in_26 m ρ c

end Run

end Cert.KernelIdeal.ScoreValue

end
-- ==== Proof.KernelValue.lean ====
/-
  The idealized kernel's result, entry by entry.

  The result buffer at the run's last boundary holds, at candidate edge `p`, the score the kernel's arrangement of the
  predictor gives it: the second region scores the embedding the host operations between the regions assemble, and
  those assemble it from the first region's two per-node products.
-/
import proofs.«156470_j39548058862205_2_alg».proof.Proof.KernelNodes
import proofs.«156470_j39548058862205_2_alg».proof.Proof.KernelEmbed
import proofs.«156470_j39548058862205_2_alg».proof.Proof.KernelScore

noncomputable section

namespace Cert.KernelIdeal.OutValue

open Cert.KernelIdeal Cert.KernelIdeal.Gen Cert.KernelIdeal.GenP Idealize.ShloMosaic Idealize.ShloMosaic.TcCoe Idealize.SL.Sem
open Idealize.ShloMosaic.ValueIdx Cert.Sage

variable (m : (ℓ : Loc nD τ sig) → Buf (Elt Ideal) ℓ) (ρ : Dev nD → PrngReg) (c : Dev nD)

/-- THE KERNEL'S RESULT at candidate edge `p`. -/
theorem result_apply (p : Fin 1000000) :
    (W10 m ρ c (Proc.devRef .tc main_v123) : Vc 1000000) (ix1 p)
      = outK (Inputs.netOfMem m c) (Inputs.graphOfMem m ρ c) p :=
  ScoreValue.score_apply m ρ c (zK (Inputs.netOfMem m c) (Inputs.graphOfMem m ρ c))
    (fun i j => EmbedValue.z_apply m ρ c (NodeValue.hl2_apply m ρ c) (NodeValue.hr2_apply m ρ c) i j) p

end Cert.KernelIdeal.OutValue

end
-- ==== Proof.RefValue.lean ====
/-
  The reference program read stage by stage as the link predictor's `R` arrangement.

  The reference computes, in order: the mean of the neighbours' feature rows (a row gather by the source words, a row
  scatter-add by the destination words into zeros, a division by the edge count floored at one); the first layer's
  hidden features (two linear maps, a bias, batch norm with the scale `g / √(v + ε)`, a ReLU); the same mean of the
  hidden features followed by the second layer's two linear maps and bias, which is the node embedding; for each
  candidate edge the embeddings of its two end nodes (two row gathers), a two-layer network of the edge's own
  features, the 160-wide concatenation of the three, and three more layers down to one score.

  Every stage is read at explicit coordinates and identified with the corresponding function of `Cert.Sage`.  The
  program recomputes the index columns and the edge count for the second aggregation; those copies are the same
  functions of the edge array, by unfolding.
-/
import proofs.«156470_j39548058862205_2_alg».proof.Proof.Gen.ReferenceIdeal.Read
import proofs.«156470_j39548058862205_2_alg».proof.Proof.SageSpec
import proofs.«156470_j39548058862205_2_alg».proof.Proof.LibGatherRows
import proofs.«156470_j39548058862205_2_alg».proof.Proof.LibScatterRows
import Idealize.ShloMosaic.Lib.IdealHost

open scoped BigOperators

noncomputable section

namespace Cert.ReferenceIdeal.RefValue

open Cert.ReferenceIdeal Idealize.ShloMosaic Idealize.ShloMosaic.ValueIdx Cert.Sage Cert.LibGatherRows Cert.LibScatterRows

/-- Two rank-1 indices are equal when their coordinates are. -/
macro "idx_eq1" : tactic =>
  `(tactic| (funext a; refine Fin.ext ?_; match a with | ⟨0, _⟩ => rfl))

/-- Two rank-2 indices are equal when their coordinates are. -/
macro "idx_eq2" : tactic =>
  `(tactic| (funext a; refine Fin.ext ?_; match a with | ⟨0, _⟩ => rfl | ⟨1, _⟩ => rfl))

/-- Close a goal that is an equation of two terms equal by unfolding, if rewriting has not closed it already. -/
macro "close_rfl" : tactic => `(tactic| first | done | rfl)

variable
  (x0 : (⟨S100000x128, .f32⟩ : BufTy).Contents (Elt Ideal))
  (x1 : (⟨S2x1600000, .i32⟩ : BufTy).Contents (Elt Ideal))
  (x2 : (⟨S2x1000000, .i32⟩ : BufTy).Contents (Elt Ideal))
  (x3 : (⟨S1000000x32, .f32⟩ : BufTy).Contents (Elt Ideal))
  (x4 : (⟨S128x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S128, .f32⟩ : BufTy).Contents (Elt Ideal))
  (x9 : (⟨S128, .f32⟩ : BufTy).Contents (Elt Ideal))
  (x10 : (⟨S128, .f32⟩ : BufTy).Contents (Elt Ideal))
  (x11 : (⟨S64x128, .f32⟩ : BufTy).Contents (Elt Ideal))
  (x12 : (⟨S64, .f32⟩ : BufTy).Contents (Elt Ideal))
  (x13 : (⟨S64x128, .f32⟩ : BufTy).Contents (Elt Ideal))
  (x14 : (⟨S64x32, .f32⟩ : BufTy).Contents (Elt Ideal))
  (x15 : (⟨S64, .f32⟩ : BufTy).Contents (Elt Ideal))
  (x16 : (⟨S64, .f32⟩ : BufTy).Contents (Elt Ideal))
  (x17 : (⟨S64, .f32⟩ : BufTy).Contents (Elt Ideal))
  (x18 : (⟨S64, .f32⟩ : BufTy).Contents (Elt Ideal))
  (x19 : (⟨S64, .f32⟩ : BufTy).Contents (Elt Ideal))
  (x20 : (⟨S32x64, .f32⟩ : BufTy).Contents (Elt Ideal))
  (x21 : (⟨S32, .f32⟩ : BufTy).Contents (Elt Ideal))
  (x22 : (⟨S128x160, .f32⟩ : BufTy).Contents (Elt Ideal))
  (x23 : (⟨S128, .f32⟩ : BufTy).Contents (Elt Ideal))
  (x24 : (⟨S128, .f32⟩ : BufTy).Contents (Elt Ideal))
  (x25 : (⟨S128, .f32⟩ : BufTy).Contents (Elt Ideal))
  (x26 : (⟨S128, .f32⟩ : BufTy).Contents (Elt Ideal))
  (x27 : (⟨S128, .f32⟩ : BufTy).Contents (Elt Ideal))
  (x28 : (⟨S64x128, .f32⟩ : BufTy).Contents (Elt Ideal))
  (x29 : (⟨S64, .f32⟩ : BufTy).Contents (Elt Ideal))
  (x30 : (⟨S64, .f32⟩ : BufTy).Contents (Elt Ideal))
  (x31 : (⟨S64, .f32⟩ : BufTy).Contents (Elt Ideal))
  (x32 : (⟨S64, .f32⟩ : BufTy).Contents (Elt Ideal))
  (x33 : (⟨S64, .f32⟩ : BufTy).Contents (Elt Ideal))
  (x34 : (⟨S1x64, .f32⟩ : BufTy).Contents (Elt Ideal))
  (x35 : (⟨S1, .f32⟩ : BufTy).Contents (Elt Ideal))

/-- The graph the reference reads out of its two index arrays: the edge count floored at one, the message edges'
    source words (a negative word moved up by the number of nodes) and destination words as columns, and the
    candidate edges' two end-node words likewise. -/
def graphOf : Cert.Sage.Graph where
  cnt := Read.val_main_v19 (F := Ideal) x1
  isrc := Read.val_main_v9 (F := Ideal) x1
  idst := Read.val_main_v12 (F := Ideal) x1
  ip0 := Read.val_main_v79 (F := Ideal) x2
  ip1 := Read.val_main_v88 (F := Ideal) x2

/-- The network's inputs and parameters: the 34 float arguments in argument order. -/
def netOf : Cert.Sage.Net where
    X := x0
    EF := x3
    Wl1 := x4
    bl1 := x5
    Wr1 := x6
    g1 := x7
    b1 := x8
    m1 := x9
    v1 := x10
    Wl2 := x11
    bl2 := x12
    Wr2 := x13
    eW1 := x14
    eb1 := x15
    eg := x16
    ebb := x17
    em := x18
    ev := x19
    eW2 := x20
    eb2 := x21
    pW1 := x22
    pb1 := x23
    pg1 := x24
    pbb1 := x25
    pm1 := x26
    pv1 := x27
    pW2 := x28
    pb2 := x29
    pg2 := x30
    pbb2 := x31
    pm2 := x32
    pv2 := x33
    pW3 := x34
    pb3 := x35

/-! ### The index columns and the edge count are computed twice: the copies are equal -/

theorem src_again : Read.val_main_v50 (F := Ideal) x1 = Read.val_main_v9 (F := Ideal) x1 := rfl
theorem dst_again16 : Read.val_main_v16 (F := Ideal) x1 = Read.val_main_v12 (F := Ideal) x1 := rfl
theorem dst_again53 : Read.val_main_v53 (F := Ideal) x1 = Read.val_main_v12 (F := Ideal) x1 := rfl
theorem dst_again57 : Read.val_main_v57 (F := Ideal) x1 = Read.val_main_v12 (F := Ideal) x1 := rfl
theorem cnt_again : Read.val_main_v60 (F := Ideal) x1 = Read.val_main_v19 (F := Ideal) x1 := rfl

open Cert.ReferenceIdeal.Facts₀

/-! ### The graph's fields and the stages that are a scatter or a gather, as equations -/

theorem g_cnt : (graphOf x1 x2).cnt = Read.val_main_v19 (F := Ideal) x1 := by unfold graphOf; close_rfl
theorem g_isrc : (graphOf x1 x2).isrc = Read.val_main_v9 (F := Ideal) x1 := by unfold graphOf; close_rfl
theorem g_idst : (graphOf x1 x2).idst = Read.val_main_v12 (F := Ideal) x1 := by unfold graphOf; close_rfl

theorem v17_def : Read.val_main_v17 (F := Ideal) x1
    = Host.scatterAdd (F := Ideal) (φ := .f32) scatter_S100000_S1600000x1_S1600000_n_0_0_1 (Read.val_main_v15 (F := Ideal)) (Read.val_main_v16 (F := Ideal) x1) (Read.val_main_v14 (F := Ideal)) := rfl
theorem v13_def : Read.val_main_v13 (F := Ideal) x0 x1
    = Host.scatterAdd (F := Ideal) (φ := .f32) scatter_S100000x128_S1600000x1_S1600000x128_1_0_0_1 (Read.val_main_v11 (F := Ideal)) (Read.val_main_v12 (F := Ideal) x1) (Read.val_main_v10 (F := Ideal) x0 x1) := rfl
theorem v10_def : Read.val_main_v10 (F := Ideal) x0 x1 = Host.gather gather_S100000x128_S1600000x1_S1600000x128_1_0_n_n_0_1_1128 x0 (Read.val_main_v9 (F := Ideal) x1) := rfl
theorem v54_def : Read.val_main_v54 (F := Ideal) x0 x1 x4 x5 x6 x7 x8 x9 x10
    = Host.scatterAdd (F := Ideal) (φ := .f32) scatter_S100000x128_S1600000x1_S1600000x128_1_0_0_1 (Read.val_main_v52 (F := Ideal)) (Read.val_main_v53 (F := Ideal) x1) (Read.val_main_v51 (F := Ideal) x0 x1 x4 x5 x6 x7 x8 x9 x10) := rfl
theorem v51_def : Read.val_main_v51 (F := Ideal) x0 x1 x4 x5 x6 x7 x8 x9 x10 = Host.gather gather_S100000x128_S1600000x1_S1600000x128_1_0_n_n_0_1_1128 (Read.val_main_v44 (F := Ideal) x0 x1 x4 x5 x6 x7 x8 x9 x10) (Read.val_main_v50 (F := Ideal) x1) := rfl
theorem v80_def : Read.val_main_v80 (F := Ideal) x0 x1 x2 x4 x5 x6 x7 x8 x9 x10 x11 x12 x13 = Host.gather gather_S100000x64_S1000000x1_S1000000x64_1_0_n_n_0_1_164 (Read.val_main_v71 (F := Ideal) x0 x1 x4 x5 x6 x7 x8 x9 x10 x11 x12 x13) (Read.val_main_v79 (F := Ideal) x2) := rfl
theorem v89_def : Read.val_main_v89 (F := Ideal) x0 x1 x2 x4 x5 x6 x7 x8 x9 x10 x11 x12 x13 = Host.gather gather_S100000x64_S1000000x1_S1000000x64_1_0_n_n_0_1_164 (Read.val_main_v71 (F := Ideal) x0 x1 x4 x5 x6 x7 x8 x9 x10 x11 x12 x13) (Read.val_main_v88 (F := Ideal) x2) := rfl

/-! ### The float literals -/

theorem zero_lit : (FloatOps.ofBits (F := Ideal) .f32 0x00000000#32 : EReal) = 0 := Ideal.ofBits_zero_f32
theorem one_lit : (FloatOps.ofBits (F := Ideal) .f32 0x3F800000#32 : EReal) = 1 := Ideal.ofBits_one_f32
theorem eps_lit : (FloatOps.ofBits (F := Ideal) .f32 0x3727C5AC#32 : EReal) = eps := rfl

/-! ### The edge count is a positive real

The count of node `i` is the larger of one and a scatter-add of ones into zeros: zero plus one for every message
edge that lands on `i`, whichever edges those are. -/

/-- The count scatter at a node: the operand's element plus the updates that land there. -/
theorem count_at (z : FVec Ideal S100000 .f32) (w : IVec S1600000x1 32) (u : FVec Ideal S1600000 .f32) (j : S100000.Idx) :
    ∃ S : Finset S1600000.Idx, Host.scatterAdd (F := Ideal) scatter_S100000_S1600000x1_S1600000_n_0_0_1 z w u j = z j + ∑ k ∈ S, u k := by
  refine ⟨?_, ?_⟩
  rotate_left
  · unfold Host.scatterAdd
    rw [Ideal.hostScatterAdd_def]
    rfl

theorem cnt_pos (i : Fin 100000) :
    ∃ c : ℝ, 0 < c ∧ Read.val_main_v19 (F := Ideal) x1 (ix1 i) = (c : EReal) := by
  have h14 : ∀ j, Read.val_main_v14 (F := Ideal) j = (1 : EReal) := fun j => by
    rw [Read.val_main_v14_apply, Read.val_main_cst_1_apply]; exact one_lit
  have h15 : Read.val_main_v15 (F := Ideal) (ix1 i) = (0 : EReal) := by
    rw [Read.val_main_v15_apply, Read.val_main_cst_2_apply]; exact zero_lit
  have h18 : Read.val_main_v18 (F := Ideal) (ix1 i) = (1 : EReal) := by
    rw [Read.val_main_v18_apply, Read.val_main_cst_3_apply]; exact one_lit
  obtain ⟨S, hS⟩ := count_at (Read.val_main_v15 (F := Ideal)) (Read.val_main_v16 (F := Ideal) x1) (Read.val_main_v14 (F := Ideal)) (ix1 i)
  rw [Read.val_main_v19_apply, h18, Ideal.maximumf_def, v17_def, hS, h15, Finset.sum_congr rfl fun k _ => h14 k]
  exact count_pos_real S

/-! ### The program's gather and scatter records are the row gather and the row scatter at the literal extents -/

theorem gatherX_dims : gather_S100000x128_S1600000x1_S1600000x128_1_0_n_n_0_1_1128
    = rowsDims 100000 1600000 128 gather_S100000x128_S1600000x1_S1600000x128_1_0_n_n_0_1_1128_wf := rfl
theorem gatherZ_dims : gather_S100000x64_S1000000x1_S1000000x64_1_0_n_n_0_1_164
    = rowsDims 100000 1000000 64 gather_S100000x64_S1000000x1_S1000000x64_1_0_n_n_0_1_164_wf := rfl
theorem scatterX_dims : scatter_S100000x128_S1600000x1_S1600000x128_1_0_0_1
    = segDims 100000 1600000 128 scatter_S100000x128_S1600000x1_S1600000x128_1_0_0_1_wf := rfl

/-- A gather of the rows of a 128-column node table by a column of words, at edge `e` and column `d`: the table at
    the node the word names, same column. -/
theorem gatherX_at (T : FVec Ideal S100000x128 .f32) (w : IVec S1600000x1 32)
    (e : Fin 1600000) (d : Fin 128) :
    Host.gather gather_S100000x128_S1600000x1_S1600000x128_1_0_n_n_0_1_1128 T w (ix2 e d)
      = T (ix2 (clampRow (w (ix2 e 0))) d) := by
  rw [gatherX_dims]
  exact gather_rows_apply (by norm_num) _ T w e d

/-- The same for the 64-column embedding table and the candidate edges. -/
theorem gatherZ_at (T : FVec Ideal S100000x64 .f32) (w : IVec S1000000x1 32)
    (p : Fin 1000000) (j : Fin 64) :
    Host.gather gather_S100000x64_S1000000x1_S1000000x64_1_0_n_n_0_1_164 T w (ix2 p j)
      = T (ix2 (clampRow (w (ix2 p 0))) j) := by
  rw [gatherZ_dims]
  exact gather_rows_apply (by norm_num) _ T w p j

/-- A scatter-add of 128-column edge rows into a node table by a column of destination words, at node `i` and
    column `d`: the table's element plus the rows of the edges that land on `i`. -/
theorem scatterX_at (T : FVec Ideal S100000x128 .f32) (w : IVec S1600000x1 32)
    (U : FVec Ideal S1600000x128 .f32) (i : Fin 100000) (d : Fin 128) :
    Host.scatterAdd (F := Ideal) scatter_S100000x128_S1600000x1_S1600000x128_1_0_0_1 T w U (ix2 i d)
      = T (ix2 i d) + ∑ e ∈ Finset.univ.filter (fun e : Fin 1600000 => rowOf? 100000 (w (ix2 e 0)) = some i), U (ix2 e d) := by
  unfold Host.scatterAdd
  rw [Ideal.hostScatterAdd_def, scatterX_dims]
  exact scatterAdd_rows_apply _ w T U i d

/-- The mean over the incoming edges of a graph, as the program computes it: gather by source, scatter-add by
    destination into a table of zeros, divide by the count. -/
theorem mean_at (G : Graph) (Y z : FVec Ideal S100000x128 .f32) (hz : ∀ j, z j = (0 : EReal))
    (i : Fin 100000) (d : Fin 128) :
    Ideal.div (Host.scatterAdd (F := Ideal) scatter_S100000x128_S1600000x1_S1600000x128_1_0_0_1 z G.idst (Host.gather gather_S100000x128_S1600000x1_S1600000x128_1_0_n_n_0_1_1128 Y G.isrc) (ix2 i d)) (G.cnt (ix1 i))
      = meanAgg G (fun i d => Y (ix2 i d)) i d := by
  rw [scatterX_at, hz, Finset.sum_congr rfl fun e _ => gatherX_at Y G.isrc e d]
  rfl

/-- The all-zero tables the two aggregations start from. -/
theorem zeros11 (j : S100000x128.Idx) : Read.val_main_v11 (F := Ideal) j = (0 : EReal) := by
  rw [Read.val_main_v11_apply, Read.val_main_cst_apply]; exact zero_lit
theorem zeros52 (j : S100000x128.Idx) : Read.val_main_v52 (F := Ideal) j = (0 : EReal) := by
  rw [Read.val_main_v52_apply, Read.val_main_cst_7_apply]; exact zero_lit

/-- The count column broadcast along the features. -/
theorem cntcol21_at (i : Fin 100000) (d : Fin 128) :
    Read.val_main_v21 (F := Ideal) x1 (ix2 i d) = Read.val_main_v19 (F := Ideal) x1 (ix1 i) := by
  rw [Read.val_main_v21_apply, Read.val_main_v20_apply]
  exact congrArg (Read.val_main_v19 (F := Ideal) x1) (by idx_eq1)
theorem cntcol62_at (i : Fin 100000) (d : Fin 128) :
    Read.val_main_v62 (F := Ideal) x1 (ix2 i d) = Read.val_main_v19 (F := Ideal) x1 (ix1 i) := by
  rw [Read.val_main_v62_apply, Read.val_main_v61_apply, cnt_again]
  exact congrArg (Read.val_main_v19 (F := Ideal) x1) (by idx_eq1)

/-! ### A two-piece concatenation along the columns, read at a column -/

/-- At a column of the first piece. -/
theorem concat_cols_left {R A B C : Nat} (a : (⟨2, ![R, A]⟩ : Shape).Idx → EReal) (b : (⟨2, ![R, B]⟩ : Shape).Idx → EReal)
    (h : Shape.Concatenates [⟨2, ![R, A]⟩, ⟨2, ![R, B]⟩] ⟨2, ![R, C]⟩ 1) (p : Fin R) (c : Fin C) (hc : c.val < A) :
    concatenate (⟨2, ![R, C]⟩ : Shape) 1 [⟨⟨2, ![R, A]⟩, a⟩, ⟨⟨2, ![R, B]⟩, b⟩] h (ix2 p c) = a (ix2 p ⟨c.val, hc⟩) := by
  refine concatenate_pair_apply_left (1 : Fin 2) a b h (ix2 p c) rfl (ix2 p ⟨c.val, hc⟩) ?_
  intro d
  match d with
  | ⟨0, _⟩ => rfl
  | ⟨1, _⟩ => rfl

/-- At a column of the second piece: the column less the first piece's width. -/
theorem concat_cols_right {R A B C : Nat} (a : (⟨2, ![R, A]⟩ : Shape).Idx → EReal) (b : (⟨2, ![R, B]⟩ : Shape).Idx → EReal)
    (h : Shape.Concatenates [⟨2, ![R, A]⟩, ⟨2, ![R, B]⟩] ⟨2, ![R, C]⟩ 1) (hC : C = A + B) (p : Fin R) (c : Fin C)
    (hc : A ≤ c.val) :
    concatenate (⟨2, ![R, C]⟩ : Shape) 1 [⟨⟨2, ![R, A]⟩, a⟩, ⟨⟨2, ![R, B]⟩, b⟩] h (ix2 p c)
      = b (ix2 p ⟨c.val - A, by have := c.isLt; omega⟩) := by
  refine concatenate_pair_apply_right (1 : Fin 2) a b h (ix2 p c) rfl rfl (ix2 p ⟨c.val - A, by have := c.isLt; omega⟩) ?_ ?_
  · intro d hd
    match d with
    | ⟨0, _⟩ => rfl
    | ⟨1, _⟩ => exact absurd rfl hd
  · show (c.val - A) + A = c.val
    omega

/-! ### Bias and batch-norm vectors broadcast along the rows, the variance offsets, the ReLU zeros -/

theorem bl1_at (i : Fin 100000) (k : Fin 128) : Read.val_main_v26 (F := Ideal) x5 (ix2 i k) = x5 (ix1 k) := by
  rw [Read.val_main_v26_apply, Read.val_main_v25_apply]
  exact congrArg x5 (by idx_eq1)

theorem m1_at (i : Fin 100000) (k : Fin 128) : Read.val_main_v32 (F := Ideal) x9 (ix2 i k) = x9 (ix1 k) := by
  rw [Read.val_main_v32_apply, Read.val_main_v31_apply]
  exact congrArg x9 (by idx_eq1)

theorem b1_at (i : Fin 100000) (k : Fin 128) : Read.val_main_v42 (F := Ideal) x8 (ix2 i k) = x8 (ix1 k) := by
  rw [Read.val_main_v42_apply, Read.val_main_v41_apply]
  exact congrArg x8 (by idx_eq1)

theorem bl2_at (i : Fin 100000) (k : Fin 64) : Read.val_main_v67 (F := Ideal) x12 (ix2 i k) = x12 (ix1 k) := by
  rw [Read.val_main_v67_apply, Read.val_main_v66_apply]
  exact congrArg x12 (by idx_eq1)

theorem eb1_at (i : Fin 1000000) (k : Fin 64) : Read.val_main_v94 (F := Ideal) x15 (ix2 i k) = x15 (ix1 k) := by
  rw [Read.val_main_v94_apply, Read.val_main_v93_apply]
  exact congrArg x15 (by idx_eq1)

theorem em_at (i : Fin 1000000) (k : Fin 64) : Read.val_main_v97 (F := Ideal) x18 (ix2 i k) = x18 (ix1 k) := by
  rw [Read.val_main_v97_apply, Read.val_main_v96_apply]
  exact congrArg x18 (by idx_eq1)

theorem ebb_at (i : Fin 1000000) (k : Fin 64) : Read.val_main_v107 (F := Ideal) x17 (ix2 i k) = x17 (ix1 k) := by
  rw [Read.val_main_v107_apply, Read.val_main_v106_apply]
  exact congrArg x17 (by idx_eq1)

theorem eb2_at (i : Fin 1000000) (k : Fin 32) : Read.val_main_v113 (F := Ideal) x21 (ix2 i k) = x21 (ix1 k) := by
  rw [Read.val_main_v113_apply, Read.val_main_v112_apply]
  exact congrArg x21 (by idx_eq1)

theorem pb1_at (i : Fin 1000000) (k : Fin 128) : Read.val_main_v119 (F := Ideal) x23 (ix2 i k) = x23 (ix1 k) := by
  rw [Read.val_main_v119_apply, Read.val_main_v118_apply]
  exact congrArg x23 (by idx_eq1)

theorem pm1_at (i : Fin 1000000) (k : Fin 128) : Read.val_main_v122 (F := Ideal) x26 (ix2 i k) = x26 (ix1 k) := by
  rw [Read.val_main_v122_apply, Read.val_main_v121_apply]
  exact congrArg x26 (by idx_eq1)

theorem pbb1_at (i : Fin 1000000) (k : Fin 128) : Read.val_main_v132 (F := Ideal) x25 (ix2 i k) = x25 (ix1 k) := by
  rw [Read.val_main_v132_apply, Read.val_main_v131_apply]
  exact congrArg x25 (by idx_eq1)

theorem pb2_at (i : Fin 1000000) (k : Fin 64) : Read.val_main_v138 (F := Ideal) x29 (ix2 i k) = x29 (ix1 k) := by
  rw [Read.val_main_v138_apply, Read.val_main_v137_apply]
  exact congrArg x29 (by idx_eq1)

theorem pm2_at (i : Fin 1000000) (k : Fin 64) : Read.val_main_v141 (F := Ideal) x32 (ix2 i k) = x32 (ix1 k) := by
  rw [Read.val_main_v141_apply, Read.val_main_v140_apply]
  exact congrArg x32 (by idx_eq1)

theorem pbb2_at (i : Fin 1000000) (k : Fin 64) : Read.val_main_v151 (F := Ideal) x31 (ix2 i k) = x31 (ix1 k) := by
  rw [Read.val_main_v151_apply, Read.val_main_v150_apply]
  exact congrArg x31 (by idx_eq1)

theorem pb3_at (p : Fin 1000000) : Read.val_main_v157 (F := Ideal) x35 (ix2 p (0 : Fin 1)) = x35 (ix1 (0 : Fin 1)) := by
  rw [Read.val_main_v157_apply, Read.val_main_v156_apply]
  exact congrArg x35 (by idx_eq1)

theorem eps34 (j : S128.Idx) : Read.val_main_v34 (F := Ideal) j = eps := by
  rw [Read.val_main_v34_apply, Read.val_main_cst_4_apply]; exact eps_lit

theorem eps99 (j : S64.Idx) : Read.val_main_v99 (F := Ideal) j = eps := by
  rw [Read.val_main_v99_apply, Read.val_main_cst_15_apply]; exact eps_lit

theorem eps124 (j : S128.Idx) : Read.val_main_v124 (F := Ideal) j = eps := by
  rw [Read.val_main_v124_apply, Read.val_main_cst_16_apply]; exact eps_lit

theorem eps143 (j : S64.Idx) : Read.val_main_v143 (F := Ideal) j = eps := by
  rw [Read.val_main_v143_apply, Read.val_main_cst_17_apply]; exact eps_lit

theorem scale1_at (i : Fin 100000) (k : Fin 128) :
    Read.val_main_v39 (F := Ideal) x7 x10 (ix2 i k) = Ideal.div (x7 (ix1 k)) (Ideal.sqrt (x10 (ix1 k) + eps)) := by
  rw [Read.val_main_v39_apply, Read.val_main_v38_apply, Read.val_main_v37_apply, Read.val_main_v36_apply,
    Read.val_main_v35_apply, eps34,
    show Read.idx_main_v38 (Read.idx_main_v39 (ix2 i k)) = ix1 k from by idx_eq1]
  close_rfl

theorem scaleE_at (i : Fin 1000000) (k : Fin 64) :
    Read.val_main_v104 (F := Ideal) x16 x19 (ix2 i k) = Ideal.div (x16 (ix1 k)) (Ideal.sqrt (x19 (ix1 k) + eps)) := by
  rw [Read.val_main_v104_apply, Read.val_main_v103_apply, Read.val_main_v102_apply, Read.val_main_v101_apply,
    Read.val_main_v100_apply, eps99,
    show Read.idx_main_v103 (Read.idx_main_v104 (ix2 i k)) = ix1 k from by idx_eq1]
  close_rfl

theorem scaleP1_at (i : Fin 1000000) (k : Fin 128) :
    Read.val_main_v129 (F := Ideal) x24 x27 (ix2 i k) = Ideal.div (x24 (ix1 k)) (Ideal.sqrt (x27 (ix1 k) + eps)) := by
  rw [Read.val_main_v129_apply, Read.val_main_v128_apply, Read.val_main_v127_apply, Read.val_main_v126_apply,
    Read.val_main_v125_apply, eps124,
    show Read.idx_main_v128 (Read.idx_main_v129 (ix2 i k)) = ix1 k from by idx_eq1]
  close_rfl

theorem scaleP2_at (i : Fin 1000000) (k : Fin 64) :
    Read.val_main_v148 (F := Ideal) x30 x33 (ix2 i k) = Ideal.div (x30 (ix1 k)) (Ideal.sqrt (x33 (ix1 k) + eps)) := by
  rw [Read.val_main_v148_apply, Read.val_main_v147_apply, Read.val_main_v146_apply, Read.val_main_v145_apply,
    Read.val_main_v144_apply, eps143,
    show Read.idx_main_v147 (Read.idx_main_v148 (ix2 i k)) = ix1 k from by idx_eq1]
  close_rfl

theorem relu0 (j : S100000x128.Idx) : Read.val_main_call0_v0 (F := Ideal) j = (0 : EReal) := by
  rw [Read.val_main_call0_v0_apply, Read.val_main_call0_cst_apply]; exact zero_lit

theorem relu1 (j : S1000000x64.Idx) : Read.val_main_call1_v0 (F := Ideal) j = (0 : EReal) := by
  rw [Read.val_main_call1_v0_apply, Read.val_main_call1_cst_apply]; exact zero_lit

theorem relu2 (j : S1000000x128.Idx) : Read.val_main_call2_v0 (F := Ideal) j = (0 : EReal) := by
  rw [Read.val_main_call2_v0_apply, Read.val_main_call2_cst_apply]; exact zero_lit

theorem relu3 (j : S1000000x64.Idx) : Read.val_main_call3_v0 (F := Ideal) j = (0 : EReal) := by
  rw [Read.val_main_call3_v0_apply, Read.val_main_call3_cst_apply]; exact zero_lit

/-! ### The products against a transposed weight: a row of the left operand against a row of the weight -/

theorem dot24_at (i : Fin 100000) (k : Fin 128) :
    Read.val_main_v24 (F := Ideal) x0 x1 x4 (ix2 i k) = ∑ d : Fin 128, (Read.val_main_v22 (F := Ideal) x0 x1) (ix2 i d) * x4 (ix2 k d) := by
  rw [Read.val_main_v24_apply]
  refine Finset.sum_congr rfl fun d _ => ?_
  rw [Read.val_main_v23_apply, show Read.lidx_main_v24 (ix2 i k) d = ix2 i d from by idx_eq2,
    show Read.idx_main_v23 (Read.ridx_main_v24 (ix2 i k) d) = ix2 k d from by idx_eq2]

theorem dot29_at (i : Fin 100000) (k : Fin 128) :
    Read.val_main_v29 (F := Ideal) x0 x6 (ix2 i k) = ∑ d : Fin 128, x0 (ix2 i d) * x6 (ix2 k d) := by
  rw [Read.val_main_v29_apply]
  refine Finset.sum_congr rfl fun d _ => ?_
  rw [Read.val_main_v28_apply, show Read.lidx_main_v29 (ix2 i k) d = ix2 i d from by idx_eq2,
    show Read.idx_main_v28 (Read.ridx_main_v29 (ix2 i k) d) = ix2 k d from by idx_eq2]

theorem dot65_at (i : Fin 100000) (k : Fin 64) :
    Read.val_main_v65 (F := Ideal) x0 x1 x4 x5 x6 x7 x8 x9 x10 x11 (ix2 i k) = ∑ d : Fin 128, (Read.val_main_v63 (F := Ideal) x0 x1 x4 x5 x6 x7 x8 x9 x10) (ix2 i d) * x11 (ix2 k d) := by
  rw [Read.val_main_v65_apply]
  refine Finset.sum_congr rfl fun d _ => ?_
  rw [Read.val_main_v64_apply, show Read.lidx_main_v65 (ix2 i k) d = ix2 i d from by idx_eq2,
    show Read.idx_main_v64 (Read.ridx_main_v65 (ix2 i k) d) = ix2 k d from by idx_eq2]

theorem dot70_at (i : Fin 100000) (k : Fin 64) :
    Read.val_main_v70 (F := Ideal) x0 x1 x4 x5 x6 x7 x8 x9 x10 x13 (ix2 i k) = ∑ d : Fin 128, (Read.val_main_v44 (F := Ideal) x0 x1 x4 x5 x6 x7 x8 x9 x10) (ix2 i d) * x13 (ix2 k d) := by
  rw [Read.val_main_v70_apply]
  refine Finset.sum_congr rfl fun d _ => ?_
  rw [Read.val_main_v69_apply, show Read.lidx_main_v70 (ix2 i k) d = ix2 i d from by idx_eq2,
    show Read.idx_main_v69 (Read.ridx_main_v70 (ix2 i k) d) = ix2 k d from by idx_eq2]

theorem dot92_at (i : Fin 1000000) (k : Fin 64) :
    Read.val_main_v92 (F := Ideal) x3 x14 (ix2 i k) = ∑ d : Fin 32, x3 (ix2 i d) * x14 (ix2 k d) := by
  rw [Read.val_main_v92_apply]
  refine Finset.sum_congr rfl fun d _ => ?_
  rw [Read.val_main_v91_apply, show Read.lidx_main_v92 (ix2 i k) d = ix2 i d from by idx_eq2,
    show Read.idx_main_v91 (Read.ridx_main_v92 (ix2 i k) d) = ix2 k d from by idx_eq2]

theorem dot111_at (i : Fin 1000000) (k : Fin 32) :
    Read.val_main_v111 (F := Ideal) x3 x14 x15 x16 x17 x18 x19 x20 (ix2 i k) = ∑ d : Fin 64, (Read.val_main_v109 (F := Ideal) x3 x14 x15 x16 x17 x18 x19) (ix2 i d) * x20 (ix2 k d) := by
  rw [Read.val_main_v111_apply]
  refine Finset.sum_congr rfl fun d _ => ?_
  rw [Read.val_main_v110_apply, show Read.lidx_main_v111 (ix2 i k) d = ix2 i d from by idx_eq2,
    show Read.idx_main_v110 (Read.ridx_main_v111 (ix2 i k) d) = ix2 k d from by idx_eq2]

theorem dot117_at (i : Fin 1000000) (k : Fin 128) :
    Read.val_main_v117 (F := Ideal) x0 x1 x2 x3 x4 x5 x6 x7 x8 x9 x10 x11 x12 x13 x14 x15 x16 x17 x18 x19 x20 x21 x22 (ix2 i k) = ∑ d : Fin 160, (Read.val_main_v115 (F := Ideal) x0 x1 x2 x3 x4 x5 x6 x7 x8 x9 x10 x11 x12 x13 x14 x15 x16 x17 x18 x19 x20 x21) (ix2 i d) * x22 (ix2 k d) := by
  rw [Read.val_main_v117_apply]
  refine Finset.sum_congr rfl fun d _ => ?_
  rw [Read.val_main_v116_apply, show Read.lidx_main_v117 (ix2 i k) d = ix2 i d from by idx_eq2,
    show Read.idx_main_v116 (Read.ridx_main_v117 (ix2 i k) d) = ix2 k d from by idx_eq2]

theorem dot136_at (i : Fin 1000000) (k : Fin 64) :
    Read.val_main_v136 (F := Ideal) x0 x1 x2 x3 x4 x5 x6 x7 x8 x9 x10 x11 x12 x13 x14 x15 x16 x17 x18 x19 x20 x21 x22 x23 x24 x25 x26 x27 x28 (ix2 i k) = ∑ d : Fin 128, (Read.val_main_v134 (F := Ideal) x0 x1 x2 x3 x4 x5 x6 x7 x8 x9 x10 x11 x12 x13 x14 x15 x16 x17 x18 x19 x20 x21 x22 x23 x24 x25 x26 x27) (ix2 i d) * x28 (ix2 k d) := by
  rw [Read.val_main_v136_apply]
  refine Finset.sum_congr rfl fun d _ => ?_
  rw [Read.val_main_v135_apply, show Read.lidx_main_v136 (ix2 i k) d = ix2 i d from by idx_eq2,
    show Read.idx_main_v135 (Read.ridx_main_v136 (ix2 i k) d) = ix2 k d from by idx_eq2]

theorem dot155_at (i : Fin 1000000) (k : Fin 1) :
    Read.val_main_v155 (F := Ideal) x0 x1 x2 x3 x4 x5 x6 x7 x8 x9 x10 x11 x12 x13 x14 x15 x16 x17 x18 x19 x20 x21 x22 x23 x24 x25 x26 x27 x28 x29 x30 x31 x32 x33 x34 (ix2 i k) = ∑ d : Fin 64, (Read.val_main_v153 (F := Ideal) x0 x1 x2 x3 x4 x5 x6 x7 x8 x9 x10 x11 x12 x13 x14 x15 x16 x17 x18 x19 x20 x21 x22 x23 x24 x25 x26 x27 x28 x29 x30 x31 x32 x33) (ix2 i d) * x34 (ix2 k d) := by
  rw [Read.val_main_v155_apply]
  refine Finset.sum_congr rfl fun d _ => ?_
  rw [Read.val_main_v154_apply, show Read.lidx_main_v155 (ix2 i k) d = ix2 i d from by idx_eq2,
    show Read.idx_main_v154 (Read.ridx_main_v155 (ix2 i k) d) = ix2 k d from by idx_eq2]

/-! ### The two concatenations -/

theorem cat90_lo (p : Fin 1000000) (a : Fin 128) (h : a.val < 64) :
    Read.val_main_v90 (F := Ideal) x0 x1 x2 x4 x5 x6 x7 x8 x9 x10 x11 x12 x13 (ix2 p a) = Read.val_main_v80 (F := Ideal) x0 x1 x2 x4 x5 x6 x7 x8 x9 x10 x11 x12 x13 (ix2 p ⟨a.val, h⟩) :=
  concat_cols_left _ _ concatenates_S1000000x64_S1000000x64_S1000000x128_d1 p a h
theorem cat90_hi (p : Fin 1000000) (a : Fin 128) (h : 64 ≤ a.val) :
    Read.val_main_v90 (F := Ideal) x0 x1 x2 x4 x5 x6 x7 x8 x9 x10 x11 x12 x13 (ix2 p a) = Read.val_main_v89 (F := Ideal) x0 x1 x2 x4 x5 x6 x7 x8 x9 x10 x11 x12 x13 (ix2 p ⟨a.val - 64, by have := a.isLt; omega⟩) :=
  concat_cols_right _ _ concatenates_S1000000x64_S1000000x64_S1000000x128_d1 rfl p a h
theorem cat115_lo (p : Fin 1000000) (a : Fin 160) (h : a.val < 128) :
    Read.val_main_v115 (F := Ideal) x0 x1 x2 x3 x4 x5 x6 x7 x8 x9 x10 x11 x12 x13 x14 x15 x16 x17 x18 x19 x20 x21 (ix2 p a) = Read.val_main_v90 (F := Ideal) x0 x1 x2 x4 x5 x6 x7 x8 x9 x10 x11 x12 x13 (ix2 p ⟨a.val, h⟩) :=
  concat_cols_left _ _ concatenates_S1000000x128_S1000000x32_S1000000x160_d1 p a h
theorem cat115_hi (p : Fin 1000000) (a : Fin 160) (h : 128 ≤ a.val) :
    Read.val_main_v115 (F := Ideal) x0 x1 x2 x3 x4 x5 x6 x7 x8 x9 x10 x11 x12 x13 x14 x15 x16 x17 x18 x19 x20 x21 (ix2 p a) = Read.val_main_v114 (F := Ideal) x3 x14 x15 x16 x17 x18 x19 x20 x21 (ix2 p ⟨a.val - 128, by have := a.isLt; omega⟩) :=
  concat_cols_right _ _ concatenates_S1000000x128_S1000000x32_S1000000x160_d1 rfl p a h

/-! ### The first layer -/

/-- The mean of the neighbours' feature rows. -/
theorem agg1_at (i : Fin 100000) (d : Fin 128) : Read.val_main_v22 (F := Ideal) x0 x1 (ix2 i d) = agg1 (netOf x0 x3 x4 x5 x6 x7 x8 x9 x10 x11 x12 x13 x14 x15 x16 x17 x18 x19 x20 x21 x22 x23 x24 x25 x26 x27 x28 x29 x30 x31 x32 x33 x34 x35) (graphOf x1 x2) i d := by
  rw [Read.val_main_v22_apply, cntcol21_at, Ideal.hostDivf_def, v13_def, v10_def, ← g_cnt x1 x2, ← g_idst x1 x2,
    ← g_isrc x1 x2, mean_at (graphOf x1 x2) x0 (Read.val_main_v11 (F := Ideal)) zeros11 i d]
  close_rfl

theorem lin24_at (i : Fin 100000) (k : Fin 128) :
    Read.val_main_v24 (F := Ideal) x0 x1 x4 (ix2 i k) = linF (agg1 (netOf x0 x3 x4 x5 x6 x7 x8 x9 x10 x11 x12 x13 x14 x15 x16 x17 x18 x19 x20 x21 x22 x23 x24 x25 x26 x27 x28 x29 x30 x31 x32 x33 x34 x35) (graphOf x1 x2)) (netOf x0 x3 x4 x5 x6 x7 x8 x9 x10 x11 x12 x13 x14 x15 x16 x17 x18 x19 x20 x21 x22 x23 x24 x25 x26 x27 x28 x29 x30 x31 x32 x33 x34 x35).Wl1 i k := by
  rw [dot24_at]
  unfold linF
  exact Finset.sum_congr rfl fun d _ => congrArg (fun t => t * x4 (ix2 k d)) (agg1_at x0 x1 x2 x3 x4 x5 x6 x7 x8 x9 x10 x11 x12 x13 x14 x15 x16 x17 x18 x19 x20 x21 x22 x23 x24 x25 x26 x27 x28 x29 x30 x31 x32 x33 x34 x35 i d)

/-- The hidden features: two linear maps and a bias, batch norm, ReLU. -/
theorem h1_at (i : Fin 100000) (k : Fin 128) : Read.val_main_v44 (F := Ideal) x0 x1 x4 x5 x6 x7 x8 x9 x10 (ix2 i k) = h1R (netOf x0 x3 x4 x5 x6 x7 x8 x9 x10 x11 x12 x13 x14 x15 x16 x17 x18 x19 x20 x21 x22 x23 x24 x25 x26 x27 x28 x29 x30 x31 x32 x33 x34 x35) (graphOf x1 x2) i k := by
  rw [Read.val_main_v44_apply, Read.val_main_v43_apply, Read.val_main_v40_apply, Read.val_main_v33_apply,
    Read.val_main_v30_apply, Read.val_main_v27_apply, lin24_at x0 x1 x2 x3 x4 x5 x6 x7 x8 x9 x10 x11 x12 x13 x14 x15 x16 x17 x18 x19 x20 x21 x22 x23 x24 x25 x26 x27 x28 x29 x30 x31 x32 x33 x34 x35 i k, bl1_at, dot29_at, m1_at, scale1_at, b1_at,
    relu0]
  close_rfl

/-! ### The second layer: the node embeddings -/

/-- The mean of the neighbours' hidden rows. -/
theorem agg2_at (i : Fin 100000) (d : Fin 128) :
    Read.val_main_v63 (F := Ideal) x0 x1 x4 x5 x6 x7 x8 x9 x10 (ix2 i d) = meanAgg (graphOf x1 x2) (h1R (netOf x0 x3 x4 x5 x6 x7 x8 x9 x10 x11 x12 x13 x14 x15 x16 x17 x18 x19 x20 x21 x22 x23 x24 x25 x26 x27 x28 x29 x30 x31 x32 x33 x34 x35) (graphOf x1 x2)) i d := by
  rw [Read.val_main_v63_apply, cntcol62_at, Ideal.hostDivf_def, v54_def, v51_def, dst_again53, src_again,
    ← g_cnt x1 x2, ← g_idst x1 x2, ← g_isrc x1 x2,
    mean_at (graphOf x1 x2) (Read.val_main_v44 (F := Ideal) x0 x1 x4 x5 x6 x7 x8 x9 x10) (Read.val_main_v52 (F := Ideal)) zeros52 i d]
  exact congrArg (fun Y => meanAgg (graphOf x1 x2) Y i d) (funext fun i' => funext fun d' => h1_at x0 x1 x2 x3 x4 x5 x6 x7 x8 x9 x10 x11 x12 x13 x14 x15 x16 x17 x18 x19 x20 x21 x22 x23 x24 x25 x26 x27 x28 x29 x30 x31 x32 x33 x34 x35 i' d')

theorem lin65_at (i : Fin 100000) (k : Fin 64) :
    Read.val_main_v65 (F := Ideal) x0 x1 x4 x5 x6 x7 x8 x9 x10 x11 (ix2 i k) = linF (meanAgg (graphOf x1 x2) (h1R (netOf x0 x3 x4 x5 x6 x7 x8 x9 x10 x11 x12 x13 x14 x15 x16 x17 x18 x19 x20 x21 x22 x23 x24 x25 x26 x27 x28 x29 x30 x31 x32 x33 x34 x35) (graphOf x1 x2))) (netOf x0 x3 x4 x5 x6 x7 x8 x9 x10 x11 x12 x13 x14 x15 x16 x17 x18 x19 x20 x21 x22 x23 x24 x25 x26 x27 x28 x29 x30 x31 x32 x33 x34 x35).Wl2 i k := by
  rw [dot65_at]
  unfold linF
  exact Finset.sum_congr rfl fun d _ => congrArg (fun t => t * x11 (ix2 k d)) (agg2_at x0 x1 x2 x3 x4 x5 x6 x7 x8 x9 x10 x11 x12 x13 x14 x15 x16 x17 x18 x19 x20 x21 x22 x23 x24 x25 x26 x27 x28 x29 x30 x31 x32 x33 x34 x35 i d)

theorem lin70_at (i : Fin 100000) (k : Fin 64) :
    Read.val_main_v70 (F := Ideal) x0 x1 x4 x5 x6 x7 x8 x9 x10 x13 (ix2 i k) = linF (h1R (netOf x0 x3 x4 x5 x6 x7 x8 x9 x10 x11 x12 x13 x14 x15 x16 x17 x18 x19 x20 x21 x22 x23 x24 x25 x26 x27 x28 x29 x30 x31 x32 x33 x34 x35) (graphOf x1 x2)) (netOf x0 x3 x4 x5 x6 x7 x8 x9 x10 x11 x12 x13 x14 x15 x16 x17 x18 x19 x20 x21 x22 x23 x24 x25 x26 x27 x28 x29 x30 x31 x32 x33 x34 x35).Wr2 i k := by
  rw [dot70_at]
  unfold linF
  exact Finset.sum_congr rfl fun d _ => congrArg (fun t => t * x13 (ix2 k d)) (h1_at x0 x1 x2 x3 x4 x5 x6 x7 x8 x9 x10 x11 x12 x13 x14 x15 x16 x17 x18 x19 x20 x21 x22 x23 x24 x25 x26 x27 x28 x29 x30 x31 x32 x33 x34 x35 i d)

/-- THE NODE EMBEDDING the reference computes is `zR`. -/
theorem z_apply (i : Fin 100000) (j : Fin 64) : Read.val_main_v71 (F := Ideal) x0 x1 x4 x5 x6 x7 x8 x9 x10 x11 x12 x13 (ix2 i j) = zR (netOf x0 x3 x4 x5 x6 x7 x8 x9 x10 x11 x12 x13 x14 x15 x16 x17 x18 x19 x20 x21 x22 x23 x24 x25 x26 x27 x28 x29 x30 x31 x32 x33 x34 x35) (graphOf x1 x2) i j := by
  rw [Read.val_main_v71_apply, Read.val_main_v68_apply, lin65_at x0 x1 x2 x3 x4 x5 x6 x7 x8 x9 x10 x11 x12 x13 x14 x15 x16 x17 x18 x19 x20 x21 x22 x23 x24 x25 x26 x27 x28 x29 x30 x31 x32 x33 x34 x35 i j, bl2_at, lin70_at x0 x1 x2 x3 x4 x5 x6 x7 x8 x9 x10 x11 x12 x13 x14 x15 x16 x17 x18 x19 x20 x21 x22 x23 x24 x25 x26 x27 x28 x29 x30 x31 x32 x33 x34 x35 i j]
  close_rfl

/-! ### The candidate edges: end-node embeddings, the edge-feature network, the concatenation -/

theorem zsrc_at (p : Fin 1000000) (j : Fin 64) : Read.val_main_v80 (F := Ideal) x0 x1 x2 x4 x5 x6 x7 x8 x9 x10 x11 x12 x13 (ix2 p j) = zR (netOf x0 x3 x4 x5 x6 x7 x8 x9 x10 x11 x12 x13 x14 x15 x16 x17 x18 x19 x20 x21 x22 x23 x24 x25 x26 x27 x28 x29 x30 x31 x32 x33 x34 x35) (graphOf x1 x2) (end0 (graphOf x1 x2) p) j := by
  rw [v80_def]
  rw [gatherZ_at]
  exact z_apply x0 x1 x2 x3 x4 x5 x6 x7 x8 x9 x10 x11 x12 x13 x14 x15 x16 x17 x18 x19 x20 x21 x22 x23 x24 x25 x26 x27 x28 x29 x30 x31 x32 x33 x34 x35 _ j

theorem zdst_at (p : Fin 1000000) (j : Fin 64) : Read.val_main_v89 (F := Ideal) x0 x1 x2 x4 x5 x6 x7 x8 x9 x10 x11 x12 x13 (ix2 p j) = zR (netOf x0 x3 x4 x5 x6 x7 x8 x9 x10 x11 x12 x13 x14 x15 x16 x17 x18 x19 x20 x21 x22 x23 x24 x25 x26 x27 x28 x29 x30 x31 x32 x33 x34 x35) (graphOf x1 x2) (end1 (graphOf x1 x2) p) j := by
  rw [v89_def]
  rw [gatherZ_at]
  exact z_apply x0 x1 x2 x3 x4 x5 x6 x7 x8 x9 x10 x11 x12 x13 x14 x15 x16 x17 x18 x19 x20 x21 x22 x23 x24 x25 x26 x27 x28 x29 x30 x31 x32 x33 x34 x35 _ j

theorem e1_at (p : Fin 1000000) (r : Fin 64) : Read.val_main_v109 (F := Ideal) x3 x14 x15 x16 x17 x18 x19 (ix2 p r) = e1R (netOf x0 x3 x4 x5 x6 x7 x8 x9 x10 x11 x12 x13 x14 x15 x16 x17 x18 x19 x20 x21 x22 x23 x24 x25 x26 x27 x28 x29 x30 x31 x32 x33 x34 x35) p r := by
  rw [Read.val_main_v109_apply, Read.val_main_v108_apply, Read.val_main_v105_apply, Read.val_main_v98_apply,
    Read.val_main_v95_apply, dot92_at, eb1_at, em_at, scaleE_at, ebb_at, relu1]
  close_rfl

theorem lin111_at (i : Fin 1000000) (k : Fin 32) :
    Read.val_main_v111 (F := Ideal) x3 x14 x15 x16 x17 x18 x19 x20 (ix2 i k) = linF (e1R (netOf x0 x3 x4 x5 x6 x7 x8 x9 x10 x11 x12 x13 x14 x15 x16 x17 x18 x19 x20 x21 x22 x23 x24 x25 x26 x27 x28 x29 x30 x31 x32 x33 x34 x35)) (netOf x0 x3 x4 x5 x6 x7 x8 x9 x10 x11 x12 x13 x14 x15 x16 x17 x18 x19 x20 x21 x22 x23 x24 x25 x26 x27 x28 x29 x30 x31 x32 x33 x34 x35).eW2 i k := by
  rw [dot111_at]
  unfold linF
  exact Finset.sum_congr rfl fun d _ => congrArg (fun t => t * x20 (ix2 k d)) (e1_at x0 x3 x4 x5 x6 x7 x8 x9 x10 x11 x12 x13 x14 x15 x16 x17 x18 x19 x20 x21 x22 x23 x24 x25 x26 x27 x28 x29 x30 x31 x32 x33 x34 x35 i d)

theorem e2_at (p : Fin 1000000) (q : Fin 32) : Read.val_main_v114 (F := Ideal) x3 x14 x15 x16 x17 x18 x19 x20 x21 (ix2 p q) = e2R (netOf x0 x3 x4 x5 x6 x7 x8 x9 x10 x11 x12 x13 x14 x15 x16 x17 x18 x19 x20 x21 x22 x23 x24 x25 x26 x27 x28 x29 x30 x31 x32 x33 x34 x35) p q := by
  rw [Read.val_main_v114_apply, lin111_at x0 x3 x4 x5 x6 x7 x8 x9 x10 x11 x12 x13 x14 x15 x16 x17 x18 x19 x20 x21 x22 x23 x24 x25 x26 x27 x28 x29 x30 x31 x32 x33 x34 x35 p q, eb2_at]
  close_rfl

/-- The 160-wide row of candidate edge `p`: its two end nodes' embeddings, then its edge features. -/
theorem comb_at (p : Fin 1000000) (a : Fin 160) : Read.val_main_v115 (F := Ideal) x0 x1 x2 x3 x4 x5 x6 x7 x8 x9 x10 x11 x12 x13 x14 x15 x16 x17 x18 x19 x20 x21 (ix2 p a) = combR (netOf x0 x3 x4 x5 x6 x7 x8 x9 x10 x11 x12 x13 x14 x15 x16 x17 x18 x19 x20 x21 x22 x23 x24 x25 x26 x27 x28 x29 x30 x31 x32 x33 x34 x35) (graphOf x1 x2) (zR (netOf x0 x3 x4 x5 x6 x7 x8 x9 x10 x11 x12 x13 x14 x15 x16 x17 x18 x19 x20 x21 x22 x23 x24 x25 x26 x27 x28 x29 x30 x31 x32 x33 x34 x35) (graphOf x1 x2)) p a := by
  unfold combR
  by_cases h1 : a.val < 64
  · have h2 : a.val < 128 := by omega
    rw [dif_pos h1, cat115_lo x0 x1 x2 x3 x4 x5 x6 x7 x8 x9 x10 x11 x12 x13 x14 x15 x16 x17 x18 x19 x20 x21 p a h2]
    rw [cat90_lo x0 x1 x2 x4 x5 x6 x7 x8 x9 x10 x11 x12 x13 p ⟨a.val, h2⟩ h1]
    exact zsrc_at x0 x1 x2 x3 x4 x5 x6 x7 x8 x9 x10 x11 x12 x13 x14 x15 x16 x17 x18 x19 x20 x21 x22 x23 x24 x25 x26 x27 x28 x29 x30 x31 x32 x33 x34 x35 p ⟨a.val, h1⟩
  · rw [dif_neg h1]
    by_cases h2 : a.val < 128
    · rw [dif_pos h2, cat115_lo x0 x1 x2 x3 x4 x5 x6 x7 x8 x9 x10 x11 x12 x13 x14 x15 x16 x17 x18 x19 x20 x21 p a h2]
      rw [cat90_hi x0 x1 x2 x4 x5 x6 x7 x8 x9 x10 x11 x12 x13 p ⟨a.val, h2⟩ (by show 64 ≤ a.val; omega)]
      exact zdst_at x0 x1 x2 x3 x4 x5 x6 x7 x8 x9 x10 x11 x12 x13 x14 x15 x16 x17 x18 x19 x20 x21 x22 x23 x24 x25 x26 x27 x28 x29 x30 x31 x32 x33 x34 x35 p ⟨a.val - 64, by omega⟩
    · rw [dif_neg h2, cat115_hi x0 x1 x2 x3 x4 x5 x6 x7 x8 x9 x10 x11 x12 x13 x14 x15 x16 x17 x18 x19 x20 x21 p a (by omega)]
      exact e2_at x0 x3 x4 x5 x6 x7 x8 x9 x10 x11 x12 x13 x14 x15 x16 x17 x18 x19 x20 x21 x22 x23 x24 x25 x26 x27 x28 x29 x30 x31 x32 x33 x34 x35 p ⟨a.val - 128, by have := a.isLt; omega⟩

/-! ### The scorer -/

theorem lin117_at (i : Fin 1000000) (k : Fin 128) :
    Read.val_main_v117 (F := Ideal) x0 x1 x2 x3 x4 x5 x6 x7 x8 x9 x10 x11 x12 x13 x14 x15 x16 x17 x18 x19 x20 x21 x22 (ix2 i k) = linF (combR (netOf x0 x3 x4 x5 x6 x7 x8 x9 x10 x11 x12 x13 x14 x15 x16 x17 x18 x19 x20 x21 x22 x23 x24 x25 x26 x27 x28 x29 x30 x31 x32 x33 x34 x35) (graphOf x1 x2) (zR (netOf x0 x3 x4 x5 x6 x7 x8 x9 x10 x11 x12 x13 x14 x15 x16 x17 x18 x19 x20 x21 x22 x23 x24 x25 x26 x27 x28 x29 x30 x31 x32 x33 x34 x35) (graphOf x1 x2))) (netOf x0 x3 x4 x5 x6 x7 x8 x9 x10 x11 x12 x13 x14 x15 x16 x17 x18 x19 x20 x21 x22 x23 x24 x25 x26 x27 x28 x29 x30 x31 x32 x33 x34 x35).pW1 i k := by
  rw [dot117_at]
  unfold linF
  exact Finset.sum_congr rfl fun d _ => congrArg (fun t => t * x22 (ix2 k d)) (comb_at x0 x1 x2 x3 x4 x5 x6 x7 x8 x9 x10 x11 x12 x13 x14 x15 x16 x17 x18 x19 x20 x21 x22 x23 x24 x25 x26 x27 x28 x29 x30 x31 x32 x33 x34 x35 i d)

theorem u1_at (p : Fin 1000000) (k : Fin 128) : Read.val_main_v134 (F := Ideal) x0 x1 x2 x3 x4 x5 x6 x7 x8 x9 x10 x11 x12 x13 x14 x15 x16 x17 x18 x19 x20 x21 x22 x23 x24 x25 x26 x27 (ix2 p k) = u1R (netOf x0 x3 x4 x5 x6 x7 x8 x9 x10 x11 x12 x13 x14 x15 x16 x17 x18 x19 x20 x21 x22 x23 x24 x25 x26 x27 x28 x29 x30 x31 x32 x33 x34 x35) (graphOf x1 x2) (zR (netOf x0 x3 x4 x5 x6 x7 x8 x9 x10 x11 x12 x13 x14 x15 x16 x17 x18 x19 x20 x21 x22 x23 x24 x25 x26 x27 x28 x29 x30 x31 x32 x33 x34 x35) (graphOf x1 x2)) p k := by
  rw [Read.val_main_v134_apply, Read.val_main_v133_apply, Read.val_main_v130_apply, Read.val_main_v123_apply,
    Read.val_main_v120_apply, lin117_at x0 x1 x2 x3 x4 x5 x6 x7 x8 x9 x10 x11 x12 x13 x14 x15 x16 x17 x18 x19 x20 x21 x22 x23 x24 x25 x26 x27 x28 x29 x30 x31 x32 x33 x34 x35 p k, pb1_at, pm1_at, scaleP1_at, pbb1_at, relu2]
  close_rfl

theorem lin136_at (i : Fin 1000000) (k : Fin 64) :
    Read.val_main_v136 (F := Ideal) x0 x1 x2 x3 x4 x5 x6 x7 x8 x9 x10 x11 x12 x13 x14 x15 x16 x17 x18 x19 x20 x21 x22 x23 x24 x25 x26 x27 x28 (ix2 i k) = linF (u1R (netOf x0 x3 x4 x5 x6 x7 x8 x9 x10 x11 x12 x13 x14 x15 x16 x17 x18 x19 x20 x21 x22 x23 x24 x25 x26 x27 x28 x29 x30 x31 x32 x33 x34 x35) (graphOf x1 x2) (zR (netOf x0 x3 x4 x5 x6 x7 x8 x9 x10 x11 x12 x13 x14 x15 x16 x17 x18 x19 x20 x21 x22 x23 x24 x25 x26 x27 x28 x29 x30 x31 x32 x33 x34 x35) (graphOf x1 x2))) (netOf x0 x3 x4 x5 x6 x7 x8 x9 x10 x11 x12 x13 x14 x15 x16 x17 x18 x19 x20 x21 x22 x23 x24 x25 x26 x27 x28 x29 x30 x31 x32 x33 x34 x35).pW2 i k := by
  rw [dot136_at]
  unfold linF
  exact Finset.sum_congr rfl fun d _ => congrArg (fun t => t * x28 (ix2 k d)) (u1_at x0 x1 x2 x3 x4 x5 x6 x7 x8 x9 x10 x11 x12 x13 x14 x15 x16 x17 x18 x19 x20 x21 x22 x23 x24 x25 x26 x27 x28 x29 x30 x31 x32 x33 x34 x35 i d)

theorem u2_at (p : Fin 1000000) (r : Fin 64) : Read.val_main_v153 (F := Ideal) x0 x1 x2 x3 x4 x5 x6 x7 x8 x9 x10 x11 x12 x13 x14 x15 x16 x17 x18 x19 x20 x21 x22 x23 x24 x25 x26 x27 x28 x29 x30 x31 x32 x33 (ix2 p r) = u2R (netOf x0 x3 x4 x5 x6 x7 x8 x9 x10 x11 x12 x13 x14 x15 x16 x17 x18 x19 x20 x21 x22 x23 x24 x25 x26 x27 x28 x29 x30 x31 x32 x33 x34 x35) (graphOf x1 x2) (zR (netOf x0 x3 x4 x5 x6 x7 x8 x9 x10 x11 x12 x13 x14 x15 x16 x17 x18 x19 x20 x21 x22 x23 x24 x25 x26 x27 x28 x29 x30 x31 x32 x33 x34 x35) (graphOf x1 x2)) p r := by
  rw [Read.val_main_v153_apply, Read.val_main_v152_apply, Read.val_main_v149_apply, Read.val_main_v142_apply,
    Read.val_main_v139_apply, lin136_at x0 x1 x2 x3 x4 x5 x6 x7 x8 x9 x10 x11 x12 x13 x14 x15 x16 x17 x18 x19 x20 x21 x22 x23 x24 x25 x26 x27 x28 x29 x30 x31 x32 x33 x34 x35 p r, pb2_at, pm2_at, scaleP2_at, pbb2_at, relu3]
  close_rfl

theorem lin155_at (i : Fin 1000000) (k : Fin 1) :
    Read.val_main_v155 (F := Ideal) x0 x1 x2 x3 x4 x5 x6 x7 x8 x9 x10 x11 x12 x13 x14 x15 x16 x17 x18 x19 x20 x21 x22 x23 x24 x25 x26 x27 x28 x29 x30 x31 x32 x33 x34 (ix2 i k) = linF (u2R (netOf x0 x3 x4 x5 x6 x7 x8 x9 x10 x11 x12 x13 x14 x15 x16 x17 x18 x19 x20 x21 x22 x23 x24 x25 x26 x27 x28 x29 x30 x31 x32 x33 x34 x35) (graphOf x1 x2) (zR (netOf x0 x3 x4 x5 x6 x7 x8 x9 x10 x11 x12 x13 x14 x15 x16 x17 x18 x19 x20 x21 x22 x23 x24 x25 x26 x27 x28 x29 x30 x31 x32 x33 x34 x35) (graphOf x1 x2))) (netOf x0 x3 x4 x5 x6 x7 x8 x9 x10 x11 x12 x13 x14 x15 x16 x17 x18 x19 x20 x21 x22 x23 x24 x25 x26 x27 x28 x29 x30 x31 x32 x33 x34 x35).pW3 i k := by
  rw [dot155_at]
  unfold linF
  exact Finset.sum_congr rfl fun d _ => congrArg (fun t => t * x34 (ix2 k d)) (u2_at x0 x1 x2 x3 x4 x5 x6 x7 x8 x9 x10 x11 x12 x13 x14 x15 x16 x17 x18 x19 x20 x21 x22 x23 x24 x25 x26 x27 x28 x29 x30 x31 x32 x33 x34 x35 i d)

/-- THE REFERENCE'S RESULT at candidate edge `p` is `outR`. -/
theorem result_apply (p : Fin 1000000) : Read.val_main_v159 (F := Ideal) x0 x1 x2 x3 x4 x5 x6 x7 x8 x9 x10 x11 x12 x13 x14 x15 x16 x17 x18 x19 x20 x21 x22 x23 x24 x25 x26 x27 x28 x29 x30 x31 x32 x33 x34 x35 (ix1 p) = outR (netOf x0 x3 x4 x5 x6 x7 x8 x9 x10 x11 x12 x13 x14 x15 x16 x17 x18 x19 x20 x21 x22 x23 x24 x25 x26 x27 x28 x29 x30 x31 x32 x33 x34 x35) (graphOf x1 x2) p := by
  have hidx : Read.idx_main_v159 (ix1 p) = ix2 p (0 : Fin 1) := by
    funext a
    refine Fin.ext ?_
    match a with
    | ⟨0, _⟩ => exact Nat.div_one _
    | ⟨1, _⟩ => rfl
  rw [Read.val_main_v159_apply, hidx, Read.val_main_v158_apply, lin155_at x0 x1 x2 x3 x4 x5 x6 x7 x8 x9 x10 x11 x12 x13 x14 x15 x16 x17 x18 x19 x20 x21 x22 x23 x24 x25 x26 x27 x28 x29 x30 x31 x32 x33 x34 x35 p 0, pb3_at]
  close_rfl

end Cert.ReferenceIdeal.RefValue

end
-- ==== Proof.lean ====
/-
  A link predictor on a graph — two mean-aggregating graph-convolution layers, a small network on each candidate edge's
  features, and a three-layer scorer — computed by a kernel of two tiled regions among host operations, against its plain
  reference.  At the ideal instance (floats are extended reals, format changes the identity) the two programs differ in
  three arrangements only, and agree wherever the four batch-norm variances are non-negative, which the precondition
  states:
  * the batch-norm scale is `g · rsqrt (v + ε)` in the kernel and `g / √(v + ε)` in the reference: equal for `v ≥ 0`;
  * the kernel applies the second layer's linear map per node before the mean over incoming edges, the reference after:
    equal because the hidden features are non-negative and the edge count is a positive real;
  * the kernel feeds the scorer's first layer as three partial products, the reference as one product with the
    concatenation: a sum split into its three blocks.
  The kernel's result is read off its run: the second region's tiled output, sliced; the embedding the host assembles
  between the regions; the first region's two per-node products.  The reference's result is read off its run one
  operation at a time.  Both are the predictor's score index by index, and the algebra above joins them.
-/
import proofs.«156470_j39548058862205_2_alg».proof.Defs
import proofs.«156470_j39548058862205_2_alg».proof.Proof.Gen.Kernel
import proofs.«156470_j39548058862205_2_alg».proof.Proof.Gen.Kernel.Skeleton
import proofs.«156470_j39548058862205_2_alg».proof.Proof.Gen.Kernel.Launch
import proofs.«156470_j39548058862205_2_alg».proof.Proof.Gen.Kernel.Points
import proofs.«156470_j39548058862205_2_alg».proof.Proof.FramePatchKernel
import proofs.«156470_j39548058862205_2_alg».proof.Proof.Gen.KernelIdeal
import proofs.«156470_j39548058862205_2_alg».proof.Proof.FramePatchKernelIdeal
import proofs.«156470_j39548058862205_2_alg».proof.Proof.Gen.ReferenceIdeal
import proofs.«156470_j39548058862205_2_alg».proof.Proof.Gen.ReferenceIdeal.Run
import proofs.«156470_j39548058862205_2_alg».proof.Proof.Gen.ReferenceIdeal.Read
import proofs.«156470_j39548058862205_2_alg».proof.Proof.Gen.Pre_finite_inputs
import proofs.«156470_j39548058862205_2_alg».proof.Proof.PreVariance
import proofs.«156470_j39548058862205_2_alg».proof.Proof.SageBridge
import proofs.«156470_j39548058862205_2_alg».proof.Proof.KernelRun
import proofs.«156470_j39548058862205_2_alg».proof.Proof.KernelValue
import proofs.«156470_j39548058862205_2_alg».proof.Proof.RefValue
import Idealize.ShloMosaic.Adequacy
import Idealize.ShloMosaic.Init

set_option maxRecDepth 16384
set_option maxHeartbeats 4000000

noncomputable section

namespace Cert.Proof

open Idealize.ShloMosaic Idealize.ShloMosaic.TcCoe Idealize.SL.Sem Idealize.ShloMosaic.ValueIdx Idealize.ShloMosaic.StableHlo

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- A buffer of the kernel's first host stretch is the reference's stage of the same name's operations: both are the
    same operations of the same index argument. -/
theorem graph_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.RefValue.graphOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = Cert.KernelIdeal.Inputs.graphOfMem m ρ c := by
  have e1 : Cert.KernelIdeal.GenP.W1 m ρ c (Proc.devRef .tc Cert.KernelIdeal.main_v21)
      = Cert.ReferenceIdeal.Read.val_main_v19 (F := Ideal) (m ((c.tc : Thread Cert.KernelIdeal.nD Cert.KernelIdeal.τ).loc Cert.KernelIdeal.main_arg1)) := by
    show StableHlo.after Cert.KernelIdeal.Gen.hostOps0 (Cert.KernelIdeal.GenP.W0 m ρ c) (Proc.devRef .tc Cert.KernelIdeal.main_v21) = _
    after_results_simp
    rfl
  have e2 : Cert.KernelIdeal.GenP.W1 m ρ c (Proc.devRef .tc Cert.KernelIdeal.main_v10)
      = Cert.ReferenceIdeal.Read.val_main_v9 (F := Ideal) (m ((c.tc : Thread Cert.KernelIdeal.nD Cert.KernelIdeal.τ).loc Cert.KernelIdeal.main_arg1)) := by
    show StableHlo.after Cert.KernelIdeal.Gen.hostOps0 (Cert.KernelIdeal.GenP.W0 m ρ c) (Proc.devRef .tc Cert.KernelIdeal.main_v10) = _
    after_results_simp
    rfl
  have e3 : Cert.KernelIdeal.GenP.W1 m ρ c (Proc.devRef .tc Cert.KernelIdeal.main_v14)
      = Cert.ReferenceIdeal.Read.val_main_v12 (F := Ideal) (m ((c.tc : Thread Cert.KernelIdeal.nD Cert.KernelIdeal.τ).loc Cert.KernelIdeal.main_arg1)) := by
    show StableHlo.after Cert.KernelIdeal.Gen.hostOps0 (Cert.KernelIdeal.GenP.W0 m ρ c) (Proc.devRef .tc Cert.KernelIdeal.main_v14) = _
    after_results_simp
    rfl
  have e4 : Cert.KernelIdeal.GenP.W3 m ρ c (Proc.devRef .tc Cert.KernelIdeal.main_v75)
      = Cert.ReferenceIdeal.Read.val_main_v79 (F := Ideal) (m ((c.tc : Thread Cert.KernelIdeal.nD Cert.KernelIdeal.τ).loc Cert.KernelIdeal.main_arg2)) := by
    show StableHlo.after Cert.KernelIdeal.Gen.hostOps1 (Cert.KernelIdeal.GenP.W2 m ρ c) (Proc.devRef .tc Cert.KernelIdeal.main_v75) = _
    after_results_simp
    rw [Cert.KernelIdeal.GenP.W2_of_ne m ρ c Cert.KernelIdeal.main_arg2 (by decide)]
    show _ = _
    rfl
  have e5 : Cert.KernelIdeal.GenP.W3 m ρ c (Proc.devRef .tc Cert.KernelIdeal.main_v82)
      = Cert.ReferenceIdeal.Read.val_main_v88 (F := Ideal) (m ((c.tc : Thread Cert.KernelIdeal.nD Cert.KernelIdeal.τ).loc Cert.KernelIdeal.main_arg2)) := by
    show StableHlo.after Cert.KernelIdeal.Gen.hostOps1 (Cert.KernelIdeal.GenP.W2 m ρ c) (Proc.devRef .tc Cert.KernelIdeal.main_v82) = _
    after_results_simp
    rw [Cert.KernelIdeal.GenP.W2_of_ne m ρ c Cert.KernelIdeal.main_arg2 (by decide)]
    show _ = _
    rfl
  unfold Cert.ReferenceIdeal.RefValue.graphOf Cert.KernelIdeal.Inputs.graphOfMem
  rw [e1, e2, e3, e4, e5]

/-- The reference's result from the kernel's arguments is the kernel's result. -/
theorem result_bridge (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) = fun _ => 1#1) :
    Cert.ReferenceIdeal.Read.val_main_v159 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))
      = Cert.KernelIdeal.GenP.W10 m ρ c (Proc.devRef .tc Cert.KernelIdeal.main_v123) := by
  obtain ⟨hv1, hev, hpv1, hpv2⟩ := Cert.PreVariance.variances_nonneg _ _ _ _ _ _ _ _ _ _ _ _ _ _ _ _ _ _ _ _ _ _ _ _ _ _ _ _ _ _ _ _ _ _ _ _ hpre
  funext idx
  obtain ⟨p, rfl⟩ : ∃ p : Fin 1000000, idx = ix1 p := ⟨idx 0, eq_ix1 idx⟩
  rw [Cert.ReferenceIdeal.RefValue.result_apply, graph_eq m ρ c]
  refine (Cert.Sage.out_eq (Cert.KernelIdeal.Inputs.netOfMem m c) (Cert.KernelIdeal.Inputs.graphOfMem m ρ c) hv1 hev hpv1 hpv2 ?_ p).trans
    (Cert.KernelIdeal.OutValue.result_apply m ρ c p).symm
  intro i
  obtain ⟨c', hc', hcc⟩ := Cert.ReferenceIdeal.RefValue.cnt_pos (m ((c.tc : Thread Cert.KernelIdeal.nD Cert.KernelIdeal.τ).loc Cert.KernelIdeal.main_arg1)) i
  refine ⟨c', hc', ?_⟩
  rw [← graph_eq m ρ c, Cert.ReferenceIdeal.RefValue.g_cnt]
  exact hcc

theorem algebraic : Cert.algebraic_KernelIdeal_ReferenceIdeal := by
  intro m ρ m' ρ' hpre hagree
  refine ⟨fun c => Cert.KernelIdeal.GenP.W10 m ρ c (Proc.devRef .tc Cert.KernelIdeal.main_v123),
    Cert.KernelIdeal.RunValue.run_result (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35⟩ := hagree c
  rw [Cert.ReferenceIdeal.Read.val_main_v159_eq, h0, h1, h2, h3, h4, h5, h6, h7, h8, h9, h10, h11, h12, h13, h14, h15, h16, h17, h18, h19, h20, h21, h22, h23, h24, h25, h26, h27, h28, h29, h30, h31, h32, h33, h34, h35]
  exact result_bridge m ρ c (hpre c)

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
